-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000 : Shape := ⟨1, ![600000]⟩
abbrev S750000 : Shape := ⟨1, ![750000]⟩
abbrev S30000x300 : Shape := ⟨2, ![30000, 300]⟩
abbrev S300x300 : Shape := ⟨2, ![300, 300]⟩
abbrev S300 : Shape := ⟨1, ![300]⟩
abbrev S300x150 : Shape := ⟨2, ![300, 150]⟩
abbrev S150 : Shape := ⟨1, ![150]⟩
abbrev S150x2 : Shape := ⟨2, ![150, 2]⟩
abbrev S2 : Shape := ⟨1, ![2]⟩
abbrev S_ : Shape := ⟨0, ![]⟩

class Facts : Prop where
  bcast_S_S600000 : S_.BroadcastsInDim S600000 (![] : Fin 0 → Fin S600000.rank)
  reducesTo_S600000_S_d0 : S600000.ReducesTo [0] S_
  h_S_ : 0 < S_.numel
  bcast_S_S750000 : S_.BroadcastsInDim S750000 (![] : Fin 0 → Fin S750000.rank)
  reducesTo_S750000_S_d0 : S750000.ReducesTo [0] S_
  bcast_S_S30000x300 : S_.BroadcastsInDim S30000x300 (![] : Fin 0 → Fin S30000x300.rank)
  reducesTo_S30000x300_S_d0_1 : S30000x300.ReducesTo [0, 1] S_
  bcast_S_S300x300 : S_.BroadcastsInDim S300x300 (![] : Fin 0 → Fin S300x300.rank)
  reducesTo_S300x300_S_d0_1 : S300x300.ReducesTo [0, 1] S_
  bcast_S_S300 : S_.BroadcastsInDim S300 (![] : Fin 0 → Fin S300.rank)
  reducesTo_S300_S_d0 : S300.ReducesTo [0] S_
  bcast_S_S300x150 : S_.BroadcastsInDim S300x150 (![] : Fin 0 → Fin S300x150.rank)
  reducesTo_S300x150_S_d0_1 : S300x150.ReducesTo [0, 1] S_
  bcast_S_S150 : S_.BroadcastsInDim S150 (![] : Fin 0 → Fin S150.rank)
  reducesTo_S150_S_d0 : S150.ReducesTo [0] S_
  bcast_S_S150x2 : S_.BroadcastsInDim S150x2 (![] : Fin 0 → Fin S150x2.rank)
  reducesTo_S150x2_S_d0_1 : S150x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S150 .f32) (main_arg16 : FVec F S150x2 .f32) (main_arg17 : FVec F S2 .f32) (main_v48 : IVec S_ 1) (main_v49 : FVec F S300x150 .f32) (main_v50 : FVec F S300x150 .f32) : IVec S_ 1 :=
  let main_v51 : IVec S300x150 1 := cmpf .olt main_v49 main_v50
  let main_c_19 : IVec S_ 1 := constantI S_ 1 1#1
  let main_v52 : IVec S_ 1 := (fun x v => Host.reduce IntOp.andi x v reducesTo_S300x150_S_d0_1 h_S_) main_v51 main_c_19
  let main_v53 : IVec S_ 1 := andi main_v48 main_v52
  let main_v54 : FVec F S150 .f32 := Host.absf main_arg15
  let main_cst_20 : FVec F S_ .f32 := constant S_ .f32 0x7F800000#32
  let main_v55 : FVec F S150 .f32 := broadcastInDim S150 ![] bcast_S_S150 main_cst_20
  let main_v56 : IVec S150 1 := cmpf .olt main_v54 main_v55
  let main_c_21 : IVec S_ 1 := constantI S_ 1 1#1
  let main_v57 : IVec S_ 1 := (fun x v => Host.reduce IntOp.andi x v reducesTo_S150_S_d0 h_S_) main_v56 main_c_21
  let main_v58 : IVec S_ 1 := andi main_v53 main_v57
  let main_v59 : FVec F S150x2 .f32 := Host.absf main_arg16
  let main_cst_22 : FVec F S_ .f32 := constant S_ .f32 0x7F800000#32
  let main_v60 : FVec F S150x2 .f32 := broadcastInDim S150x2 ![] bcast_S_S150x2 main_cst_22
  let main_v61 : IVec S150x2 1 := cmpf .olt main_v59 main_v60
  let main_c_23 : IVec S_ 1 := constantI S_ 1 1#1
  let main_v62 : IVec S_ 1 := (fun x v => Host.reduce IntOp.andi x v reducesTo_S150x2_S_d0_1 h_S_) main_v61 main_c_23
  let main_v63 : IVec S_ 1 := andi main_v58 main_v62
  let main_v64 : FVec F S2 .f32 := Host.absf main_arg17
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg11 : FVec F S300 .f32) (main_arg12 : FVec F S300x300 .f32) (main_arg13 : FVec F S300 .f32) (main_arg14 : FVec F S300x150 .f32) (main_arg15 : FVec F S150 .f32) (main_arg16 : FVec F S150x2 .f32) (main_arg17 : FVec F S2 .f32) (main_v33 : IVec S_ 1) : IVec S_ 1 :=
  let main_v34 : FVec F S300 .f32 := Host.absf main_arg11
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S300x300 .f32 := Host.absf main_arg12
  let main_cst_14 : FVec F S_ .f32 := constant S_ .f32 0x7F800000#32
  let main_v40 : FVec F S300x300 .f32 := broadcastInDim S300x300 ![] bcast_S_S300x300 main_cst_14
  let main_v41 : IVec S300x300 1 := cmpf .olt main_v39 main_v40
  let main_c_15 : IVec S_ 1 := constantI S_ 1 1#1
  let main_v42 : IVec S_ 1 := (fun x v => Host.reduce IntOp.andi x v reducesTo_S300x300_S_d0_1 h_S_) main_v41 main_c_15
  let main_v43 : IVec S_ 1 := andi main_v38 main_v42
  let main_v44 : FVec F S300 .f32 := Host.absf main_arg13
  let main_cst_16 : FVec F S_ .f32 := constant S_ .f32 0x7F800000#32
  let main_v45 : FVec F S300 .f32 := broadcastInDim S300 ![] bcast_S_S300 main_cst_16
  let main_v46 : IVec S300 1 := cmpf .olt main_v44 main_v45
  let main_c_17 : IVec S_ 1 := constantI S_ 1 1#1
  let main_v47 : IVec S_ 1 := (fun x v => Host.reduce IntOp.andi x v reducesTo_S300_S_d0 h_S_) main_v46 main_c_17
  let main_v48 : IVec S_ 1 := andi main_v43 main_v47
  let main_v49 : FVec F S300x150 .f32 := Host.absf main_arg14
  let main_cst_18 : FVec F S_ .f32 := constant S_ .f32 0x7F800000#32
  let main_v50 : FVec F S300x150 .f32 := broadcastInDim S300x150 ![] bcast_S_S300x150 main_cst_18
  fn_part3 (F := F) main_arg15 main_arg16 main_arg17 main_v48 main_v49 main_v50

def fn_part1 {F : FTy → Type} [FloatOps F] (main_arg8 : FVec F S300x300 .f32) (main_arg9 : FVec F S300x300 .f32) (main_arg10 : FVec F S300 .f32) (main_arg11 : FVec F S300 .f32) (main_arg12 : FVec F S300x300 .f32) (main_arg13 : FVec F S300 .f32) (main_arg14 : FVec F S300x150 .f32) (main_arg15 : FVec F S150 .f32) (main_arg16 : FVec F S150x2 .f32) (main_arg17 : FVec F S2 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S300x300 .f32 := Host.absf main_arg8
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S300x300 .f32 := Host.absf main_arg9
  let main_cst_8 : FVec F S_ .f32 := constant S_ .f32 0x7F800000#32
  let main_v25 : FVec F S300x300 .f32 := broadcastInDim S300x300 ![] bcast_S_S300x300 main_cst_8
  let main_v26 : IVec S300x300 1 := cmpf .olt main_v24 main_v25
  let main_c_9 : IVec S_ 1 := constantI S_ 1 1#1
  let main_v27 : IVec S_ 1 := (fun x v => Host.reduce IntOp.andi x v reducesTo_S300x300_S_d0_1 h_S_) main_v26 main_c_9
  let main_v28 : IVec S_ 1 := andi main_v23 main_v27
  let main_v29 : FVec F S300 .f32 := Host.absf main_arg10
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : IVec S600000 32) (main_arg1 : IVec S600000 32) (main_arg2 : FVec F S600000 .f32) (main_arg3 : IVec S750000 32) (main_arg4 : IVec S750000 32) (main_arg5 : FVec F S750000 .f32) (main_arg6 : FVec F S30000x300 .f32) (main_arg7 : FVec F S300x300 .f32) (main_arg8 : FVec F S300x300 .f32) (main_arg9 : FVec F S300x300 .f32) (main_arg10 : FVec F S300 .f32) (main_arg11 : FVec F S300 .f32) (main_arg12 : FVec F S300x300 .f32) (main_arg13 : FVec F S300 .f32) (main_arg14 : FVec F S300x150 .f32) (main_arg15 : FVec F S150 .f32) (main_arg16 : FVec F S150x2 .f32) (main_arg17 : FVec F S2 .f32) : IVec S_ 1 :=
  let main_v0 : FVec F S600000 .f32 := Host.absf main_arg2
  let main_cst : FVec F S_ .f32 := constant S_ .f32 0x7F800000#32
  let main_v1 : FVec F S600000 .f32 := broadcastInDim S600000 ![] bcast_S_S600000 main_cst
  let main_v2 : IVec S600000 1 := cmpf .olt main_v0 main_v1
  let main_c : IVec S_ 1 := constantI S_ 1 1#1
  let main_v3 : IVec S_ 1 := (fun x v => Host.reduce IntOp.andi x v reducesTo_S600000_S_d0 h_S_) main_v2 main_c
  let main_v4 : FVec F S750000 .f32 := Host.absf main_arg5
  let main_cst_0 : FVec F S_ .f32 := constant S_ .f32 0x7F800000#32
  let main_v5 : FVec F S750000 .f32 := broadcastInDim S750000 ![] bcast_S_S750000 main_cst_0
  let main_v6 : IVec S750000 1 := cmpf .olt main_v4 main_v5
  let main_c_1 : IVec S_ 1 := constantI S_ 1 1#1
  let main_v7 : IVec S_ 1 := (fun x v => Host.reduce IntOp.andi x v reducesTo_S750000_S_d0 h_S_) main_v6 main_c_1
  let main_v8 : IVec S_ 1 := andi main_v3 main_v7
  let main_v9 : FVec F S30000x300 .f32 := Host.absf main_arg6
  let main_cst_2 : FVec F S_ .f32 := constant S_ .f32 0x7F800000#32
  let main_v10 : FVec F S30000x300 .f32 := broadcastInDim S30000x300 ![] bcast_S_S30000x300 main_cst_2
  let main_v11 : IVec S30000x300 1 := cmpf .olt main_v9 main_v10
  let main_c_3 : IVec S_ 1 := constantI S_ 1 1#1
  let main_v12 : IVec S_ 1 := (fun x v => Host.reduce IntOp.andi x v reducesTo_S30000x300_S_d0_1 h_S_) main_v11 main_c_3
  let main_v13 : IVec S_ 1 := andi main_v8 main_v12
  let main_v14 : FVec F S300x300 .f32 := Host.absf main_arg7
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg8 main_arg9 main_arg10 main_arg11 main_arg12 main_arg13 main_arg14 main_arg15 main_arg16 main_arg17 main_v13 main_v16
-- ==== Kernel.lean ====
abbrev S600000 : Shape := ⟨1, ![600000]⟩
abbrev S750000 : Shape := ⟨1, ![750000]⟩
abbrev S30000x300 : Shape := ⟨2, ![30000, 300]⟩
abbrev S300x300 : Shape := ⟨2, ![300, 300]⟩
abbrev S300 : Shape := ⟨1, ![300]⟩
abbrev S300x150 : Shape := ⟨2, ![300, 150]⟩
abbrev S150 : Shape := ⟨1, ![150]⟩
abbrev S150x2 : Shape := ⟨2, ![150, 2]⟩
abbrev S2 : Shape := ⟨1, ![2]⟩
abbrev S600000x1 : Shape := ⟨2, ![600000, 1]⟩
abbrev S_ : Shape := ⟨0, ![]⟩
abbrev S600000x300 : Shape := ⟨2, ![600000, 300]⟩
abbrev S3000x300 : Shape := ⟨2, ![3000, 300]⟩
abbrev S1x300 : Shape := ⟨2, ![1, 300]⟩
abbrev S2000x300 : Shape := ⟨2, ![2000, 300]⟩
abbrev S2000 : Shape := ⟨1, ![2000]⟩
abbrev S2000x1 : Shape := ⟨2, ![2000, 1]⟩
abbrev S750000x1 : Shape := ⟨2, ![750000, 1]⟩
abbrev S750000x300 : Shape := ⟨2, ![750000, 300]⟩
abbrev S15000x300 : Shape := ⟨2, ![15000, 300]⟩
abbrev S1x150 : Shape := ⟨2, ![1, 150]⟩
abbrev S1x2 : Shape := ⟨2, ![1, 2]⟩
abbrev S15000x2 : Shape := ⟨2, ![15000, 2]⟩
abbrev S1000x300 : Shape := ⟨2, ![1000, 300]⟩
abbrev S1000x2 : Shape := ⟨2, ![1000, 2]⟩
abbrev S1000x150 : Shape := ⟨2, ![1000, 150]⟩

abbrev nBuf : Space → Nat
  | .hbm => 108
  | .vmem => 35
  | .smem => 0
  | _ => 0

abbrev bufTy : (tb : Table) → Fin (tcTables nBuf tb) → BufTy
  | .hbm, ⟨0, _⟩ => ⟨S600000, .i32⟩
  | .hbm, ⟨1, _⟩ => ⟨S600000, .i32⟩
  | .hbm, ⟨2, _⟩ => ⟨S600000, .f32⟩
  | .hbm, ⟨3, _⟩ => ⟨S750000, .i32⟩
  | .hbm, ⟨4, _⟩ => ⟨S750000, .i32⟩
  | .hbm, ⟨5, _⟩ => ⟨S750000, .f32⟩
  | .hbm, ⟨6, _⟩ => ⟨S30000x300, .f32⟩
  | .hbm, ⟨7, _⟩ => ⟨S300x300, .f32⟩
  | .hbm, ⟨8, _⟩ => ⟨S300x300, .f32⟩
  | .hbm, ⟨9, _⟩ => ⟨S300x300, .f32⟩
  | .hbm, ⟨10, _⟩ => ⟨S300, .f32⟩
  | .hbm, ⟨11, _⟩ => ⟨S300, .f32⟩
  | .hbm, ⟨12, _⟩ => ⟨S300x300, .f32⟩
  | .hbm, ⟨13, _⟩ => ⟨S300, .f32⟩
  | .hbm, ⟨14, _⟩ => ⟨S300x150, .f32⟩
  | .hbm, ⟨15, _⟩ => ⟨S150, .f32⟩
  | .hbm, ⟨16, _⟩ => ⟨S150x2, .f32⟩
  | .hbm, ⟨17, _⟩ => ⟨S2, .f32⟩
  | .hbm, ⟨18, _⟩ => ⟨S600000x1, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x300, .f32⟩
  | .hbm, ⟨28, _⟩ => ⟨S600000x300, .f32⟩
  | .hbm, ⟨29, _⟩ => ⟨S600000x300, .f32⟩
  | .hbm, ⟨30, _⟩ => ⟨S_, .f32⟩
  | .hbm, ⟨31, _⟩ => ⟨S30000x300, .f32⟩
  | .hbm, ⟨32, _⟩ => ⟨S600000x1, .i32⟩
  | .hbm, ⟨33, _⟩ => ⟨S30000x300, .f32⟩
  | .hbm, ⟨34, _⟩ => ⟨S30000x300, .f32⟩
  | .hbm, ⟨35, _⟩ => ⟨S600000x1, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x300, .f32⟩
  | .hbm, ⟨45, _⟩ => ⟨S600000x300, .f32⟩
  | .hbm, ⟨46, _⟩ => ⟨S600000x300, .f32⟩
  | .hbm, ⟨47, _⟩ => ⟨S_, .f32⟩
  | .hbm, ⟨48, _⟩ => ⟨S30000x300, .f32⟩
  | .hbm, ⟨49, _⟩ => ⟨S600000x1, .i32⟩
  | .hbm, ⟨50, _⟩ => ⟨S30000x300, .f32⟩
  | .hbm, ⟨51, _⟩ => ⟨S30000x300, .f32⟩
  | .hbm, ⟨52, _⟩ => ⟨S600000x1, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x300, .f32⟩
  | .hbm, ⟨62, _⟩ => ⟨S600000x300, .f32⟩
  | .hbm, ⟨63, _⟩ => ⟨S600000x300, .f32⟩
  | .hbm, ⟨64, _⟩ => ⟨S_, .f32⟩
  | .hbm, ⟨65, _⟩ => ⟨S30000x300, .f32⟩
  | .hbm, ⟨66, _⟩ => ⟨S600000x1, .i32⟩
  | .hbm, ⟨67, _⟩ => ⟨S30000x300, .f32⟩
  | .hbm, ⟨68, _⟩ => ⟨S30000x300, .f32⟩
  | .hbm, ⟨69, _⟩ => ⟨S1x300, .f32⟩
  | .hbm, ⟨70, _⟩ => ⟨S1x300, .f32⟩
  | .hbm, ⟨71, _⟩ => ⟨S30000x300, .f32⟩
  | .hbm, ⟨72, _⟩ => ⟨S750000x1, .f32⟩
  | .hbm, ⟨73, _⟩ => ⟨S_, .i32⟩
  | .hbm, ⟨74, _⟩ => ⟨S750000, .i32⟩
  | .hbm, ⟨75, _⟩ => ⟨S750000, .i1⟩
  | .hbm, ⟨76, _⟩ => ⟨S_, .i32⟩
  | .hbm, ⟨77, _⟩ => ⟨S750000, .i32⟩
  | .hbm, ⟨78, _⟩ => ⟨S750000, .i32⟩
  | .hbm, ⟨79, _⟩ => ⟨S750000, .i32⟩
  | .hbm, ⟨80, _⟩ => ⟨S750000x1, .i32⟩
  | .hbm, ⟨81, _⟩ => ⟨S750000x300, .f32⟩
  | .hbm, ⟨82, _⟩ => ⟨S750000x300, .f32⟩
  | .hbm, ⟨83, _⟩ => ⟨S750000x300, .f32⟩
  | .hbm, ⟨84, _⟩ => ⟨S_, .f32⟩
  | .hbm, ⟨85, _⟩ => ⟨S15000x300, .f32⟩
  | .hbm, ⟨86, _⟩ => ⟨S750000x1, .i32⟩
  | .hbm, ⟨87, _⟩ => ⟨S15000x300, .f32⟩
  | .hbm, ⟨88, _⟩ => ⟨S750000x1, .f32⟩
  | .hbm, ⟨89, _⟩ => ⟨S_, .i32⟩
  | .hbm, ⟨90, _⟩ => ⟨S750000, .i32⟩
  | .hbm, ⟨91, _⟩ => ⟨S750000, .i1⟩
  | .hbm, ⟨92, _⟩ => ⟨S_, .i32⟩
  | .hbm, ⟨93, _⟩ => ⟨S750000, .i32⟩
  | .hbm, ⟨94, _⟩ => ⟨S750000, .i32⟩
  | .hbm, ⟨95, _⟩ => ⟨S750000, .i32⟩
  | .hbm, ⟨96, _⟩ => ⟨S750000x1, .i32⟩
  | .hbm, ⟨97, _⟩ => ⟨S750000x300, .f32⟩
  | .hbm, ⟨98, _⟩ => ⟨S750000x300, .f32⟩
  | .hbm, ⟨99, _⟩ => ⟨S750000x300, .f32⟩
  | .hbm, ⟨100, _⟩ => ⟨S_, .f32⟩
  | .hbm, ⟨101, _⟩ => ⟨S15000x300, .f32⟩
  | .hbm, ⟨102, _⟩ => ⟨S750000x1, .i32⟩
  | .hbm, ⟨103, _⟩ => ⟨S15000x300, .f32⟩
  | .hbm, ⟨104, _⟩ => ⟨S1x300, .f32⟩
  | .hbm, ⟨105, _⟩ => ⟨S1x150, .f32⟩
  | .hbm, ⟨106, _⟩ => ⟨S1x2, .f32⟩
  | .hbm, ⟨107, _⟩ => ⟨S15000x2, .f32⟩
  | .local _ .vmem, ⟨0, _⟩ => ⟨S3000x300, .f32⟩
  | .local _ .vmem, ⟨1, _⟩ => ⟨S3000x300, .f32⟩
  | .local _ .vmem, ⟨2, _⟩ => ⟨S300x300, .f32⟩
  | .local _ .vmem, ⟨3, _⟩ => ⟨S3000x300, .f32⟩
  | .local _ .vmem, ⟨4, _⟩ => ⟨S3000x300, .f32⟩
  | .local _ .vmem, ⟨5, _⟩ => ⟨S3000x300, .f32⟩
  | .local _ .vmem, ⟨6, _⟩ => ⟨S3000x300, .f32⟩
  | .local _ .vmem, ⟨7, _⟩ => ⟨S300x300, .f32⟩
  | .local _ .vmem, ⟨8, _⟩ => ⟨S3000x300, .f32⟩
  | .local _ .vmem, ⟨9, _⟩ => ⟨S3000x300, .f32⟩
  | .local _ .vmem, ⟨10, _⟩ => ⟨S3000x300, .f32⟩
  | .local _ .vmem, ⟨11, _⟩ => ⟨S3000x300, .f32⟩
  | .local _ .vmem, ⟨12, _⟩ => ⟨S300x300, .f32⟩
  | .local _ .vmem, ⟨13, _⟩ => ⟨S3000x300, .f32⟩
  | .local _ .vmem, ⟨14, _⟩ => ⟨S3000x300, .f32⟩
  | .local _ .vmem, ⟨15, _⟩ => ⟨S2000x300, .f32⟩
  | .local _ .vmem, ⟨16, _⟩ => ⟨S2000x300, .f32⟩
  | .local _ .vmem, ⟨17, _⟩ => ⟨S2000x300, .f32⟩
  | .local _ .vmem, ⟨18, _⟩ => ⟨S2000x300, .f32⟩
  | .local _ .vmem, ⟨19, _⟩ => ⟨S1x300, .f32⟩
  | .local _ .vmem, ⟨20, _⟩ => ⟨S1x300, .f32⟩
  | .local _ .vmem, ⟨21, _⟩ => ⟨S2000x300, .f32⟩
  | .local _ .vmem, ⟨22, _⟩ => ⟨S2000x300, .f32⟩
  | .local _ .vmem, ⟨23, _⟩ => ⟨S1000x300, .f32⟩
  | .local _ .vmem, ⟨24, _⟩ => ⟨S1000x300, .f32⟩
  | .local _ .vmem, ⟨25, _⟩ => ⟨S1000x300, .f32⟩
  | .local _ .vmem, ⟨26, _⟩ => ⟨S1000x300, .f32⟩
  | .local _ .vmem, ⟨27, _⟩ => ⟨S300x300, .f32⟩
  | .local _ .vmem, ⟨28, _⟩ => ⟨S1x300, .f32⟩
  | .local _ .vmem, ⟨29, _⟩ => ⟨S300x150, .f32⟩
  | .local _ .vmem, ⟨30, _⟩ => ⟨S1x150, .f32⟩
  | .local _ .vmem, ⟨31, _⟩ => ⟨S150x2, .f32⟩
  | .local _ .vmem, ⟨32, _⟩ => ⟨S1x2, .f32⟩
  | .local _ .vmem, ⟨33, _⟩ => ⟨S1000x2, .f32⟩
  | .local _ .vmem, ⟨34, _⟩ => ⟨S1000x2, .f32⟩
  | _, _ => ⟨S600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_7 : Ref sig .tc := ⟨.hbm, 73, rfl⟩
abbrev main_v46 : Ref sig .tc := ⟨.hbm, 74, rfl⟩
abbrev main_v47 : Ref sig .tc := ⟨.hbm, 75, rfl⟩
abbrev main_c_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_10 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg4_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg7_0 : Ref sig .tc := ⟨.vmem, 32, rfl⟩
abbrev cc4_stg8_0 : Ref sig .tc := ⟨.vmem, 33, rfl⟩
abbrev cc4_stg8_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21
abbrev cc3_sem4_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem7_0 : DmaSem sig := 32
abbrev cc4_sem8_0 : DmaSem sig := 33
abbrev cc4_sem8_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3000x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S300x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3000x300 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x300 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![15], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x300 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x300 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S300x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S300x150 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x150 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S150x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S1000x2 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x300_0_1 : S600000x1.BroadcastsInDim S600000x300 (![0, 1] : Fin 2 → Fin S600000x300.rank)
  bcast_S_S30000x300 : S_.BroadcastsInDim S30000x300 (![] : Fin 0 → Fin S30000x300.rank)
  inb_S3000x300_S3000x300_0_0 : ∀ a, (![0, 0] : Fin 2 → Nat) a + S3000x300.size a ≤ S3000x300.size a
  h_S3000x300 : 0 < S3000x300.numel
  shapeCasts_S3000x300_S3000x300 : S3000x300.ShapeCasts S3000x300
  bitsLt_bf16_f32 : FTy.bits .bf16 < FTy.bits .f32
  inb_S300x300_S300x300_0_0 : ∀ a, (![0, 0] : Fin 2 → Nat) a + S300x300.size a ≤ S300x300.size a
  h_S300x300 : 0 < S300x300.numel
  shapeCasts_S300_S1x300 : S300.ShapeCasts S1x300
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  reduces_S2000x300_S2000 : S2000x300.Reduces [1] S2000
  shapeCasts_S2000_S2000x1 : S2000.ShapeCasts S2000x1
  broadcasts_S2000x1_S2000x300 : S2000x1.Broadcasts S2000x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  bcast_S750000_S750000x1_0 : S750000.BroadcastsInDim S750000x1 (![0] : Fin 1 → Fin S750000x1.rank)
  bcast_S_S750000 : S_.BroadcastsInDim S750000 (![] : Fin 0 → Fin S750000.rank)
  bcast_S750000x1_S750000x300_0_1 : S750000x1.BroadcastsInDim S750000x300 (![0, 1] : Fin 2 → Fin S750000x300.rank)
  bcast_S_S15000x300 : S_.BroadcastsInDim S15000x300 (![] : Fin 0 → Fin S15000x300.rank)
  shapeCasts_S150_S1x150 : S150.ShapeCasts S1x150
  shapeCasts_S2_S1x2 : S2.ShapeCasts S1x2
  inb_S1000x300_S1000x300_0_0 : ∀ a, (![0, 0] : Fin 2 → Nat) a + S1000x300.size a ≤ S1000x300.size a
  h_S1000x300 : 0 < S1000x300.numel
  shapeCasts_S1000x300_S1000x300 : S1000x300.ShapeCasts S1000x300
  broadcasts_S1x300_S1000x300 : S1x300.Broadcasts S1000x300
  inb_S300x150_S300x150_0_0 : ∀ a, (![0, 0] : Fin 2 → Nat) a + S300x150.size a ≤ S300x150.size a
  h_S300x150 : 0 < S300x150.numel
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S1000x150 : S1x150.Broadcasts S1000x150
  inb_S150x2_S150x2_0_0 : ∀ a, (![0, 0] : Fin 2 → Nat) a + S150x2.size a ≤ S150x2.size a
  h_S150x2 : 0 < S150x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  gather_S30000x300_S600000x1_S600000x300_1_0_n_n_0_1_1300_wf : GatherDims.WF S30000x300 S600000x1 S600000x300 [1] [0] [] [0] [] 1 ![1, 300]
  scatter_S30000x300_S600000x1_S600000x300_1_0_0_1_wf : ScatterDims.WF S30000x300 S600000x1 S600000x300 [1] [0] [0] 1
  dot_S3000x300_S300x300_S3000x300_1_0_0_1_n_n_wf : DotDims.WF S3000x300 S300x300 S3000x300 [1] [0] [0] [1] [] []
  gather_S30000x300_S750000x1_S750000x300_1_0_n_n_0_1_1300_wf : GatherDims.WF S30000x300 S750000x1 S750000x300 [1] [0] [] [0] [] 1 ![1, 300]
  scatter_S15000x300_S750000x1_S750000x300_1_0_0_1_wf : ScatterDims.WF S15000x300 S750000x1 S750000x300 [1] [0] [0] 1
  dot_S1000x300_S300x300_S1000x300_1_0_0_1_n_n_wf : DotDims.WF S1000x300 S300x300 S1000x300 [1] [0] [0] [1] [] []
  dot_S1000x300_S300x150_S1000x150_1_0_0_1_n_n_wf : DotDims.WF S1000x300 S300x150 S1000x150 [1] [0] [0] [1] [] []
  dot_S1000x150_S150x2_S1000x2_1_0_0_1_n_n_wf : DotDims.WF S1000x150 S150x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x300.size a ≤ S30000x300.size a
  hwx0_0 : ∀ i : grid0.Coords, EltTy.bits .f32 = 32 ∨ (Rect.block (s := S30000x300) S3000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x300.size a ≤ S300x300.size a
  hwx0_1 : ∀ i : grid0.Coords, EltTy.bits .f32 = 32 ∨ (Rect.block (s := S300x300) S300x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x300.size a ≤ S30000x300.size a
  hwx0_2 : ∀ i : grid0.Coords, EltTy.bits .f32 = 32 ∨ (Rect.block (s := S30000x300) S3000x300.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x300.size a ≤ S30000x300.size a
  hwx1_0 : ∀ i : grid1.Coords, EltTy.bits .f32 = 32 ∨ (Rect.block (s := S30000x300) S3000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x300.size a ≤ S300x300.size a
  hwx1_1 : ∀ i : grid1.Coords, EltTy.bits .f32 = 32 ∨ (Rect.block (s := S300x300) S300x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x300.size a ≤ S30000x300.size a
  hwx1_2 : ∀ i : grid1.Coords, EltTy.bits .f32 = 32 ∨ (Rect.block (s := S30000x300) S3000x300.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x300.size a ≤ S30000x300.size a
  hwx2_0 : ∀ i : grid2.Coords, EltTy.bits .f32 = 32 ∨ (Rect.block (s := S30000x300) S3000x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S300x300.size a ≤ S300x300.size a
  hwx2_1 : ∀ i : grid2.Coords, EltTy.bits .f32 = 32 ∨ (Rect.block (s := S300x300) S300x300.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x300.size a ≤ S30000x300.size a
  hwx2_2 : ∀ i : grid2.Coords, EltTy.bits .f32 = 32 ∨ (Rect.block (s := S30000x300) S3000x300.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x300.size a ≤ S30000x300.size a
  hwx3_0 : ∀ i : grid3.Coords, EltTy.bits .f32 = 32 ∨ (Rect.block (s := S30000x300) S2000x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x300.size a ≤ S30000x300.size a
  hwx3_1 : ∀ i : grid3.Coords, EltTy.bits .f32 = 32 ∨ (Rect.block (s := S30000x300) S2000x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x300.size a ≤ S1x300.size a
  hwx3_2 : ∀ i : grid3.Coords, EltTy.bits .f32 = 32 ∨ (Rect.block (s := S1x300) S1x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x300.size a ≤ S1x300.size a
  hwx3_3 : ∀ i : grid3.Coords, EltTy.bits .f32 = 32 ∨ (Rect.block (s := S1x300) S1x300.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x300.size a ≤ S30000x300.size a
  hwx3_4 : ∀ i : grid3.Coords, EltTy.bits .f32 = 32 ∨ (Rect.block (s := S30000x300) S2000x300.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x300.size a ≤ S15000x300.size a
  hwx4_0 : ∀ i : grid4.Coords, EltTy.bits .f32 = 32 ∨ (Rect.block (s := S15000x300) S1000x300.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x300.size a ≤ S15000x300.size a
  hwx4_1 : ∀ i : grid4.Coords, EltTy.bits .f32 = 32 ∨ (Rect.block (s := S15000x300) S1000x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S300x300.size a ≤ S300x300.size a
  hwx4_2 : ∀ i : grid4.Coords, EltTy.bits .f32 = 32 ∨ (Rect.block (s := S300x300) S300x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x300.size a ≤ S1x300.size a
  hwx4_3 : ∀ i : grid4.Coords, EltTy.bits .f32 = 32 ∨ (Rect.block (s := S1x300) S1x300.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S300x150.size a ≤ S300x150.size a
  hwx4_4 : ∀ i : grid4.Coords, EltTy.bits .f32 = 32 ∨ (Rect.block (s := S300x150) S300x150.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x150.size a ≤ S1x150.size a
  hwx4_5 : ∀ i : grid4.Coords, EltTy.bits .f32 = 32 ∨ (Rect.block (s := S1x150) S1x150.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S150x2.size a ≤ S150x2.size a
  hwx4_6 : ∀ i : grid4.Coords, EltTy.bits .f32 = 32 ∨ (Rect.block (s := S150x2) S150x2.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x2.size a ≤ S1x2.size a
  hwx4_7 : ∀ i : grid4.Coords, EltTy.bits .f32 = 32 ∨ (Rect.block (s := S1x2) S1x2.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1000x2.size a ≤ S15000x2.size a
  hwx4_8 : ∀ i : grid4.Coords, EltTy.bits .f32 = 32 ∨ (Rect.block (s := S15000x2) S1000x2.size (cc4_transform_8 i) (hinb4_8 i)).WholeWords (EltTy.packing .f32)

variable [Facts₀]

def gather_S30000x300_S600000x1_S600000x300_1_0_n_n_0_1_1300 : GatherDims S30000x300 S600000x1 S600000x300 where
  offsetDims := [1]
  collapsedSliceDims := [0]
  operandBatchingDims := []
  startIndicesBatchingDims := []
  startIndexMap := [0]
  indexVectorDim := 1
  sliceSizes := ![1, 300]
  wf := gather_S30000x300_S600000x1_S600000x300_1_0_n_n_0_1_1300_wf
def scatter_S30000x300_S600000x1_S600000x300_1_0_0_1 : ScatterDims S30000x300 S600000x1 S600000x300 where
  updateWindowDims := [1]
  insertedWindowDims := [0]
  scatterDimsToOperandDims := [0]
  indexVectorDim := 1
  wf := scatter_S30000x300_S600000x1_S600000x300_1_0_0_1_wf
def dot_S3000x300_S300x300_S3000x300_1_0_0_1_n_n : DotDims S3000x300 S300x300 S3000x300 where
  lhsContracting := [1]
  rhsContracting := [0]
  lhsNonContracting := [0]
  rhsNonContracting := [1]
  lhsBatch := []
  rhsBatch := []
  wf := dot_S3000x300_S300x300_S3000x300_1_0_0_1_n_n_wf
def gather_S30000x300_S750000x1_S750000x300_1_0_n_n_0_1_1300 : GatherDims S30000x300 S750000x1 S750000x300 where
  offsetDims := [1]
  collapsedSliceDims := [0]
  operandBatchingDims := []
  startIndicesBatchingDims := []
  startIndexMap := [0]
  indexVectorDim := 1
  sliceSizes := ![1, 300]
  wf := gather_S30000x300_S750000x1_S750000x300_1_0_n_n_0_1_1300_wf
def scatter_S15000x300_S750000x1_S750000x300_1_0_0_1 : ScatterDims S15000x300 S750000x1 S750000x300 where
  updateWindowDims := [1]
  insertedWindowDims := [0]
  scatterDimsToOperandDims := [0]
  indexVectorDim := 1
  wf := scatter_S15000x300_S750000x1_S750000x300_1_0_0_1_wf
def dot_S1000x300_S300x300_S1000x300_1_0_0_1_n_n : DotDims S1000x300 S300x300 S1000x300 where
  lhsContracting := [1]
  rhsContracting := [0]
  lhsNonContracting := [0]
  rhsNonContracting := [1]
  lhsBatch := []
  rhsBatch := []
  wf := dot_S1000x300_S300x300_S1000x300_1_0_0_1_n_n_wf
def dot_S1000x300_S300x150_S1000x150_1_0_0_1_n_n : DotDims S1000x300 S300x150 S1000x150 where
  lhsContracting := [1]
  rhsContracting := [0]
  lhsNonContracting := [0]
  rhsNonContracting := [1]
  lhsBatch := []
  rhsBatch := []
  wf := dot_S1000x300_S300x150_S1000x150_1_0_0_1_n_n_wf
def dot_S1000x150_S150x2_S1000x2_1_0_0_1_n_n : DotDims S1000x150 S150x2 S1000x2 where
  lhsContracting := [1]
  rhsContracting := [0]
  lhsNonContracting := [0]
  rhsNonContracting := [1]
  lhsBatch := []
  rhsBatch := []
  wf := dot_S1000x150_S150x2_S1000x2_1_0_0_1_n_n_wf

abbrev win0_0 : Pipeline.Window sig grid0 :=
  Pipeline.Window.ofSpec (Memref.whole main_v12) S3000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S3000x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S3000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S300x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S3000x300.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S3000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S300x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S3000x300.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg6) S2000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S2000x300.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v57) S1000x300.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1000x300.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S300x300.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1x300.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S300x150.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72) S1x150.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg16) S150x2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v73) S1x2.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v74) S1000x2.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S600000 : Shape := ⟨1, ![600000]⟩
abbrev S750000 : Shape := ⟨1, ![750000]⟩
abbrev S30000x300 : Shape := ⟨2, ![30000, 300]⟩
abbrev S300x300 : Shape := ⟨2, ![300, 300]⟩
abbrev S300 : Shape := ⟨1, ![300]⟩
abbrev S300x150 : Shape := ⟨2, ![300, 150]⟩
abbrev S150 : Shape := ⟨1, ![150]⟩
abbrev S150x2 : Shape := ⟨2, ![150, 2]⟩
abbrev S2 : Shape := ⟨1, ![2]⟩
abbrev S600000x1 : Shape := ⟨2, ![600000, 1]⟩
abbrev S_ : Shape := ⟨0, ![]⟩
abbrev S600000x300 : Shape := ⟨2, ![600000, 300]⟩
abbrev S30000 : Shape := ⟨1, ![30000]⟩
abbrev S30000x1 : Shape := ⟨2, ![30000, 1]⟩
abbrev S1x300 : Shape := ⟨2, ![1, 300]⟩
abbrev S750000x1 : Shape := ⟨2, ![750000, 1]⟩
abbrev S750000x300 : Shape := ⟨2, ![750000, 300]⟩
abbrev S15000x300 : Shape := ⟨2, ![15000, 300]⟩
abbrev S15000x150 : Shape := ⟨2, ![15000, 150]⟩
abbrev S1x150 : Shape := ⟨2, ![1, 150]⟩
abbrev S15000x2 : Shape := ⟨2, ![15000, 2]⟩
abbrev S1x2 : Shape := ⟨2, ![1, 2]⟩

abbrev nBuf : Space → Nat
  | .hbm => 165
  | .vmem => 0
  | .smem => 0
  | _ => 0

abbrev hbmTy0_0 (i : Nat) : BufTy := match i % 128 with
  | 0 => ⟨S600000, .i32⟩
  | 1 => ⟨S600000, .i32⟩
  | 2 => ⟨S600000, .f32⟩
  | 3 => ⟨S750000, .i32⟩
  | 4 => ⟨S750000, .i32⟩
  | 5 => ⟨S750000, .f32⟩
  | 6 => ⟨S30000x300, .f32⟩
  | 7 => ⟨S300x300, .f32⟩
  | 8 => ⟨S300x300, .f32⟩
  | 9 => ⟨S300x300, .f32⟩
  | 10 => ⟨S300, .f32⟩
  | 11 => ⟨S300, .f32⟩
  | 12 => ⟨S300x300, .f32⟩
  | 13 => ⟨S300, .f32⟩
  | 14 => ⟨S300x150, .f32⟩
  | 15 => ⟨S150, .f32⟩
  | 16 => ⟨S150x2, .f32⟩
  | 17 => ⟨S2, .f32⟩
  | 18 => ⟨S600000x1, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x300, .f32⟩
  | 28 => ⟨S600000x300, .f32⟩
  | 29 => ⟨S600000x300, .f32⟩
  | 30 => ⟨S_, .f32⟩
  | 31 => ⟨S30000x300, .f32⟩
  | 32 => ⟨S600000x1, .i32⟩
  | 33 => ⟨S30000x300, .f32⟩
  | 34 => ⟨S30000x300, .f32⟩
  | 35 => ⟨S_, .f32⟩
  | 36 => ⟨S30000x300, .f32⟩
  | 37 => ⟨S30000x300, .f32⟩
  | 38 => ⟨S600000x1, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x300, .f32⟩
  | 48 => ⟨S600000x300, .f32⟩
  | 49 => ⟨S600000x300, .f32⟩
  | 50 => ⟨S_, .f32⟩
  | 51 => ⟨S30000x300, .f32⟩
  | 52 => ⟨S600000x1, .i32⟩
  | 53 => ⟨S30000x300, .f32⟩
  | 54 => ⟨S30000x300, .f32⟩
  | 55 => ⟨S_, .f32⟩
  | 56 => ⟨S30000x300, .f32⟩
  | 57 => ⟨S30000x300, .f32⟩
  | 58 => ⟨S600000x1, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x300, .f32⟩
  | 68 => ⟨S600000x300, .f32⟩
  | 69 => ⟨S600000x300, .f32⟩
  | 70 => ⟨S_, .f32⟩
  | 71 => ⟨S30000x300, .f32⟩
  | 72 => ⟨S600000x1, .i32⟩
  | 73 => ⟨S30000x300, .f32⟩
  | 74 => ⟨S30000x300, .f32⟩
  | 75 => ⟨S_, .f32⟩
  | 76 => ⟨S30000x300, .f32⟩
  | 77 => ⟨S30000x300, .f32⟩
  | 78 => ⟨S_, .f32⟩
  | 79 => ⟨S30000x300, .f32⟩
  | 80 => ⟨S30000x300, .f32⟩
  | 81 => ⟨S_, .f32⟩
  | 82 => ⟨S30000x300, .f32⟩
  | 83 => ⟨S30000x300, .f32⟩
  | 84 => ⟨S30000x300, .f32⟩
  | 85 => ⟨S_, .f32⟩
  | 86 => ⟨S30000, .f32⟩
  | 87 => ⟨S30000x1, .f32⟩
  | 88 => ⟨S_, .f32⟩
  | 89 => ⟨S30000x1, .f32⟩
  | 90 => ⟨S30000x1, .f32⟩
  | 91 => ⟨S30000x300, .f32⟩
  | 92 => ⟨S30000x300, .f32⟩
  | 93 => ⟨S30000x300, .f32⟩
  | 94 => ⟨S_, .f32⟩
  | 95 => ⟨S30000, .f32⟩
  | 96 => ⟨S30000x1, .f32⟩
  | 97 => ⟨S_, .f32⟩
  | 98 => ⟨S30000x1, .f32⟩
  | 99 => ⟨S30000x1, .f32⟩
  | 100 => ⟨S30000x300, .f32⟩
  | 101 => ⟨S30000x300, .f32⟩
  | 102 => ⟨S_, .f32⟩
  | 103 => ⟨S30000x1, .f32⟩
  | 104 => ⟨S30000x1, .f32⟩
  | 105 => ⟨S30000x1, .f32⟩
  | 106 => ⟨S30000x300, .f32⟩
  | 107 => ⟨S30000x300, .f32⟩
  | 108 => ⟨S1x300, .f32⟩
  | 109 => ⟨S30000x300, .f32⟩
  | 110 => ⟨S30000x300, .f32⟩
  | 111 => ⟨S1x300, .f32⟩
  | 112 => ⟨S30000x300, .f32⟩
  | 113 => ⟨S30000x300, .f32⟩
  | 114 => ⟨S750000x1, .f32⟩
  | 115 => ⟨S_, .i32⟩
  | 116 => ⟨S750000, .i32⟩
  | 117 => ⟨S750000, .i1⟩
  | 118 => ⟨S_, .i32⟩
  | 119 => ⟨S750000, .i32⟩
  | 120 => ⟨S750000, .i32⟩
  | 121 => ⟨S750000, .i32⟩
  | 122 => ⟨S750000x1, .i32⟩
  | 123 => ⟨S750000x300, .f32⟩
  | 124 => ⟨S750000x300, .f32⟩
  | 125 => ⟨S750000x300, .f32⟩
  | 126 => ⟨S_, .f32⟩
  | 127 => ⟨S15000x300, .f32⟩
  | _ => ⟨S600000, .i32⟩

abbrev hbmTy0_1 (i : Nat) : BufTy := match i % 128 with
  | 0 => ⟨S750000x1, .i32⟩
  | 1 => ⟨S15000x300, .f32⟩
  | 2 => ⟨S750000x1, .f32⟩
  | 3 => ⟨S_, .i32⟩
  | 4 => ⟨S750000, .i32⟩
  | 5 => ⟨S750000, .i1⟩
  | 6 => ⟨S_, .i32⟩
  | 7 => ⟨S750000, .i32⟩
  | 8 => ⟨S750000, .i32⟩
  | 9 => ⟨S750000, .i32⟩
  | 10 => ⟨S750000x1, .i32⟩
  | 11 => ⟨S750000x300, .f32⟩
  | 12 => ⟨S750000x300, .f32⟩
  | 13 => ⟨S750000x300, .f32⟩
  | 14 => ⟨S_, .f32⟩
  | 15 => ⟨S15000x300, .f32⟩
  | 16 => ⟨S750000x1, .i32⟩
  | 17 => ⟨S15000x300, .f32⟩
  | 18 => ⟨S15000x300, .f32⟩
  | 19 => ⟨S15000x300, .f32⟩
  | 20 => ⟨S1x300, .f32⟩
  | 21 => ⟨S15000x300, .f32⟩
  | 22 => ⟨S15000x300, .f32⟩
  | 23 => ⟨S_, .f32⟩
  | 24 => ⟨S15000x300, .f32⟩
  | 25 => ⟨S15000x300, .f32⟩
  | 26 => ⟨S15000x150, .f32⟩
  | 27 => ⟨S1x150, .f32⟩
  | 28 => ⟨S15000x150, .f32⟩
  | 29 => ⟨S15000x150, .f32⟩
  | 30 => ⟨S_, .f32⟩
  | 31 => ⟨S15000x150, .f32⟩
  | 32 => ⟨S15000x150, .f32⟩
  | 33 => ⟨S15000x2, .f32⟩
  | 34 => ⟨S1x2, .f32⟩
  | 35 => ⟨S15000x2, .f32⟩
  | 36 => ⟨S15000x2, .f32⟩
  | _ => ⟨S600000, .i32⟩

abbrev hbmTy (i : Nat) : BufTy := match i / 128 with
  | 0 => hbmTy0_0 i
  | 1 => hbmTy0_1 i
  | _ => ⟨S600000, .i32⟩

abbrev bufTy : (tb : Table) → Fin (tcTables nBuf tb) → BufTy
  | .hbm, ⟨i, _⟩ => hbmTy i
  | _, _ => ⟨S600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call0_cst : Ref sig .tc := ⟨.hbm, 35, rfl⟩
abbrev main_call0_v0 : Ref sig .tc := ⟨.hbm, 36, rfl⟩
abbrev main_v14 : Ref sig .tc := ⟨.hbm, 37, rfl⟩
abbrev main_v15 : Ref sig .tc := ⟨.hbm, 38, rfl⟩
abbrev main_c_1 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_cst : Ref sig .tc := ⟨.hbm, 55, rfl⟩
abbrev main_call1_v0 : Ref sig .tc := ⟨.hbm, 56, rfl⟩
abbrev main_v29 : Ref sig .tc := ⟨.hbm, 57, rfl⟩
abbrev main_v30 : Ref sig .tc := ⟨.hbm, 58, rfl⟩
abbrev main_c_4 : Ref sig .tc := ⟨.hbm, 59, rfl⟩
abbrev main_v31 : Ref sig .tc := ⟨.hbm, 60, rfl⟩
abbrev main_v32 : Ref sig .tc := ⟨.hbm, 61, rfl⟩
abbrev main_c_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_call2_cst : Ref sig .tc := ⟨.hbm, 75, rfl⟩
abbrev main_call2_v0 : Ref sig .tc := ⟨.hbm, 76, rfl⟩
abbrev main_v44 : Ref sig .tc := ⟨.hbm, 77, rfl⟩
abbrev main_cst_7 : Ref sig .tc := ⟨.hbm, 78, rfl⟩
abbrev main_v45 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_v51 : Ref sig .tc := ⟨.hbm, 87, rfl⟩
abbrev main_cst_10 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_11 : Ref sig .tc := ⟨.hbm, 94, rfl⟩
abbrev main_v57 : Ref sig .tc := ⟨.hbm, 95, rfl⟩
abbrev main_v58 : Ref sig .tc := ⟨.hbm, 96, rfl⟩
abbrev main_cst_12 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_13 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_14 : Ref sig .tc := ⟨.hbm, 115, rfl⟩
abbrev main_v75 : Ref sig .tc := ⟨.hbm, 116, rfl⟩
abbrev main_v76 : Ref sig .tc := ⟨.hbm, 117, rfl⟩
abbrev main_c_15 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_16 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_17 : Ref sig .tc := ⟨.hbm, 131, rfl⟩
abbrev main_v88 : Ref sig .tc := ⟨.hbm, 132, rfl⟩
abbrev main_v89 : Ref sig .tc := ⟨.hbm, 133, rfl⟩
abbrev main_c_18 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_19 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_call3_cst : Ref sig .tc := ⟨.hbm, 151, rfl⟩
abbrev main_call3_v0 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_call4_cst : Ref sig .tc := ⟨.hbm, 158, rfl⟩
abbrev main_call4_v0 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x300_0_1 : S600000x1.BroadcastsInDim S600000x300 (![0, 1] : Fin 2 → Fin S600000x300.rank)
  bcast_S_S30000x300 : S_.BroadcastsInDim S30000x300 (![] : Fin 0 → Fin S30000x300.rank)
  reducesTo_S30000x300_S30000_d1 : S30000x300.ReducesTo [1] S30000
  h_S_ : 0 < S_.numel
  bcast_S30000_S30000x1_0 : S30000.BroadcastsInDim S30000x1 (![0] : Fin 1 → Fin S30000x1.rank)
  bcast_S_S30000x1 : S_.BroadcastsInDim S30000x1 (![] : Fin 0 → Fin S30000x1.rank)
  bcast_S30000x1_S30000x300_0_1 : S30000x1.BroadcastsInDim S30000x300 (![0, 1] : Fin 2 → Fin S30000x300.rank)
  bcast_S300_S1x300_1 : S300.BroadcastsInDim S1x300 (![1] : Fin 1 → Fin S1x300.rank)
  bcast_S1x300_S30000x300_0_1 : S1x300.BroadcastsInDim S30000x300 (![0, 1] : Fin 2 → Fin S30000x300.rank)
  bcast_S750000_S750000x1_0 : S750000.BroadcastsInDim S750000x1 (![0] : Fin 1 → Fin S750000x1.rank)
  bcast_S_S750000 : S_.BroadcastsInDim S750000 (![] : Fin 0 → Fin S750000.rank)
  bcast_S750000x1_S750000x300_0_1 : S750000x1.BroadcastsInDim S750000x300 (![0, 1] : Fin 2 → Fin S750000x300.rank)
  bcast_S_S15000x300 : S_.BroadcastsInDim S15000x300 (![] : Fin 0 → Fin S15000x300.rank)
  bcast_S1x300_S15000x300_0_1 : S1x300.BroadcastsInDim S15000x300 (![0, 1] : Fin 2 → Fin S15000x300.rank)
  bcast_S150_S1x150_1 : S150.BroadcastsInDim S1x150 (![1] : Fin 1 → Fin S1x150.rank)
  bcast_S1x150_S15000x150_0_1 : S1x150.BroadcastsInDim S15000x150 (![0, 1] : Fin 2 → Fin S15000x150.rank)
  bcast_S_S15000x150 : S_.BroadcastsInDim S15000x150 (![] : Fin 0 → Fin S15000x150.rank)
  bcast_S2_S1x2_1 : S2.BroadcastsInDim S1x2 (![1] : Fin 1 → Fin S1x2.rank)
  bcast_S1x2_S15000x2_0_1 : S1x2.BroadcastsInDim S15000x2 (![0, 1] : Fin 2 → Fin S15000x2.rank)
  gather_S30000x300_S600000x1_S600000x300_1_0_n_n_0_1_1300_wf : GatherDims.WF S30000x300 S600000x1 S600000x300 [1] [0] [] [0] [] 1 ![1, 300]
  scatter_S30000x300_S600000x1_S600000x300_1_0_0_1_wf : ScatterDims.WF S30000x300 S600000x1 S600000x300 [1] [0] [0] 1
  dot_S30000x300_S300x300_S30000x300_1_0_0_1_n_n_wf : DotDims.WF S30000x300 S300x300 S30000x300 [1] [0] [0] [1] [] []
  gather_S30000x300_S750000x1_S750000x300_1_0_n_n_0_1_1300_wf : GatherDims.WF S30000x300 S750000x1 S750000x300 [1] [0] [] [0] [] 1 ![1, 300]
  scatter_S15000x300_S750000x1_S750000x300_1_0_0_1_wf : ScatterDims.WF S15000x300 S750000x1 S750000x300 [1] [0] [0] 1
  dot_S15000x300_S300x300_S15000x300_1_0_0_1_n_n_wf : DotDims.WF S15000x300 S300x300 S15000x300 [1] [0] [0] [1] [] []
  dot_S15000x300_S300x150_S15000x150_1_0_0_1_n_n_wf : DotDims.WF S15000x300 S300x150 S15000x150 [1] [0] [0] [1] [] []
  dot_S15000x150_S150x2_S15000x2_1_0_0_1_n_n_wf : DotDims.WF S15000x150 S150x2 S15000x2 [1] [0] [0] [1] [] []

variable [Facts₀]

def gather_S30000x300_S600000x1_S600000x300_1_0_n_n_0_1_1300 : GatherDims S30000x300 S600000x1 S600000x300 where
  offsetDims := [1]
  collapsedSliceDims := [0]
  operandBatchingDims := []
  startIndicesBatchingDims := []
  startIndexMap := [0]
  indexVectorDim := 1
  sliceSizes := ![1, 300]
  wf := gather_S30000x300_S600000x1_S600000x300_1_0_n_n_0_1_1300_wf
def scatter_S30000x300_S600000x1_S600000x300_1_0_0_1 : ScatterDims S30000x300 S600000x1 S600000x300 where
  updateWindowDims := [1]
  insertedWindowDims := [0]
  scatterDimsToOperandDims := [0]
  indexVectorDim := 1
  wf := scatter_S30000x300_S600000x1_S600000x300_1_0_0_1_wf
def dot_S30000x300_S300x300_S30000x300_1_0_0_1_n_n : DotDims S30000x300 S300x300 S30000x300 where
  lhsContracting := [1]
  rhsContracting := [0]
  lhsNonContracting := [0]
  rhsNonContracting := [1]
  lhsBatch := []
  rhsBatch := []
  wf := dot_S30000x300_S300x300_S30000x300_1_0_0_1_n_n_wf
def gather_S30000x300_S750000x1_S750000x300_1_0_n_n_0_1_1300 : GatherDims S30000x300 S750000x1 S750000x300 where
  offsetDims := [1]
  collapsedSliceDims := [0]
  operandBatchingDims := []
  startIndicesBatchingDims := []
  startIndexMap := [0]
  indexVectorDim := 1
  sliceSizes := ![1, 300]
  wf := gather_S30000x300_S750000x1_S750000x300_1_0_n_n_0_1_1300_wf
def scatter_S15000x300_S750000x1_S750000x300_1_0_0_1 : ScatterDims S15000x300 S750000x1 S750000x300 where
  updateWindowDims := [1]
  insertedWindowDims := [0]
  scatterDimsToOperandDims := [0]
  indexVectorDim := 1
  wf := scatter_S15000x300_S750000x1_S750000x300_1_0_0_1_wf
def dot_S15000x300_S300x300_S15000x300_1_0_0_1_n_n : DotDims S15000x300 S300x300 S15000x300 where
  lhsContracting := [1]
  rhsContracting := [0]
  lhsNonContracting := [0]
  rhsNonContracting := [1]
  lhsBatch := []
  rhsBatch := []
  wf := dot_S15000x300_S300x300_S15000x300_1_0_0_1_n_n_wf
def dot_S15000x300_S300x150_S15000x150_1_0_0_1_n_n : DotDims S15000x300 S300x150 S15000x150 where
  lhsContracting := [1]
  rhsContracting := [0]
  lhsNonContracting := [0]
  rhsNonContracting := [1]
  lhsBatch := []
  rhsBatch := []
  wf := dot_S15000x300_S300x150_S15000x150_1_0_0_1_n_n_wf
def dot_S15000x150_S150x2_S15000x2_1_0_0_1_n_n : DotDims S15000x150 S150x2 S15000x2 where
  lhsContracting := [1]
  rhsContracting := [0]
  lhsNonContracting := [0]
  rhsNonContracting := [1]
  lhsBatch := []
  rhsBatch := []
  wf := dot_S15000x150_S150x2_S15000x2_1_0_0_1_n_n_wf

class Facts : Prop extends Facts₀ where

variable [Facts]
-- ==== Proof.KernelRun.lean ====
/-
  The idealized kernel's run with every buffer named.

  @main is ten segments: five stretches of host operations and five pipelined regions, in turn. The contents of the
  TensorCore's buffers at each of the eleven boundaries are a fold from the launch memory: a stretch applies its
  operations; a region leaves each of its output arrays at what its grid points wrote back, one after another, and
  every other buffer as it found it. Every weakly fair execution ends, faults nowhere, and ends with every buffer that
  is not scoped to a region holding the last boundary's contents. The result of the program is one of those buffers.
-/
import proofs.«177264_j67817533604035_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main terminates, nothing faulting, with every
    unscoped buffer of every core at the contents of the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.RunAll

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«177264_j67817533604035_1_alg».proof.Proof.LibPlainMatmul
import proofs.«177264_j67817533604035_1_alg».proof.Proof.LibHostReads
import proofs.«177264_j67817533604035_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibRowLayers.lean ====
/-
  Layers of a dense network read on picked rows, one operation at a time.

  A block of TM rows is cut out of a tall matrix of M rows by a map ρ of row numbers (Cert.BlockRows.rowsOf). Each
  lemma below takes an operand that IS the picked rows of some tall matrix (an equation, so that the lemma applies to
  whatever expression the operand is spelled as) and says that one more operation on it gives the picked rows of the
  host's operation on the tall matrix:

  * a bias given as a matrix B of ONE row, broadcast down the block, against the same row broadcast down all M rows;
  * a sum of two operands, a maximum with a constant zero, a reshape to the operand's own shape;
  * a change to a narrower float format, which on the extended reals changes nothing;
  * the matrix unit's product into a zero accumulator with a fixed right factor against the host's plain product.

  Chained, they read max(x·W + B, 0) and the like, computed on a block, as rows of the same expression on whole arrays.
-/
import Idealize.ShloMosaic.PureOps.Ideal.Laws
import Idealize.ShloMosaic.Lib.Pipeline.Value
import Idealize.ShloMosaic.Lib.ValueIdx
import Idealize.ShloMosaic.Lib.ValueLayout
import proofs.«177264_j67817533604035_1_alg».proof.Proof.LibBlockRows

noncomputable section

namespace Cert.RowLayers

open Idealize.ShloMosaic Idealize.ShloMosaic.ValueIdx Cert.BlockRows

variable {TM M K N : Nat}

/-- The host's bias matrix of a one-row matrix: the row broadcast down M rows. -/
def rowBias {α : Type} (h2 : (⟨2, ![1, N]⟩ : Shape).BroadcastsInDim ⟨2, ![M, N]⟩ ![0, 1])
    (B : (⟨2, ![1, N]⟩ : Shape).Idx → α) : (⟨2, ![M, N]⟩ : Shape).Idx → α :=
  broadcastInDim ⟨2, ![M, N]⟩ ![0, 1] h2 B

/-- Entry (r, c) of the bias matrix is entry (0, c) of the row. -/
theorem rowBias_apply {α : Type} (h2 : (⟨2, ![1, N]⟩ : Shape).BroadcastsInDim ⟨2, ![M, N]⟩ ![0, 1])
    (B : (⟨2, ![1, N]⟩ : Shape).Idx → α) (r : Fin M) (c : Fin N) : rowBias h2 B (ix2 r c) = B (ix2 (0 : Fin 1) c) := by
  unfold rowBias
  refine broadcastInDim_apply _ h2 B (ix2 r c) (ix2 (0 : Fin 1) c) fun a => ?_
  match a with
  | ⟨0, _⟩ => show (0 : Fin 1).val = if (1 : Nat) = 1 then 0 else r.val; rw [if_pos rfl]; rfl
  | ⟨1, _⟩ =>
    show c.val = if N = 1 then 0 else c.val
    split
    · have := c.isLt; omega
    · rfl

/-- The one row, reshaped to its own shape and broadcast down a block of TM rows, is any TM picked rows of the
    host's bias matrix. -/
theorem rowBias_rows {α : Type} (ρ : Fin TM → Fin M) (B : (⟨2, ![1, N]⟩ : Shape).Idx → α)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    broadcastTo ⟨2, ![TM, N]⟩ (shapeCast ⟨2, ![1, N]⟩ B hs) hb = rowsOf ρ (rowBias h2 B) := by
  rw [shapeCast_self]
  funext j
  obtain ⟨p, c, rfl⟩ : ∃ (p : Fin TM) (c : Fin N), j = ix2 p c := ⟨j 0, j 1, eq_ix2 j⟩
  rw [broadcastTo_1b_ab_apply, rowsOf_apply, rowBias_apply]

/-- A reshape of picked rows to their own shape is the picked rows. -/
theorem cast_of_rows {α : Type} (ρ : Fin TM → Fin M) (y : (⟨2, ![TM, N]⟩ : Shape).Idx → α) (Y : (⟨2, ![M, N]⟩ : Shape).Idx → α)
    (hy : y = rowsOf ρ Y) (hs : (⟨2, ![TM, N]⟩ : Shape).ShapeCasts ⟨2, ![TM, N]⟩) :
    shapeCast ⟨2, ![TM, N]⟩ y hs = rowsOf ρ Y := by
  rw [shapeCast_self]; exact hy

/-- Picked rows plus the bias row broadcast down the block are the picked rows of the host's sum with the bias matrix. -/
theorem addBias_of_rows (ρ : Fin TM → Fin M) (y : FVec Ideal ⟨2, ![TM, N]⟩ .f32) (Y : FVec Ideal ⟨2, ![M, N]⟩ .f32)
    (hy : y = rowsOf ρ Y) (B : FVec Ideal ⟨2, ![1, N]⟩ .f32)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    addf y (broadcastTo ⟨2, ![TM, N]⟩ (shapeCast ⟨2, ![1, N]⟩ B hs) hb) = rowsOf ρ (addf Y (rowBias h2 B)) := by
  subst hy
  rw [rowBias_rows ρ B hs hb h2, addf_rows]

/-- A sum of two operands that are picked rows is the picked rows of the sum. -/
theorem addf_of_rows (ρ : Fin TM → Fin M) (y z : FVec Ideal ⟨2, ![TM, N]⟩ .f32) (Y Z : FVec Ideal ⟨2, ![M, N]⟩ .f32)
    (hy : y = rowsOf ρ Y) (hz : z = rowsOf ρ Z) : addf y z = rowsOf ρ (addf Y Z) := by
  subst hy hz; rfl

/-- The maximum of picked rows with a splat zero is the picked rows of the host's maximum with zero. -/
theorem relu_of_rows (ρ : Fin TM → Fin M) (y : FVec Ideal ⟨2, ![TM, N]⟩ .f32) (Y : FVec Ideal ⟨2, ![M, N]⟩ .f32)
    (hy : y = rowsOf ρ Y) (h0 : (⟨0, ![]⟩ : Shape).BroadcastsInDim ⟨2, ![M, N]⟩ ![]) :
    maximumf y (broadcast ⟨2, ![TM, N]⟩ (Scalar.ofBits (F := Ideal) .f32 0x00000000#32)) = rowsOf ρ (relu h0 Y) := by
  subst hy
  exact relu_rows ρ h0 Y

/-- Picked rows converted to a narrower float format are, on the extended reals, the same picked rows. -/
theorem trunc_of_rows (ρ : Fin TM → Fin M) {ψ : FTy} (hψ : ψ.bits < FTy.f32.bits) (y : FVec Ideal ⟨2, ![TM, N]⟩ .f32)
    (Y : FVec Ideal ⟨2, ![M, N]⟩ .f32) (hy : y = rowsOf ρ Y) :
    (truncf ψ y hψ : (⟨2, ![TM, N]⟩ : Shape).Idx → EReal) = rowsOf ρ Y := hy

/-- A whole matrix converted to a narrower float format is, on the extended reals, the same matrix. -/
theorem trunc_whole {s : Shape} {ψ : FTy} (hψ : ψ.bits < FTy.f32.bits) (g G : FVec Ideal s .f32) (hg : g = G) :
    (truncf ψ g hψ : s.Idx → EReal) = G := hg

/-- The matrix unit's product into zeros of a left operand that IS picked rows of A with a right operand that IS G
    (either possibly in another float format) is the picked rows of the host's A · G. -/
theorem matmul_of_rows (ρ : Fin TM → Fin M) {φ₁ φ₂ : FTy} (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : (a : (⟨2, ![TM, K]⟩ : Shape).Idx → EReal) = rowsOf ρ A) (hg : (g : (⟨2, ![K, N]⟩ : Shape).Idx → EReal) = G) :
    matmul (DotDims.plain TM K N) none a g (constant ⟨2, ![TM, N]⟩ .f32 0x00000000#32) = rowsOf ρ (propagate A G) :=
  matmul_rows ρ none none a g A G (fun p k => congrFun ha (ix2 p k)) (fun k n => congrFun hg (ix2 k n))

end Cert.RowLayers

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRmsNorm.lean ====
/-
  Root-mean-square normalisation of the rows of a matrix, read one row at a time on the extended reals, over any sizes.

  A row r of N entries is scaled by s(r) = rsqrt((Σ_k r_k · r_k) / c + e), where c and e are the numbers two given 32-bit
  words encode (the row length and a small offset, as the program spells them), and then multiplied entry by entry
  by a gain row g:   rowNorm r g q = r_q · s(r) · g_q.

  The same function is computed two ways. On the vector unit: square, sum along the lanes from zero, lay the sums
  out as a column, divide, add, take the reciprocal square root, spread the column along the lanes, multiply; the
  gain row laid out as a row and spread down the sublanes. On the host: square, reduce-add over the last axis from a
  scalar zero, broadcast to a column, divide by a broadcast scalar, add a broadcast scalar, reciprocal square root,
  broadcast along the last axis, multiply; the gain broadcast to a row and then down the rows. Both, read at
  row p, are rowNorm of row p of the operand. Nothing here needs the entries to be finite: both sides apply the same
  operations to the same sums.

  Also here: the vocabulary of rows (row p of a matrix, a vector as a function of its coordinate, a matrix as a function
  of two coordinates), and a row times a matrix.
-/
import Idealize.ShloMosaic.PureOps.Ideal.Laws
import Idealize.ShloMosaic.Lib.Pipeline.Value
import Idealize.ShloMosaic.Lib.ValueIdx
import proofs.«177264_j67817533604035_1_alg».proof.Proof.LibColRowBroadcast

noncomputable section

open scoped BigOperators

namespace Cert.RmsNorm

open Idealize.ShloMosaic Idealize.ShloMosaic.ValueIdx

/-! ## Rows -/

/-- Row `p` of a matrix, as a function of the column. -/
def row {M N : ℕ} (a : (⟨2, ![M, N]⟩ : Shape).Idx → EReal) (p : Fin M) : Fin N → EReal := fun k => a (ix2 p k)

/-- A vector as a function of its coordinate. -/
def vec {N : ℕ} (g : (⟨1, ![N]⟩ : Shape).Idx → EReal) : Fin N → EReal := fun k => g (ix1 k)

/-- A matrix as a function of its two coordinates. -/
def mat {K N : ℕ} (w : (⟨2, ![K, N]⟩ : Shape).Idx → EReal) : Fin K → Fin N → EReal := fun k q => w (ix2 k q)

/-- A row times a matrix: entry q is Σ_k r_k · w_{k q}. -/
def rowMat {K N : ℕ} (r : Fin K → EReal) (w : Fin K → Fin N → EReal) : Fin N → EReal := fun q => ∑ k, r k * w k q

/-- The scale of a row: the reciprocal square root of (Σ_k r_k² divided by the number `cN` encodes, plus the number
    `ce` encodes). -/
def scale {N : ℕ} (cN ce : BitVec 32) (r : Fin N → EReal) : EReal :=
  Ideal.rsqrt (Ideal.div (∑ k, r k * r k) (Ideal.ofBits .f32 cN) + Ideal.ofBits .f32 ce)

/-- A row normalised by its scale and multiplied entry by entry by a gain row. -/
def rowNorm {N : ℕ} (cN ce : BitVec 32) (r g : Fin N → EReal) : Fin N → EReal := fun q => r q * scale cN ce r * g q

/-- Rows of equal matrices' sums: row p of a pointwise sum is the sum of the rows. -/
theorem row_addf {M N : ℕ} (a b : FVec Ideal ⟨2, ![M, N]⟩ .f32) (p : Fin M) :
    row (addf a b) p = fun q => row a p q + row b p q := rfl

/-! ## On the vector unit -/

/-- The reduced index `p` with lane `k` put back is (p, k). -/
theorem lift_lane {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A sum along the lanes from zero, at row `p`, is the sum of the row. -/
theorem laneSum_apply {M N : ℕ} (src : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ) (p : Fin M) :
    multiReduction .add [1] ⟨1, ![M]⟩ src 0x00000000#32 hr hφ hacc (ix1 p) = ∑ k : Fin N, src (ix2 p k) := by
  refine (Ideal.multiReduction_add_single src 0x00000000#32 hr hφ hacc (ix1 p)).trans ?_
  exact Finset.sum_congr rfl fun k _ => congrArg src (lift_lane hr p k)

/-- The column of scales as the vector unit computes it. -/
def colScale {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf a a) 0x00000000#32 hr hφ hacc) hc)
    (broadcast ⟨2, ![M, 1]⟩ (Scalar.ofBits .f32 cN))) (broadcast ⟨2, ![M, 1]⟩ (Scalar.ofBits .f32 ce)))

/-- The column of scales at row `p` is the scale of row `p`. -/
theorem colScale_apply {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colScale cN ce a hr hφ hacc hc (ix2 p z) = scale cN ce (row a p) := by
  have h1 : shapeCast ⟨2, ![M, 1]⟩ (multiReduction .add [1] ⟨1, ![M]⟩ (mulf a a) 0x00000000#32 hr hφ hacc) hc (ix2 p z)
      = ∑ k : Fin N, row a p k * row a p k :=
    (Cert.ColRowBroadcast.colCast_apply _ hc p z).trans (laneSum_apply (mulf a a) hr hφ hacc p)
  exact congrArg (fun s => Ideal.rsqrt (Ideal.div s (Ideal.ofBits .f32 cN) + Ideal.ofBits .f32 ce)) h1

/-- Root-mean-square normalisation of the rows of `a` with gain `g`, as the vector unit computes it. -/
def vectorNorm {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) :
    FVec Ideal ⟨2, ![M, N]⟩ .f32 :=
  mulf (mulf a (broadcastTo ⟨2, ![M, N]⟩ (colScale cN ce a hr hφ hacc hc) hb))
    (broadcastTo ⟨2, ![M, N]⟩ (shapeCast ⟨2, ![1, N]⟩ g hg) hgb)

/-- Row `p` of the vector unit's normalisation is rowNorm of row `p`. -/
theorem vectorNorm_row {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) (p : Fin M) :
    row (vectorNorm cN ce a g hr hφ hacc hc hb hg hgb) p = rowNorm cN ce (row a p) (vec g) := by
  funext q
  have hs : broadcastTo ⟨2, ![M, N]⟩ (colScale cN ce a hr hφ hacc hc) hb (ix2 p q) = scale cN ce (row a p) :=
    (Cert.ColRowBroadcast.colBroadcast_apply _ hb p q).trans (colScale_apply cN ce a hr hφ hacc hc p 0)
  have hq : broadcastTo ⟨2, ![M, N]⟩ (shapeCast ⟨2, ![1, N]⟩ g hg) hgb (ix2 p q) = vec g q :=
    (Cert.ColRowBroadcast.rowBroadcast_apply _ hgb p q).trans (Cert.ColRowBroadcast.rowCast_apply g hg 0 q)
  show a (ix2 p q) * broadcastTo ⟨2, ![M, N]⟩ (colScale cN ce a hr hφ hacc hc) hb (ix2 p q)
      * broadcastTo ⟨2, ![M, N]⟩ (shapeCast ⟨2, ![1, N]⟩ g hg) hgb (ix2 p q) = _
  rw [hs, hq]
  rfl

/-! ## On the host -/

/-- The host's sum over the last axis from a scalar zero, at row `p`, is the sum of the row. -/
theorem hostSum_apply {M N : ℕ} (src : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel) (p : Fin M) :
    Host.reduceAdd src (constant (F := Ideal) ⟨0, ![]⟩ .f32 0x00000000#32) hrt h0 (ix1 p) = ∑ k : Fin N, src (ix2 p k) := by
  show Ideal.hostReduceAdd hrt src (Ideal.ofBits .f32 0x00000000#32) (ix1 p) = _
  rw [Ideal.hostReduceAdd_single hrt hr, Ideal.ofBits_zero_f32, zero_add]
  exact Finset.sum_congr rfl fun k _ => congrArg src (lift_lane hr p k)

/-- A scalar broadcast to any shape reads the scalar everywhere. -/
theorem scalarBroadcast_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- A vector of `a` entries broadcast to a column [a, 1] reads, at (p, 0), entry `p`. -/
theorem hostCol_apply {α : Type} {a : ℕ} (u : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h u (ix2 p z) = u (ix1 p) := by
  refine broadcastInDim_apply _ h u (ix2 p z) (ix1 p) fun c => ?_
  match c with
  | ⟨0, _⟩ =>
    show p.val = if a = 1 then 0 else p.val
    split
    · have := p.isLt; omega
    · rfl

/-- A column [a, 1] broadcast along the last axis to [a, b] reads, at (p, q), the column at (p, 0). -/
theorem hostColBroadcast_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply _ h w (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A vector of `b` entries broadcast to a row [1, b] reads, at (0, q), entry `q`. -/
theorem hostRow_apply {α : Type} {b : ℕ} (u : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h u (ix2 z q) = u (ix1 q) := by
  refine broadcastInDim_apply _ h u (ix2 z q) (ix1 q) fun c => ?_
  match c with
  | ⟨0, _⟩ =>
    show q.val = if b = 1 then 0 else q.val
    split
    · have := q.isLt; omega
    · rfl

/-- A row [1, b] broadcast down the first axis to [a, b] reads, at (p, q), the row at (0, q). -/
theorem hostRowBroadcast_apply {α : Type} {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply _ h w (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

/-- The column of scales as the host computes it. -/
def hostColScale {M N : ℕ} (cN ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.rsqrt (addf (Host.divf
      (broadcastInDim ⟨2, ![M, 1]⟩ ![0] hb1 (Host.reduceAdd (mulf a a) (constant (F := Ideal) ⟨0, ![]⟩ .f32 0x00000000#32) hrt h0))
      (broadcastInDim ⟨2, ![M, 1]⟩ ![] hbs (constant (F := Ideal) ⟨0, ![]⟩ .f32 cN)))
    (broadcastInDim ⟨2, ![M, 1]⟩ ![] hbs (constant (F := Ideal) ⟨0, ![]⟩ .f32 ce)))

/-- The host's column of scales at row `p` is the scale of row `p`. -/
theorem hostColScale_apply {M N : ℕ} (cN ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColScale cN ce a hrt h0 hb1 hbs (ix2 p z) = scale cN ce (row a p) := by
  have h1 : broadcastInDim ⟨2, ![M, 1]⟩ ![0] hb1
        (Host.reduceAdd (mulf a a) (constant (F := Ideal) ⟨0, ![]⟩ .f32 0x00000000#32) hrt h0) (ix2 p z)
      = ∑ k : Fin N, row a p k * row a p k :=
    (hostCol_apply _ hb1 p z).trans (hostSum_apply (mulf a a) hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  have h3 : broadcastInDim ⟨2, ![M, 1]⟩ ![] hbs (constant (F := Ideal) ⟨0, ![]⟩ .f32 ce) (ix2 p z) = Ideal.ofBits .f32 ce :=
    scalarBroadcast_apply _ hbs (ix2 p z)
  show Ideal.rsqrt (Ideal.div
      (broadcastInDim ⟨2, ![M, 1]⟩ ![0] hb1 (Host.reduceAdd (mulf a a) (constant (F := Ideal) ⟨0, ![]⟩ .f32 0x00000000#32) hrt h0) (ix2 p z))
      (broadcastInDim ⟨2, ![M, 1]⟩ ![] hbs (constant (F := Ideal) ⟨0, ![]⟩ .f32 cN) (ix2 p z))
    + broadcastInDim ⟨2, ![M, 1]⟩ ![] hbs (constant (F := Ideal) ⟨0, ![]⟩ .f32 ce) (ix2 p z)) = _
  rw [h1, h2, h3]
  rfl

/-- Root-mean-square normalisation of the rows of `a` with gain `g`, as the host computes it. -/
def hostNorm {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  mulf (mulf a (broadcastInDim ⟨2, ![M, N]⟩ ![0, 1] hbc (hostColScale cN ce a hrt h0 hb1 hbs)))
    (broadcastInDim ⟨2, ![M, N]⟩ ![0, 1] hgb (broadcastInDim ⟨2, ![1, N]⟩ ![1] hg g))

/-- Row `p` of the host's normalisation is rowNorm of row `p`. -/
theorem hostNorm_row {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostNorm cN ce a g hrt h0 hb1 hbs hbc hg hgb) p = rowNorm cN ce (row a p) (vec g) := by
  funext q
  have hs : broadcastInDim ⟨2, ![M, N]⟩ ![0, 1] hbc (hostColScale cN ce a hrt h0 hb1 hbs) (ix2 p q) = scale cN ce (row a p) :=
    (hostColBroadcast_apply _ hbc p q).trans (hostColScale_apply cN ce a hrt hr h0 hb1 hbs p 0)
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  show a (ix2 p q) * broadcastInDim ⟨2, ![M, N]⟩ ![0, 1] hbc (hostColScale cN ce a hrt h0 hb1 hbs) (ix2 p q)
      * broadcastInDim ⟨2, ![M, N]⟩ ![0, 1] hgb (broadcastInDim ⟨2, ![1, N]⟩ ![1] hg g) (ix2 p q) = _
  rw [hs, hq]
  rfl

end Cert.RmsNorm

end
-- ==== Proof.LibLayerNorm.lean ====
/-
  Layer normalisation of the rows of a matrix, read one row at a time on the extended reals, over any sizes.

  A row r of N entries has mean μ(r) = (Σ_k r_k) / c, where c is the number a given 32-bit word encodes (the row length as
  the program spells it); the centred row is d_k = r_k − μ(r); and with the scale s(d) = rsqrt((Σ_k d_k · d_k) / c + e) of the
  centred row (e a second word: the small offset), a gain row g and a bias row b,

      rowLN r g b q = d_q · s(d) · g_q + b_q.

  The same function is computed two ways. On the vector unit: sum along the lanes from zero, lay the sums out as a
  column, divide, spread the column along the lanes and subtract; square, sum, divide, add the offset, take the
  reciprocal square root, spread, multiply; the gain and bias given as one-row matrices and spread down the sublanes.
  On the host: reduce-add over the last axis from a scalar zero, broadcast to a column, divide by a broadcast scalar,
  broadcast along the last axis and subtract; and so on; the gain and bias vectors broadcast to a row and then down the
  rows. Both, read at row p, are rowLN of row p of the operand. Nothing here needs the entries to be finite: both
  sides apply the same operations to the same sums.
-/
import Idealize.ShloMosaic.PureOps.Ideal.Laws
import Idealize.ShloMosaic.Lib.Pipeline.Value
import Idealize.ShloMosaic.Lib.ValueIdx
import proofs.«177264_j67817533604035_1_alg».proof.Proof.LibColRowBroadcast
import proofs.«177264_j67817533604035_1_alg».proof.Proof.LibRmsNorm

noncomputable section

open scoped BigOperators

namespace Cert.LayerNorm

open Idealize.ShloMosaic Idealize.ShloMosaic.ValueIdx Cert.RmsNorm

/-! ## The function -/

/-- The mean of a row: its sum divided by the number `cN` encodes. -/
def mean {N : ℕ} (cN : BitVec 32) (r : Fin N → EReal) : EReal := Ideal.div (∑ k, r k) (Ideal.ofBits .f32 cN)

/-- A row with its mean subtracted from every entry. -/
def centred {N : ℕ} (cN : BitVec 32) (r : Fin N → EReal) : Fin N → EReal := fun k => r k - mean cN r

/-- Layer normalisation of a row: the centred row times its scale, times the gain, plus the bias. -/
def rowLN {N : ℕ} (cN ce : BitVec 32) (r g b : Fin N → EReal) : Fin N → EReal :=
  fun q => centred cN r q * scale cN ce (centred cN r) * g q + b q

/-! ## On the vector unit -/

/-- The column of means as the vector unit computes it. -/
def colMean {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  divf (shapeCast ⟨2, ![M, 1]⟩ (multiReduction .add [1] ⟨1, ![M]⟩ a 0x00000000#32 hr hφ hacc) hc)
    (broadcast ⟨2, ![M, 1]⟩ (Scalar.ofBits .f32 cN))

/-- The column of means at row `p` is the mean of row `p`. -/
theorem colMean_apply {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colMean cN a hr hφ hacc hc (ix2 p z) = mean cN (row a p) := by
  have h1 : shapeCast ⟨2, ![M, 1]⟩ (multiReduction .add [1] ⟨1, ![M]⟩ a 0x00000000#32 hr hφ hacc) hc (ix2 p z)
      = ∑ k : Fin N, row a p k :=
    (Cert.ColRowBroadcast.colCast_apply _ hc p z).trans (laneSum_apply a hr hφ hacc p)
  exact congrArg (fun s => Ideal.div s (Ideal.ofBits .f32 cN)) h1

/-- The matrix with each row's mean subtracted, as the vector unit computes it. -/
def vectorCentred {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  subf a (broadcastTo ⟨2, ![M, N]⟩ (colMean cN a hr hφ hacc hc) hb)

/-- Row `p` of it is row `p` centred. -/
theorem vectorCentred_row {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) (p : Fin M) :
    row (vectorCentred cN a hr hφ hacc hc hb) p = centred cN (row a p) := by
  funext q
  have hm : broadcastTo ⟨2, ![M, N]⟩ (colMean cN a hr hφ hacc hc) hb (ix2 p q) = mean cN (row a p) :=
    (Cert.ColRowBroadcast.colBroadcast_apply _ hb p q).trans (colMean_apply cN a hr hφ hacc hc p 0)
  show a (ix2 p q) - broadcastTo ⟨2, ![M, N]⟩ (colMean cN a hr hφ hacc hc) hb (ix2 p q) = _
  rw [hm]
  rfl

/-- Layer normalisation of the rows of `a` with gain `g` and bias `bb` (one-row matrices), as the vector unit computes
    it. -/
def vectorLN {M N : ℕ} (cN ce : BitVec 32) (a : FVec Ideal ⟨2, ![M, N]⟩ .f32) (g bb : FVec Ideal ⟨2, ![1, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hgb : (⟨2, ![1, N]⟩ : Shape).Broadcasts ⟨2, ![M, N]⟩) : FVec Ideal ⟨2, ![M, N]⟩ .f32 :=
  addf (mulf (mulf (vectorCentred cN a hr hφ hacc hc hb)
      (broadcastTo ⟨2, ![M, N]⟩ (colScale cN ce (vectorCentred cN a hr hφ hacc hc hb) hr hφ hacc hc) hb))
      (broadcastTo ⟨2, ![M, N]⟩ g hgb))
    (broadcastTo ⟨2, ![M, N]⟩ bb hgb)

/-- Row `p` of the vector unit's layer normalisation is rowLN of row `p`. -/
theorem vectorLN_row {M N : ℕ} (cN ce : BitVec 32) (a : FVec Ideal ⟨2, ![M, N]⟩ .f32) (g bb : FVec Ideal ⟨2, ![1, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hgb : (⟨2, ![1, N]⟩ : Shape).Broadcasts ⟨2, ![M, N]⟩) (p : Fin M) :
    row (vectorLN cN ce a g bb hr hφ hacc hc hb hgb) p = rowLN cN ce (row a p) (row g 0) (row bb 0) := by
  funext q
  have hd : row (vectorCentred cN a hr hφ hacc hc hb) p = centred cN (row a p) := vectorCentred_row cN a hr hφ hacc hc hb p
  have hs : broadcastTo ⟨2, ![M, N]⟩ (colScale cN ce (vectorCentred cN a hr hφ hacc hc hb) hr hφ hacc hc) hb (ix2 p q)
      = scale cN ce (centred cN (row a p)) := by
    rw [Cert.ColRowBroadcast.colBroadcast_apply _ hb p q, colScale_apply cN ce _ hr hφ hacc hc p 0, hd]
  have hg : broadcastTo ⟨2, ![M, N]⟩ g hgb (ix2 p q) = row g 0 q := Cert.ColRowBroadcast.rowBroadcast_apply _ hgb p q
  have hbb : broadcastTo ⟨2, ![M, N]⟩ bb hgb (ix2 p q) = row bb 0 q := Cert.ColRowBroadcast.rowBroadcast_apply _ hgb p q
  show row (vectorCentred cN a hr hφ hacc hc hb) p q
      * broadcastTo ⟨2, ![M, N]⟩ (colScale cN ce (vectorCentred cN a hr hφ hacc hc hb) hr hφ hacc hc) hb (ix2 p q)
      * broadcastTo ⟨2, ![M, N]⟩ g hgb (ix2 p q) + broadcastTo ⟨2, ![M, N]⟩ bb hgb (ix2 p q) = _
  rw [hs, hg, hbb, hd]
  rfl

/-! ## On the host -/

/-- The column of means as the host computes it. -/
def hostColMean {M N : ℕ} (cN : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.divf
    (broadcastInDim ⟨2, ![M, 1]⟩ ![0] hb1 (Host.reduceAdd a (constant (F := Ideal) ⟨0, ![]⟩ .f32 0x00000000#32) hrt h0))
    (broadcastInDim ⟨2, ![M, 1]⟩ ![] hbs (constant (F := Ideal) ⟨0, ![]⟩ .f32 cN))

/-- The host's column of means at row `p` is the mean of row `p`. -/
theorem hostColMean_apply {M N : ℕ} (cN : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColMean cN a hrt h0 hb1 hbs (ix2 p z) = mean cN (row a p) := by
  have h1 : broadcastInDim ⟨2, ![M, 1]⟩ ![0] hb1
        (Host.reduceAdd a (constant (F := Ideal) ⟨0, ![]⟩ .f32 0x00000000#32) hrt h0) (ix2 p z)
      = ∑ k : Fin N, row a p k :=
    (hostCol_apply _ hb1 p z).trans (hostSum_apply a hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  show Ideal.div
      (broadcastInDim ⟨2, ![M, 1]⟩ ![0] hb1 (Host.reduceAdd a (constant (F := Ideal) ⟨0, ![]⟩ .f32 0x00000000#32) hrt h0) (ix2 p z))
      (broadcastInDim ⟨2, ![M, 1]⟩ ![] hbs (constant (F := Ideal) ⟨0, ![]⟩ .f32 cN) (ix2 p z)) = _
  rw [h1, h2]
  rfl

/-- The matrix with each row's mean subtracted, as the host computes it. -/
def hostCentred {M N : ℕ} (cN : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) : FVec Ideal ⟨2, ![M, N]⟩ .f32 :=
  subf a (broadcastInDim ⟨2, ![M, N]⟩ ![0, 1] hbc (hostColMean cN a hrt h0 hb1 hbs))

/-- Row `p` of it is row `p` centred. -/
theorem hostCentred_row {M N : ℕ} (cN : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) (p : Fin M) :
    row (hostCentred cN a hrt h0 hb1 hbs hbc) p = centred cN (row a p) := by
  funext q
  have hm : broadcastInDim ⟨2, ![M, N]⟩ ![0, 1] hbc (hostColMean cN a hrt h0 hb1 hbs) (ix2 p q) = mean cN (row a p) :=
    (hostColBroadcast_apply _ hbc p q).trans (hostColMean_apply cN a hrt hr h0 hb1 hbs p 0)
  show a (ix2 p q) - broadcastInDim ⟨2, ![M, N]⟩ ![0, 1] hbc (hostColMean cN a hrt h0 hb1 hbs) (ix2 p q) = _
  rw [hm]
  rfl

/-- Layer normalisation of the rows of `a` with gain `g` and bias `bb` (vectors), as the host computes it. -/
def hostLN {M N : ℕ} (cN ce : BitVec 32) (a : FVec Ideal ⟨2, ![M, N]⟩ .f32) (g bb : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  addf (mulf (mulf (hostCentred cN a hrt h0 hb1 hbs hbc)
      (broadcastInDim ⟨2, ![M, N]⟩ ![0, 1] hbc (hostColScale cN ce (hostCentred cN a hrt h0 hb1 hbs hbc) hrt h0 hb1 hbs)))
      (broadcastInDim ⟨2, ![M, N]⟩ ![0, 1] hgb (broadcastInDim ⟨2, ![1, N]⟩ ![1] hg g)))
    (broadcastInDim ⟨2, ![M, N]⟩ ![0, 1] hgb (broadcastInDim ⟨2, ![1, N]⟩ ![1] hg bb))

/-- Row `p` of the host's layer normalisation is rowLN of row `p`. -/
theorem hostLN_row {M N : ℕ} (cN ce : BitVec 32) (a : FVec Ideal ⟨2, ![M, N]⟩ .f32) (g bb : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostLN cN ce a g bb hrt h0 hb1 hbs hbc hg hgb) p = rowLN cN ce (row a p) (vec g) (vec bb) := by
  funext q
  have hd : row (hostCentred cN a hrt h0 hb1 hbs hbc) p = centred cN (row a p) := hostCentred_row cN a hrt hr h0 hb1 hbs hbc p
  have hs : broadcastInDim ⟨2, ![M, N]⟩ ![0, 1] hbc (hostColScale cN ce (hostCentred cN a hrt h0 hb1 hbs hbc) hrt h0 hb1 hbs) (ix2 p q)
      = scale cN ce (centred cN (row a p)) := by
    rw [hostColBroadcast_apply _ hbc p q, hostColScale_apply cN ce _ hrt hr h0 hb1 hbs p 0, hd]
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  have hbq : broadcastInDim ⟨2, ![M, N]⟩ ![0, 1] hgb (broadcastInDim ⟨2, ![1, N]⟩ ![1] hg bb) (ix2 p q) = vec bb q :=
    (hostRowBroadcast_apply _ hgb p q).trans (hostRow_apply bb hg 0 q)
  show row (hostCentred cN a hrt h0 hb1 hbs hbc) p q
      * broadcastInDim ⟨2, ![M, N]⟩ ![0, 1] hbc (hostColScale cN ce (hostCentred cN a hrt h0 hb1 hbs hbc) hrt h0 hb1 hbs) (ix2 p q)
      * broadcastInDim ⟨2, ![M, N]⟩ ![0, 1] hgb (broadcastInDim ⟨2, ![1, N]⟩ ![1] hg g) (ix2 p q)
      + broadcastInDim ⟨2, ![M, N]⟩ ![0, 1] hgb (broadcastInDim ⟨2, ![1, N]⟩ ![1] hg bb) (ix2 p q) = _
  rw [hs, hq, hbq, hd]
  rfl

end Cert.LayerNorm

end
-- ==== Proof.LibDocNet.lean ====
/-
  The dense stages of a document classifier over a word graph, each computed on a block of picked rows.

  Three stages act on the rows of a tall matrix one row at a time:

  * a graph layer, max(S · W, 0), S the neighbourhood sums of the previous features;
  * a residual mix w0 · A + w1 · B followed by layer normalisation of each row (mean subtracted, divided by the root
    of the variance plus a small offset, a gain and a bias per column);
  * a three-layer head, ((max((D1 + D2) · W1 + b1, 0)) · W2 + b2 maxed with 0) · W3 + b3, each bias one row added to
    every row.

  Because every stage treats each row by itself, computing it on TM rows picked out of the M rows by any map ρ gives
  the picked rows of the stage computed on all M rows. On the block the products are the matrix unit's, into a zero
  accumulator, of operands first narrowed to a shorter float format; on the extended reals the narrowing is the
  identity, and the matrix unit's product and the host's are the same sum. Nothing here needs a finite entry.
-/
import Idealize.ShloMosaic.PureOps.Ideal.Laws
import Idealize.ShloMosaic.Lib.Pipeline.Value
import Idealize.ShloMosaic.Lib.ValueIdx
import Idealize.ShloMosaic.Lib.ValueLayout
import proofs.«177264_j67817533604035_1_alg».proof.Proof.LibBlockRows
import proofs.«177264_j67817533604035_1_alg».proof.Proof.LibRowLayers
import proofs.«177264_j67817533604035_1_alg».proof.Proof.LibLayerNorm

noncomputable section

namespace Cert.DocNet

open Idealize.ShloMosaic Idealize.ShloMosaic.ValueIdx Cert.BlockRows Cert.RowLayers Cert.RmsNorm Cert.LayerNorm

variable {TM M K N N1 N2 N3 : Nat}

/-! ## A graph layer -/

/-- max(S · W, 0) on all M rows, as the host spells it. -/
def layer (h0 : (⟨0, ![]⟩ : Shape).BroadcastsInDim ⟨2, ![M, N]⟩ ![])
    (S : FVec Ideal ⟨2, ![M, K]⟩ .f32) (W : FVec Ideal ⟨2, ![K, N]⟩ .f32) : FVec Ideal ⟨2, ![M, N]⟩ .f32 :=
  relu h0 (propagate S W)

/-- The layer on picked rows of S, as the vector and matrix units spell it, is the picked rows of the layer. -/
theorem layer_rows (ρ : Fin TM → Fin M) {ψ : FTy} (hψ : ψ.bits < FTy.f32.bits)
    (hs : (⟨2, ![TM, K]⟩ : Shape).ShapeCasts ⟨2, ![TM, K]⟩)
    (h0 : (⟨0, ![]⟩ : Shape).BroadcastsInDim ⟨2, ![M, N]⟩ ![])
    (S : FVec Ideal ⟨2, ![M, K]⟩ .f32) (W : FVec Ideal ⟨2, ![K, N]⟩ .f32) :
    maximumf (matmul (DotDims.plain TM K N) none (truncf ψ (shapeCast ⟨2, ![TM, K]⟩ (rowsOf ρ S) hs) hψ) (truncf ψ W hψ)
        (constant (F := Ideal) ⟨2, ![TM, N]⟩ .f32 0x00000000#32))
      (broadcast ⟨2, ![TM, N]⟩ (Scalar.ofBits (F := Ideal) .f32 0x00000000#32))
    = rowsOf ρ (layer h0 S W) := by
  have e1 : shapeCast ⟨2, ![TM, K]⟩ (rowsOf ρ S) hs = rowsOf ρ S := shapeCast_self _ _
  exact relu_of_rows ρ _ (propagate S W)
    (matmul_of_rows ρ (truncf ψ (shapeCast ⟨2, ![TM, K]⟩ (rowsOf ρ S) hs) hψ) (truncf ψ W hψ) S W
      (trunc_of_rows ρ hψ _ S e1) rfl) h0

/-! ## The residual mix and the row normalisation -/

/-- w0 · A + w1 · B, the weights given as the words of two floats. -/
def mix (w0 w1 : BitVec 32) (h0 : (⟨0, ![]⟩ : Shape).BroadcastsInDim ⟨2, ![M, N]⟩ ![])
    (A B : FVec Ideal ⟨2, ![M, N]⟩ .f32) : FVec Ideal ⟨2, ![M, N]⟩ .f32 :=
  addf (scaled w0 h0 A) (scaled w1 h0 B)

/-- The mix of picked rows is the picked rows of the mix. -/
theorem mix_rows (ρ : Fin TM → Fin M) (w0 w1 : BitVec 32)
    (hs : (⟨2, ![TM, N]⟩ : Shape).ShapeCasts ⟨2, ![TM, N]⟩)
    (h0 : (⟨0, ![]⟩ : Shape).BroadcastsInDim ⟨2, ![M, N]⟩ ![]) (A B : FVec Ideal ⟨2, ![M, N]⟩ .f32) :
    addf (mulf (broadcast ⟨2, ![TM, N]⟩ (Scalar.ofBits (F := Ideal) .f32 w0)) (rowsOf ρ A))
        (mulf (broadcast ⟨2, ![TM, N]⟩ (Scalar.ofBits (F := Ideal) .f32 w1)) (shapeCast ⟨2, ![TM, N]⟩ (rowsOf ρ B) hs))
      = rowsOf ρ (mix w0 w1 h0 A B) := by
  rw [shapeCast_self, scaled_rows ρ w0 h0 A, scaled_rows ρ w1 h0 B]
  rfl

/-- The mix, then every row normalised with gain g and bias b (vectors of N numbers), as the host spells it. -/
def mixNorm (w0 w1 cN ce : BitVec 32) (h0 : (⟨0, ![]⟩ : Shape).BroadcastsInDim ⟨2, ![M, N]⟩ ![])
    (hrt : (⟨2, ![M, N]⟩ : Shape).ReducesTo [1] (⟨1, ![M]⟩ : Shape)) (h0n : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1])
    (A B : FVec Ideal ⟨2, ![M, N]⟩ .f32) (g b : FVec Ideal ⟨1, ![N]⟩ .f32) : FVec Ideal ⟨2, ![M, N]⟩ .f32 :=
  hostLN cN ce (mix w0 w1 h0 A B) g b hrt h0n hb1 hbs hbc hg hgb

/-- Mixed and normalised on picked rows, the gain and the bias given as the one-row matrices g2, b2 whose row is g,
    b: the picked rows of the host's mix and normalisation. Each row's mean and variance are sums over that row alone. -/
theorem mixNorm_rows (ρ : Fin TM → Fin M) (w0 w1 cN ce : BitVec 32)
    (hs : (⟨2, ![TM, N]⟩ : Shape).ShapeCasts ⟨2, ![TM, N]⟩) (hs1 : (⟨2, ![1, N]⟩ : Shape).ShapeCasts ⟨2, ![1, N]⟩)
    (hr : (⟨2, ![TM, N]⟩ : Shape).Reduces [1] (⟨1, ![TM]⟩ : Shape)) (hφ : FKind.Formats .f32)
    (hacc : (0x00000000#32 : BitVec (FTy.bits .f32)) = FKind.add.neutral .f32 hφ)
    (hc : (⟨1, ![TM]⟩ : Shape).ShapeCasts ⟨2, ![TM, 1]⟩) (hb : (⟨2, ![TM, 1]⟩ : Shape).Broadcasts ⟨2, ![TM, N]⟩)
    (hgbv : (⟨2, ![1, N]⟩ : Shape).Broadcasts ⟨2, ![TM, N]⟩)
    (h0 : (⟨0, ![]⟩ : Shape).BroadcastsInDim ⟨2, ![M, N]⟩ ![])
    (hrt : (⟨2, ![M, N]⟩ : Shape).ReducesTo [1] (⟨1, ![M]⟩ : Shape)) (h0n : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1])
    (A B : FVec Ideal ⟨2, ![M, N]⟩ .f32) (g b : FVec Ideal ⟨1, ![N]⟩ .f32) (g2 b2 : FVec Ideal ⟨2, ![1, N]⟩ .f32)
    (hg2 : g2 = broadcastInDim ⟨2, ![1, N]⟩ ![1] hg g) (hb2 : b2 = broadcastInDim ⟨2, ![1, N]⟩ ![1] hg b) :
    vectorLN cN ce
        (addf (mulf (broadcast ⟨2, ![TM, N]⟩ (Scalar.ofBits (F := Ideal) .f32 w0)) (rowsOf ρ A))
          (mulf (broadcast ⟨2, ![TM, N]⟩ (Scalar.ofBits (F := Ideal) .f32 w1)) (shapeCast ⟨2, ![TM, N]⟩ (rowsOf ρ B) hs)))
        (shapeCast ⟨2, ![1, N]⟩ g2 hs1) (shapeCast ⟨2, ![1, N]⟩ b2 hs1) hr hφ hacc hc hb hgbv
      = rowsOf ρ (mixNorm w0 w1 cN ce h0 hrt h0n hb1 hbs hbc hg hgb A B g b) := by
  have hrM : (⟨2, ![M, N]⟩ : Shape).Reduces [1] (⟨1, ![M]⟩ : Shape) := ⟨hrt.1, Nat.one_pos, hrt.2⟩
  rw [mix_rows ρ w0 w1 hs h0 A B, shapeCast_self, shapeCast_self]
  funext j
  obtain ⟨p, q, rfl⟩ : ∃ (p : Fin TM) (q : Fin N), j = ix2 p q := ⟨j 0, j 1, eq_ix2 j⟩
  have hv := congrFun (vectorLN_row cN ce (rowsOf ρ (mix w0 w1 h0 A B)) g2 b2 hr hφ hacc hc hb hgbv p) q
  have hh := congrFun (hostLN_row cN ce (mix w0 w1 h0 A B) g b hrt hrM h0n hb1 hbs hbc hg hgb (ρ p)) q
  have hgr : row g2 0 = vec g := by
    subst hg2; funext k; exact hostRow_apply g hg 0 k
  have hbr : row b2 0 = vec b := by
    subst hb2; funext k; exact hostRow_apply b hg 0 k
  rw [hgr, hbr] at hv
  exact hv.trans hh.symm

/-! ## The head -/

/-- ((max((D1 + D2) · W1 + b1, 0)) · W2 + b2, maxed with 0) · W3 + b3 on all M rows, as the host spells it; each bias a
    one-row matrix laid down the M rows. -/
def head (h0a : (⟨0, ![]⟩ : Shape).BroadcastsInDim ⟨2, ![M, N1]⟩ ![])
    (h0b : (⟨0, ![]⟩ : Shape).BroadcastsInDim ⟨2, ![M, N2]⟩ ![])
    (h2a : (⟨2, ![1, N1]⟩ : Shape).BroadcastsInDim ⟨2, ![M, N1]⟩ ![0, 1])
    (h2b : (⟨2, ![1, N2]⟩ : Shape).BroadcastsInDim ⟨2, ![M, N2]⟩ ![0, 1])
    (h2c : (⟨2, ![1, N3]⟩ : Shape).BroadcastsInDim ⟨2, ![M, N3]⟩ ![0, 1])
    (D1 D2 : FVec Ideal ⟨2, ![M, K]⟩ .f32) (W1 : FVec Ideal ⟨2, ![K, N1]⟩ .f32) (b1 : FVec Ideal ⟨2, ![1, N1]⟩ .f32)
    (W2 : FVec Ideal ⟨2, ![N1, N2]⟩ .f32) (b2 : FVec Ideal ⟨2, ![1, N2]⟩ .f32)
    (W3 : FVec Ideal ⟨2, ![N2, N3]⟩ .f32) (b3 : FVec Ideal ⟨2, ![1, N3]⟩ .f32) : FVec Ideal ⟨2, ![M, N3]⟩ .f32 :=
  addf (propagate (relu h0b (addf (propagate (relu h0a (addf (propagate (addf D1 D2) W1) (rowBias h2a b1))) W2)
    (rowBias h2b b2))) W3) (rowBias h2c b3)

/-- The head on picked rows of D1 and D2 is the picked rows of the head: one operation after another, each acting on
    every row by itself. -/
theorem head_rows (ρ : Fin TM → Fin M) {ψ : FTy} (hψ : ψ.bits < FTy.f32.bits)
    (hsd : (⟨2, ![TM, K]⟩ : Shape).ShapeCasts ⟨2, ![TM, K]⟩)
    (hs1 : (⟨2, ![1, N1]⟩ : Shape).ShapeCasts ⟨2, ![1, N1]⟩) (hs2 : (⟨2, ![1, N2]⟩ : Shape).ShapeCasts ⟨2, ![1, N2]⟩)
    (hs3 : (⟨2, ![1, N3]⟩ : Shape).ShapeCasts ⟨2, ![1, N3]⟩)
    (hv1 : (⟨2, ![1, N1]⟩ : Shape).Broadcasts ⟨2, ![TM, N1]⟩) (hv2 : (⟨2, ![1, N2]⟩ : Shape).Broadcasts ⟨2, ![TM, N2]⟩)
    (hv3 : (⟨2, ![1, N3]⟩ : Shape).Broadcasts ⟨2, ![TM, N3]⟩)
    (h0a : (⟨0, ![]⟩ : Shape).BroadcastsInDim ⟨2, ![M, N1]⟩ ![])
    (h0b : (⟨0, ![]⟩ : Shape).BroadcastsInDim ⟨2, ![M, N2]⟩ ![])
    (h2a : (⟨2, ![1, N1]⟩ : Shape).BroadcastsInDim ⟨2, ![M, N1]⟩ ![0, 1])
    (h2b : (⟨2, ![1, N2]⟩ : Shape).BroadcastsInDim ⟨2, ![M, N2]⟩ ![0, 1])
    (h2c : (⟨2, ![1, N3]⟩ : Shape).BroadcastsInDim ⟨2, ![M, N3]⟩ ![0, 1])
    (D1 D2 : FVec Ideal ⟨2, ![M, K]⟩ .f32) (W1 : FVec Ideal ⟨2, ![K, N1]⟩ .f32) (b1 : FVec Ideal ⟨2, ![1, N1]⟩ .f32)
    (W2 : FVec Ideal ⟨2, ![N1, N2]⟩ .f32) (b2 : FVec Ideal ⟨2, ![1, N2]⟩ .f32)
    (W3 : FVec Ideal ⟨2, ![N2, N3]⟩ .f32) (b3 : FVec Ideal ⟨2, ![1, N3]⟩ .f32) :
    addf (matmul (DotDims.plain TM N2 N3) none
        (truncf ψ (maximumf (addf (matmul (DotDims.plain TM N1 N2) none
            (truncf ψ (maximumf (addf (matmul (DotDims.plain TM K N1) none
                (truncf ψ (addf (shapeCast ⟨2, ![TM, K]⟩ (rowsOf ρ D1) hsd) (shapeCast ⟨2, ![TM, K]⟩ (rowsOf ρ D2) hsd)) hψ)
                (truncf ψ W1 hψ) (constant (F := Ideal) ⟨2, ![TM, N1]⟩ .f32 0x00000000#32))
              (broadcastTo ⟨2, ![TM, N1]⟩ (shapeCast ⟨2, ![1, N1]⟩ b1 hs1) hv1))
              (broadcast ⟨2, ![TM, N1]⟩ (Scalar.ofBits (F := Ideal) .f32 0x00000000#32))) hψ)
            (truncf ψ W2 hψ) (constant (F := Ideal) ⟨2, ![TM, N2]⟩ .f32 0x00000000#32))
          (broadcastTo ⟨2, ![TM, N2]⟩ (shapeCast ⟨2, ![1, N2]⟩ b2 hs2) hv2))
          (broadcast ⟨2, ![TM, N2]⟩ (Scalar.ofBits (F := Ideal) .f32 0x00000000#32))) hψ)
        (truncf ψ W3 hψ) (constant (F := Ideal) ⟨2, ![TM, N3]⟩ .f32 0x00000000#32))
      (broadcastTo ⟨2, ![TM, N3]⟩ (shapeCast ⟨2, ![1, N3]⟩ b3 hs3) hv3)
    = rowsOf ρ (head h0a h0b h2a h2b h2c D1 D2 W1 b1 W2 b2 W3 b3) := by
  have e1 : addf (shapeCast ⟨2, ![TM, K]⟩ (rowsOf ρ D1) hsd) (shapeCast ⟨2, ![TM, K]⟩ (rowsOf ρ D2) hsd)
      = rowsOf ρ (addf D1 D2) := by
    rw [shapeCast_self, shapeCast_self]; rfl
  have e2 := matmul_of_rows ρ (truncf ψ _ hψ) (truncf ψ W1 hψ) (addf D1 D2) W1 (trunc_of_rows ρ hψ _ _ e1) rfl
  have e3 := addBias_of_rows ρ _ _ e2 b1 hs1 hv1 h2a
  have e4 := relu_of_rows ρ _ _ e3 h0a
  have e5 := matmul_of_rows ρ (truncf ψ _ hψ) (truncf ψ W2 hψ) _ W2 (trunc_of_rows ρ hψ _ _ e4) rfl
  have e6 := addBias_of_rows ρ _ _ e5 b2 hs2 hv2 h2b
  have e7 := relu_of_rows ρ _ _ e6 h0b
  have e8 := matmul_of_rows ρ (truncf ψ _ hψ) (truncf ψ W3 hψ) _ W3 (trunc_of_rows ρ hψ _ _ e7) rfl
  exact addBias_of_rows ρ _ _ e8 b3 hs3 hv3 h2c

end Cert.DocNet

end
-- ==== Proof.BlocksLayers.lean ====
/-
  The three graph layers of the word network, block by block, put together into whole arrays.

  Each layer's region cuts the 30000 rows of its input into ten blocks of 3000 rows; point t reads block t (rows
  3000 · t … 3000 · t + 2999) and the whole 300 × 300 weight table, computes max(S · W, 0) on those rows and writes the
  result back as block t of the output. Entry (r, c) of max(S · W, 0) depends on row r of S alone, so what point t writes
  is block t of the layer computed on all rows at once; the ten blocks tile the output, hence the output array ends
  holding max(S · W, 0) whole.
-/
import proofs.«177264_j67817533604035_1_alg».proof.Proof.Gen.KernelIdeal.Frame
import proofs.«177264_j67817533604035_1_alg».proof.Proof.LibDocNet

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.ShloMosaic.Pipeline (Dat)
open Cert.BlockRows Cert.DocNet

variable (V : (c : Dev nD) → (b : Ref sig .tc) → Buf (Elt Ideal) ((c : Thread nD τ).loc b))

/-- The zero offsets of a rank-two access. -/
theorem hz2 : (![0, 0] : Fin 2 → Nat) = fun _ => 0 := funext fun a => by fin_cases a <;> rfl

/-! ## Graph layer 1: region 0 -/

/-- The printed index maps over the grid: a row-blocked window's block number is the point's, a whole window's is zero. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row p of point t's block is row 3000 · t + p of the array. -/
def rows0 (t : Fin cfg0.N) : Fin 3000 → Fin 30000 := fun p =>
  ⟨3000 * t.val + p.val, by
    have ht := t.isLt
    have hN : cfg0.N = 10 := N_0
    have hp := p.isLt
    omega⟩

/-- Window 0's block at point t, read off an array X, is the block's rows of X. -/
theorem read0_0 (t : Fin cfg0.N) (X : S30000x300.Idx → Elt Ideal .f32) :
    (((cfg0.win 0).blk t).view.read (Elt Ideal) X : S3000x300.Idx → EReal) = rowsOf (rows0 t) X := by
  obtain ⟨e0, e1, -, -, -, -⟩ := idx0 t
  funext j
  show X (((cfg0.win 0).blk t).view.emb j) = X (ix2 (rows0 t (j 0)) (j 1))
  refine congrArg X ?_
  funext a; apply Fin.ext
  match a with
  | ⟨0, _⟩ => show win0_0.index t (0 : Fin 2) * 3000 + 1 * (j 0).val = 3000 * t.val + (j 0).val; omega
  | ⟨1, _⟩ => show win0_0.index t (1 : Fin 2) * 300 + 1 * (j 1).val = (j 1).val; omega

/-- Window 1's block at any point is the whole of its array. -/
theorem read0_1 (t : Fin cfg0.N) (X : S300x300.Idx → Elt Ideal .f32) :
    (((cfg0.win 1).blk t).view.read (Elt Ideal) X : S300x300.Idx → EReal) = X := by
  obtain ⟨-, -, e0, e1, -, -⟩ := idx0 t
  funext j
  show X (((cfg0.win 1).blk t).view.emb j) = X j
  refine congrArg X ?_
  funext a; apply Fin.ext
  match a with
  | ⟨0, _⟩ => show win0_1.index t (0 : Fin 2) * 300 + 1 * (j 0).val = (j 0).val; omega
  | ⟨1, _⟩ => show win0_1.index t (1 : Fin 2) * 300 + 1 * (j 1).val = (j 1).val; omega

/-- Window 2's block at point t, read off an array X, is the block's rows of X. -/
theorem read0_2 (t : Fin cfg0.N) (X : S30000x300.Idx → Elt Ideal .f32) :
    (((cfg0.win 2).blk t).view.read (Elt Ideal) X : S3000x300.Idx → EReal) = rowsOf (rows0 t) X := by
  obtain ⟨-, -, -, -, e0, e1⟩ := idx0 t
  funext j
  show X (((cfg0.win 2).blk t).view.emb j) = X (ix2 (rows0 t (j 0)) (j 1))
  refine congrArg X ?_
  funext a; apply Fin.ext
  match a with
  | ⟨0, _⟩ => show win0_2.index t (0 : Fin 2) * 3000 + 1 * (j 0).val = 3000 * t.val + (j 0).val; omega
  | ⟨1, _⟩ => show win0_2.index t (1 : Fin 2) * 300 + 1 * (j 1).val = (j 1).val; omega

/-- WHAT POINT t WRITES BACK is block t of max(S · W, 0), S and W the arrays the region finds. -/
theorem flushed0 (h0 : S_.BroadcastsInDim S30000x300 (![] : Fin 0 → Fin S30000x300.rank)) (c : Dev nD) (t : Fin cfg0.N) :
    (dat0 V c).flushed 2 t
      = ((cfg0.win 2).blk t).view.read (Elt Ideal) (layer h0 (V c main_v12) (V c main_arg7)) := by
  show (cfg0.win 2).cut (grid0.coords t) ((dat0 V c).after 2 t) = _
  rw [after0_2]
  unfold out0_2
  rw [View.canon_unit_zero hz2]
  simp only [View.ld_unit_zero (S := S3000x300) hz2, View.ld_unit_zero (S := S300x300) hz2]
  have e0 : (iblk0 V c 0 t : S3000x300.Idx → EReal) = rowsOf (rows0 t) (V c main_v12) := read0_0 t _
  have e1 : (iblk0 V c 1 t : S300x300.Idx → EReal) = V c main_arg7 := read0_1 t _
  have e2 := read0_2 t (layer h0 (V c main_v12) (V c main_arg7))
  have e3 : k0_pay1 (F := Ideal) (rowsOf (rows0 t) (V c main_v12)) (V c main_arg7)
      = rowsOf (rows0 t) (layer h0 (V c main_v12) (V c main_arg7)) :=
    layer_rows (rows0 t) bitsLt_bf16_f32 shapeCasts_S3000x300_S3000x300 h0 (V c main_v12) (V c main_arg7)
  funext j
  show k0_pay1 (F := Ideal) (iblk0 V c 0 t) (iblk0 V c 1 t) j = _
  exact (congrFun ((congrArg₂ (k0_pay1 (F := Ideal)) e0 e1).trans e3) j).trans (congrFun e2 j).symm

/-- An index of the result array is in point t's block iff each coordinate is in the block's range. -/
theorem mem0 (t : Fin cfg0.N) (i : S30000x300.Idx) :
    i ∈ ((cfg0.win 2).blk t).view.set ↔ ∀ a : Fin 2, win0_2.index t a * S3000x300.size a ≤ (i a).val
      ∧ (i a).val < win0_2.index t a * S3000x300.size a + S3000x300.size a := by
  show i ∈ ((View.whole main_v13).slice (win0_2.rect t)).set ↔ _
  rw [View.set_slice_whole, Rect.mem_set_unit]
  exact Iff.rfl

/-- Every row r of the result array is in the block of point r / 3000: the blocks tile the array. -/
theorem cover0 (i : S30000x300.Idx) :
    ∃ t : Fin cfg0.N, (cfg0.win 2).flush t = true ∧ i ∈ ((cfg0.win 2).blk t).view.set := by
  have hi0 : (i 0).val < 30000 := (i 0).isLt
  have hi1 : (i 1).val < 300 := (i 1).isLt
  have hN : cfg0.N = 10 := N_0
  have hlt : (i 0).val / 3000 < cfg0.N := by omega
  refine ⟨⟨(i 0).val / 3000, hlt⟩, flush0_2 _, ?_⟩
  obtain ⟨-, -, -, -, e0, e1⟩ := idx0 ⟨(i 0).val / 3000, hlt⟩
  rw [mem0]
  intro a
  match a with
  | ⟨0, _⟩ =>
    show win0_2.index ⟨(i 0).val / 3000, hlt⟩ (0 : Fin 2) * 3000 ≤ (i 0).val
      ∧ (i 0).val < win0_2.index ⟨(i 0).val / 3000, hlt⟩ (0 : Fin 2) * 3000 + 3000
    rw [e0]
    show (i 0).val / 3000 * 3000 ≤ (i 0).val ∧ (i 0).val < (i 0).val / 3000 * 3000 + 3000
    omega
  | ⟨1, _⟩ =>
    show win0_2.index ⟨(i 0).val / 3000, hlt⟩ (1 : Fin 2) * 300 ≤ (i 1).val
      ∧ (i 1).val < win0_2.index ⟨(i 0).val / 3000, hlt⟩ (1 : Fin 2) * 300 + 300
    rw [e1]
    omega

/-- The array after region 0: max(S · W, 0) on all 30000 rows. -/
theorem final0 (h0 : S_.BroadcastsInDim S30000x300 (![] : Fin 0 → Fin S30000x300.rank)) (c : Dev nD) :
    (dat0 V c).arrAt 2 cfg0.N = layer h0 (V c main_v12) (V c main_arg7) :=
  (dat0 V c).arrAt_eq_of_cover 2 _ (fun t _ => flushed0 V h0 c t) cover0

/-! ## Graph layer 2: region 1 -/

/-- The printed index maps over the grid: a row-blocked window's block number is the point's, a whole window's is zero. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Row p of point t's block is row 3000 · t + p of the array. -/
def rows1 (t : Fin cfg1.N) : Fin 3000 → Fin 30000 := fun p =>
  ⟨3000 * t.val + p.val, by
    have ht := t.isLt
    have hN : cfg1.N = 10 := N_1
    have hp := p.isLt
    omega⟩

/-- Window 0's block at point t, read off an array X, is the block's rows of X. -/
theorem read1_0 (t : Fin cfg1.N) (X : S30000x300.Idx → Elt Ideal .f32) :
    (((cfg1.win 0).blk t).view.read (Elt Ideal) X : S3000x300.Idx → EReal) = rowsOf (rows1 t) X := by
  obtain ⟨e0, e1, -, -, -, -⟩ := idx1 t
  funext j
  show X (((cfg1.win 0).blk t).view.emb j) = X (ix2 (rows1 t (j 0)) (j 1))
  refine congrArg X ?_
  funext a; apply Fin.ext
  match a with
  | ⟨0, _⟩ => show win1_0.index t (0 : Fin 2) * 3000 + 1 * (j 0).val = 3000 * t.val + (j 0).val; omega
  | ⟨1, _⟩ => show win1_0.index t (1 : Fin 2) * 300 + 1 * (j 1).val = (j 1).val; omega

/-- Window 1's block at any point is the whole of its array. -/
theorem read1_1 (t : Fin cfg1.N) (X : S300x300.Idx → Elt Ideal .f32) :
    (((cfg1.win 1).blk t).view.read (Elt Ideal) X : S300x300.Idx → EReal) = X := by
  obtain ⟨-, -, e0, e1, -, -⟩ := idx1 t
  funext j
  show X (((cfg1.win 1).blk t).view.emb j) = X j
  refine congrArg X ?_
  funext a; apply Fin.ext
  match a with
  | ⟨0, _⟩ => show win1_1.index t (0 : Fin 2) * 300 + 1 * (j 0).val = (j 0).val; omega
  | ⟨1, _⟩ => show win1_1.index t (1 : Fin 2) * 300 + 1 * (j 1).val = (j 1).val; omega

/-- Window 2's block at point t, read off an array X, is the block's rows of X. -/
theorem read1_2 (t : Fin cfg1.N) (X : S30000x300.Idx → Elt Ideal .f32) :
    (((cfg1.win 2).blk t).view.read (Elt Ideal) X : S3000x300.Idx → EReal) = rowsOf (rows1 t) X := by
  obtain ⟨-, -, -, -, e0, e1⟩ := idx1 t
  funext j
  show X (((cfg1.win 2).blk t).view.emb j) = X (ix2 (rows1 t (j 0)) (j 1))
  refine congrArg X ?_
  funext a; apply Fin.ext
  match a with
  | ⟨0, _⟩ => show win1_2.index t (0 : Fin 2) * 3000 + 1 * (j 0).val = 3000 * t.val + (j 0).val; omega
  | ⟨1, _⟩ => show win1_2.index t (1 : Fin 2) * 300 + 1 * (j 1).val = (j 1).val; omega

/-- WHAT POINT t WRITES BACK is block t of max(S · W, 0), S and W the arrays the region finds. -/
theorem flushed1 (h0 : S_.BroadcastsInDim S30000x300 (![] : Fin 0 → Fin S30000x300.rank)) (c : Dev nD) (t : Fin cfg1.N) :
    (dat1 V c).flushed 2 t
      = ((cfg1.win 2).blk t).view.read (Elt Ideal) (layer h0 (V c main_v26) (V c main_arg8)) := by
  show (cfg1.win 2).cut (grid1.coords t) ((dat1 V c).after 2 t) = _
  rw [after1_2]
  unfold out1_2
  rw [View.canon_unit_zero hz2]
  simp only [View.ld_unit_zero (S := S3000x300) hz2, View.ld_unit_zero (S := S300x300) hz2]
  have e0 : (iblk1 V c 0 t : S3000x300.Idx → EReal) = rowsOf (rows1 t) (V c main_v26) := read1_0 t _
  have e1 : (iblk1 V c 1 t : S300x300.Idx → EReal) = V c main_arg8 := read1_1 t _
  have e2 := read1_2 t (layer h0 (V c main_v26) (V c main_arg8))
  have e3 : k1_pay1 (F := Ideal) (rowsOf (rows1 t) (V c main_v26)) (V c main_arg8)
      = rowsOf (rows1 t) (layer h0 (V c main_v26) (V c main_arg8)) :=
    layer_rows (rows1 t) bitsLt_bf16_f32 shapeCasts_S3000x300_S3000x300 h0 (V c main_v26) (V c main_arg8)
  funext j
  show k1_pay1 (F := Ideal) (iblk1 V c 0 t) (iblk1 V c 1 t) j = _
  exact (congrFun ((congrArg₂ (k1_pay1 (F := Ideal)) e0 e1).trans e3) j).trans (congrFun e2 j).symm

/-- An index of the result array is in point t's block iff each coordinate is in the block's range. -/
theorem mem1 (t : Fin cfg1.N) (i : S30000x300.Idx) :
    i ∈ ((cfg1.win 2).blk t).view.set ↔ ∀ a : Fin 2, win1_2.index t a * S3000x300.size a ≤ (i a).val
      ∧ (i a).val < win1_2.index t a * S3000x300.size a + S3000x300.size a := by
  show i ∈ ((View.whole main_v27).slice (win1_2.rect t)).set ↔ _
  rw [View.set_slice_whole, Rect.mem_set_unit]
  exact Iff.rfl

/-- Every row r of the result array is in the block of point r / 3000: the blocks tile the array. -/
theorem cover1 (i : S30000x300.Idx) :
    ∃ t : Fin cfg1.N, (cfg1.win 2).flush t = true ∧ i ∈ ((cfg1.win 2).blk t).view.set := by
  have hi0 : (i 0).val < 30000 := (i 0).isLt
  have hi1 : (i 1).val < 300 := (i 1).isLt
  have hN : cfg1.N = 10 := N_1
  have hlt : (i 0).val / 3000 < cfg1.N := by omega
  refine ⟨⟨(i 0).val / 3000, hlt⟩, flush1_2 _, ?_⟩
  obtain ⟨-, -, -, -, e0, e1⟩ := idx1 ⟨(i 0).val / 3000, hlt⟩
  rw [mem1]
  intro a
  match a with
  | ⟨0, _⟩ =>
    show win1_2.index ⟨(i 0).val / 3000, hlt⟩ (0 : Fin 2) * 3000 ≤ (i 0).val
      ∧ (i 0).val < win1_2.index ⟨(i 0).val / 3000, hlt⟩ (0 : Fin 2) * 3000 + 3000
    rw [e0]
    show (i 0).val / 3000 * 3000 ≤ (i 0).val ∧ (i 0).val < (i 0).val / 3000 * 3000 + 3000
    omega
  | ⟨1, _⟩ =>
    show win1_2.index ⟨(i 0).val / 3000, hlt⟩ (1 : Fin 2) * 300 ≤ (i 1).val
      ∧ (i 1).val < win1_2.index ⟨(i 0).val / 3000, hlt⟩ (1 : Fin 2) * 300 + 300
    rw [e1]
    omega

/-- The array after region 1: max(S · W, 0) on all 30000 rows. -/
theorem final1 (h0 : S_.BroadcastsInDim S30000x300 (![] : Fin 0 → Fin S30000x300.rank)) (c : Dev nD) :
    (dat1 V c).arrAt 2 cfg1.N = layer h0 (V c main_v26) (V c main_arg8) :=
  (dat1 V c).arrAt_eq_of_cover 2 _ (fun t _ => flushed1 V h0 c t) cover1

/-! ## Graph layer 3: region 2 -/

/-- The printed index maps over the grid: a row-blocked window's block number is the point's, a whole window's is zero. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Row p of point t's block is row 3000 · t + p of the array. -/
def rows2 (t : Fin cfg2.N) : Fin 3000 → Fin 30000 := fun p =>
  ⟨3000 * t.val + p.val, by
    have ht := t.isLt
    have hN : cfg2.N = 10 := N_2
    have hp := p.isLt
    omega⟩

/-- Window 0's block at point t, read off an array X, is the block's rows of X. -/
theorem read2_0 (t : Fin cfg2.N) (X : S30000x300.Idx → Elt Ideal .f32) :
    (((cfg2.win 0).blk t).view.read (Elt Ideal) X : S3000x300.Idx → EReal) = rowsOf (rows2 t) X := by
  obtain ⟨e0, e1, -, -, -, -⟩ := idx2 t
  funext j
  show X (((cfg2.win 0).blk t).view.emb j) = X (ix2 (rows2 t (j 0)) (j 1))
  refine congrArg X ?_
  funext a; apply Fin.ext
  match a with
  | ⟨0, _⟩ => show win2_0.index t (0 : Fin 2) * 3000 + 1 * (j 0).val = 3000 * t.val + (j 0).val; omega
  | ⟨1, _⟩ => show win2_0.index t (1 : Fin 2) * 300 + 1 * (j 1).val = (j 1).val; omega

/-- Window 1's block at any point is the whole of its array. -/
theorem read2_1 (t : Fin cfg2.N) (X : S300x300.Idx → Elt Ideal .f32) :
    (((cfg2.win 1).blk t).view.read (Elt Ideal) X : S300x300.Idx → EReal) = X := by
  obtain ⟨-, -, e0, e1, -, -⟩ := idx2 t
  funext j
  show X (((cfg2.win 1).blk t).view.emb j) = X j
  refine congrArg X ?_
  funext a; apply Fin.ext
  match a with
  | ⟨0, _⟩ => show win2_1.index t (0 : Fin 2) * 300 + 1 * (j 0).val = (j 0).val; omega
  | ⟨1, _⟩ => show win2_1.index t (1 : Fin 2) * 300 + 1 * (j 1).val = (j 1).val; omega

/-- Window 2's block at point t, read off an array X, is the block's rows of X. -/
theorem read2_2 (t : Fin cfg2.N) (X : S30000x300.Idx → Elt Ideal .f32) :
    (((cfg2.win 2).blk t).view.read (Elt Ideal) X : S3000x300.Idx → EReal) = rowsOf (rows2 t) X := by
  obtain ⟨-, -, -, -, e0, e1⟩ := idx2 t
  funext j
  show X (((cfg2.win 2).blk t).view.emb j) = X (ix2 (rows2 t (j 0)) (j 1))
  refine congrArg X ?_
  funext a; apply Fin.ext
  match a with
  | ⟨0, _⟩ => show win2_2.index t (0 : Fin 2) * 3000 + 1 * (j 0).val = 3000 * t.val + (j 0).val; omega
  | ⟨1, _⟩ => show win2_2.index t (1 : Fin 2) * 300 + 1 * (j 1).val = (j 1).val; omega

/-- WHAT POINT t WRITES BACK is block t of max(S · W, 0), S and W the arrays the region finds. -/
theorem flushed2 (h0 : S_.BroadcastsInDim S30000x300 (![] : Fin 0 → Fin S30000x300.rank)) (c : Dev nD) (t : Fin cfg2.N) :
    (dat2 V c).flushed 2 t
      = ((cfg2.win 2).blk t).view.read (Elt Ideal) (layer h0 (V c main_v40) (V c main_arg9)) := by
  show (cfg2.win 2).cut (grid2.coords t) ((dat2 V c).after 2 t) = _
  rw [after2_2]
  unfold out2_2
  rw [View.canon_unit_zero hz2]
  simp only [View.ld_unit_zero (S := S3000x300) hz2, View.ld_unit_zero (S := S300x300) hz2]
  have e0 : (iblk2 V c 0 t : S3000x300.Idx → EReal) = rowsOf (rows2 t) (V c main_v40) := read2_0 t _
  have e1 : (iblk2 V c 1 t : S300x300.Idx → EReal) = V c main_arg9 := read2_1 t _
  have e2 := read2_2 t (layer h0 (V c main_v40) (V c main_arg9))
  have e3 : k2_pay1 (F := Ideal) (rowsOf (rows2 t) (V c main_v40)) (V c main_arg9)
      = rowsOf (rows2 t) (layer h0 (V c main_v40) (V c main_arg9)) :=
    layer_rows (rows2 t) bitsLt_bf16_f32 shapeCasts_S3000x300_S3000x300 h0 (V c main_v40) (V c main_arg9)
  funext j
  show k2_pay1 (F := Ideal) (iblk2 V c 0 t) (iblk2 V c 1 t) j = _
  exact (congrFun ((congrArg₂ (k2_pay1 (F := Ideal)) e0 e1).trans e3) j).trans (congrFun e2 j).symm

/-- An index of the result array is in point t's block iff each coordinate is in the block's range. -/
theorem mem2 (t : Fin cfg2.N) (i : S30000x300.Idx) :
    i ∈ ((cfg2.win 2).blk t).view.set ↔ ∀ a : Fin 2, win2_2.index t a * S3000x300.size a ≤ (i a).val
      ∧ (i a).val < win2_2.index t a * S3000x300.size a + S3000x300.size a := by
  show i ∈ ((View.whole main_v41).slice (win2_2.rect t)).set ↔ _
  rw [View.set_slice_whole, Rect.mem_set_unit]
  exact Iff.rfl

/-- Every row r of the result array is in the block of point r / 3000: the blocks tile the array. -/
theorem cover2 (i : S30000x300.Idx) :
    ∃ t : Fin cfg2.N, (cfg2.win 2).flush t = true ∧ i ∈ ((cfg2.win 2).blk t).view.set := by
  have hi0 : (i 0).val < 30000 := (i 0).isLt
  have hi1 : (i 1).val < 300 := (i 1).isLt
  have hN : cfg2.N = 10 := N_2
  have hlt : (i 0).val / 3000 < cfg2.N := by omega
  refine ⟨⟨(i 0).val / 3000, hlt⟩, flush2_2 _, ?_⟩
  obtain ⟨-, -, -, -, e0, e1⟩ := idx2 ⟨(i 0).val / 3000, hlt⟩
  rw [mem2]
  intro a
  match a with
  | ⟨0, _⟩ =>
    show win2_2.index ⟨(i 0).val / 3000, hlt⟩ (0 : Fin 2) * 3000 ≤ (i 0).val
      ∧ (i 0).val < win2_2.index ⟨(i 0).val / 3000, hlt⟩ (0 : Fin 2) * 3000 + 3000
    rw [e0]
    show (i 0).val / 3000 * 3000 ≤ (i 0).val ∧ (i 0).val < (i 0).val / 3000 * 3000 + 3000
    omega
  | ⟨1, _⟩ =>
    show win2_2.index ⟨(i 0).val / 3000, hlt⟩ (1 : Fin 2) * 300 ≤ (i 1).val
      ∧ (i 1).val < win2_2.index ⟨(i 0).val / 3000, hlt⟩ (1 : Fin 2) * 300 + 300
    rw [e1]
    omega

/-- The array after region 2: max(S · W, 0) on all 30000 rows. -/
theorem final2 (h0 : S_.BroadcastsInDim S30000x300 (![] : Fin 0 → Fin S30000x300.rank)) (c : Dev nD) :
    (dat2 V c).arrAt 2 cfg2.N = layer h0 (V c main_v40) (V c main_arg9) :=
  (dat2 V c).arrAt_eq_of_cover 2 _ (fun t _ => flushed2 V h0 c t) cover2

end Cert.KernelIdeal.Blocks

end
-- ==== Proof.BlocksNorm.lean ====
/-
  The residual mix and the row normalisation of the word features, block by block, put together into a whole array.

  The region cuts the 30000 rows into fifteen blocks of 2000 rows. Point t reads block t of the embedding table and of
  the third layer's output, and the gain and bias rows whole; on its rows it forms 0.3 · e + 0.7 · h (the two weights
  as the floats the program spells), subtracts each row's mean, divides by the root of the row's variance plus a small
  offset, multiplies by the gain and adds the bias. A row's mean and variance are sums along that row only, so the
  block's result is block t of the same computation on all rows; the fifteen blocks tile the output.

  The gain and the bias reach the region as one-row matrices; they are assumed to be the rows of two vectors (the
  program lays each vector out as a row before the region).
-/
import proofs.«177264_j67817533604035_1_alg».proof.Proof.Gen.KernelIdeal.Frame
import proofs.«177264_j67817533604035_1_alg».proof.Proof.LibDocNet

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.ShloMosaic.Pipeline (Dat)
open Cert.BlockRows Cert.DocNet

variable (V : (c : Dev nD) → (b : Ref sig .tc) → Buf (Elt Ideal) ((c : Thread nD τ).loc b))

open Cert.LayerNorm

/-- The zero offsets of a rank-two access. -/
theorem hz2 : (![0, 0] : Fin 2 → Nat) = fun _ => 0 := funext fun a => by fin_cases a <;> rfl

/-! ## Region 3 -/

/-- The printed index maps over the grid: a row-blocked window's block number is the point's, a whole window's is zero. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- Row p of point t's block is row 2000 · t + p of the array. -/
def rows3 (t : Fin cfg3.N) : Fin 2000 → Fin 30000 := fun p =>
  ⟨2000 * t.val + p.val, by
    have ht := t.isLt
    have hN : cfg3.N = 15 := N_3
    have hp := p.isLt
    omega⟩

/-- Window 0's block at point t, read off an array X, is the block's rows of X. -/
theorem read3_0 (t : Fin cfg3.N) (X : S30000x300.Idx → Elt Ideal .f32) :
    (((cfg3.win 0).blk t).view.read (Elt Ideal) X : S2000x300.Idx → EReal) = rowsOf (rows3 t) X := by
  obtain ⟨e0, e1, -, -, -, -, -, -, -, -⟩ := idx3 t
  funext j
  show X (((cfg3.win 0).blk t).view.emb j) = X (ix2 (rows3 t (j 0)) (j 1))
  refine congrArg X ?_
  funext a; apply Fin.ext
  match a with
  | ⟨0, _⟩ => show win3_0.index t (0 : Fin 2) * 2000 + 1 * (j 0).val = 2000 * t.val + (j 0).val; omega
  | ⟨1, _⟩ => show win3_0.index t (1 : Fin 2) * 300 + 1 * (j 1).val = (j 1).val; omega

/-- Window 1's block at point t, read off an array X, is the block's rows of X. -/
theorem read3_1 (t : Fin cfg3.N) (X : S30000x300.Idx → Elt Ideal .f32) :
    (((cfg3.win 1).blk t).view.read (Elt Ideal) X : S2000x300.Idx → EReal) = rowsOf (rows3 t) X := by
  obtain ⟨-, -, e0, e1, -, -, -, -, -, -⟩ := idx3 t
  funext j
  show X (((cfg3.win 1).blk t).view.emb j) = X (ix2 (rows3 t (j 0)) (j 1))
  refine congrArg X ?_
  funext a; apply Fin.ext
  match a with
  | ⟨0, _⟩ => show win3_1.index t (0 : Fin 2) * 2000 + 1 * (j 0).val = 2000 * t.val + (j 0).val; omega
  | ⟨1, _⟩ => show win3_1.index t (1 : Fin 2) * 300 + 1 * (j 1).val = (j 1).val; omega

/-- Window 2's block at any point is the whole of its array. -/
theorem read3_2 (t : Fin cfg3.N) (X : S1x300.Idx → Elt Ideal .f32) :
    (((cfg3.win 2).blk t).view.read (Elt Ideal) X : S1x300.Idx → EReal) = X := by
  obtain ⟨-, -, -, -, e0, e1, -, -, -, -⟩ := idx3 t
  funext j
  show X (((cfg3.win 2).blk t).view.emb j) = X j
  refine congrArg X ?_
  funext a; apply Fin.ext
  match a with
  | ⟨0, _⟩ => show win3_2.index t (0 : Fin 2) * 1 + 1 * (j 0).val = (j 0).val; omega
  | ⟨1, _⟩ => show win3_2.index t (1 : Fin 2) * 300 + 1 * (j 1).val = (j 1).val; omega

/-- Window 3's block at any point is the whole of its array. -/
theorem read3_3 (t : Fin cfg3.N) (X : S1x300.Idx → Elt Ideal .f32) :
    (((cfg3.win 3).blk t).view.read (Elt Ideal) X : S1x300.Idx → EReal) = X := by
  obtain ⟨-, -, -, -, -, -, e0, e1, -, -⟩ := idx3 t
  funext j
  show X (((cfg3.win 3).blk t).view.emb j) = X j
  refine congrArg X ?_
  funext a; apply Fin.ext
  match a with
  | ⟨0, _⟩ => show win3_3.index t (0 : Fin 2) * 1 + 1 * (j 0).val = (j 0).val; omega
  | ⟨1, _⟩ => show win3_3.index t (1 : Fin 2) * 300 + 1 * (j 1).val = (j 1).val; omega

/-- Window 4's block at point t, read off an array X, is the block's rows of X. -/
theorem read3_4 (t : Fin cfg3.N) (X : S30000x300.Idx → Elt Ideal .f32) :
    (((cfg3.win 4).blk t).view.read (Elt Ideal) X : S2000x300.Idx → EReal) = rowsOf (rows3 t) X := by
  obtain ⟨-, -, -, -, -, -, -, -, e0, e1⟩ := idx3 t
  funext j
  show X (((cfg3.win 4).blk t).view.emb j) = X (ix2 (rows3 t (j 0)) (j 1))
  refine congrArg X ?_
  funext a; apply Fin.ext
  match a with
  | ⟨0, _⟩ => show win3_4.index t (0 : Fin 2) * 2000 + 1 * (j 0).val = 2000 * t.val + (j 0).val; omega
  | ⟨1, _⟩ => show win3_4.index t (1 : Fin 2) * 300 + 1 * (j 1).val = (j 1).val; omega

/-- WHAT POINT t WRITES BACK is block t of the mixed and normalised array. -/
theorem flushed3 (h0 : (⟨0, ![]⟩ : Shape).BroadcastsInDim (⟨2, ![30000, 300]⟩ : Shape) ![])
    (hrt : (⟨2, ![30000, 300]⟩ : Shape).ReducesTo [1] (⟨1, ![30000]⟩ : Shape)) (h0n : 0 < (⟨0, ![]⟩ : Shape).numel)
    (hb1 : (⟨1, ![30000]⟩ : Shape).BroadcastsInDim (⟨2, ![30000, 1]⟩ : Shape) ![0])
    (hbs : (⟨0, ![]⟩ : Shape).BroadcastsInDim (⟨2, ![30000, 1]⟩ : Shape) ![])
    (hbc : (⟨2, ![30000, 1]⟩ : Shape).BroadcastsInDim (⟨2, ![30000, 300]⟩ : Shape) ![0, 1])
    (hg : (⟨1, ![300]⟩ : Shape).BroadcastsInDim (⟨2, ![1, 300]⟩ : Shape) ![1])
    (hgb : (⟨2, ![1, 300]⟩ : Shape).BroadcastsInDim (⟨2, ![30000, 300]⟩ : Shape) ![0, 1])
    (c : Dev nD) (hg2 : V c main_v42 = broadcastInDim (⟨2, ![1, 300]⟩ : Shape) ![1] hg (V c main_arg10))
    (hb2 : V c main_v43 = broadcastInDim (⟨2, ![1, 300]⟩ : Shape) ![1] hg (V c main_arg11)) (t : Fin cfg3.N) :
    (dat3 V c).flushed 4 t = ((cfg3.win 4).blk t).view.read (Elt Ideal) (mixNorm 0x3E99999A#32 0x3F333333#32 0x43960000#32 0x3727C5AC#32 h0 hrt h0n hb1 hbs hbc hg hgb
        (V c main_arg6) (V c main_v41) (V c main_arg10) (V c main_arg11)) := by
  show (cfg3.win 4).cut (grid3.coords t) ((dat3 V c).after 4 t) = _
  rw [after3_4]
  unfold out3_4
  rw [View.canon_unit_zero hz2]
  simp only [View.ld_unit_zero (S := S2000x300) hz2, View.ld_unit_zero (S := S1x300) hz2]
  have e0 : (iblk3 V c 0 t : S2000x300.Idx → EReal) = rowsOf (rows3 t) (V c main_arg6) := read3_0 t _
  have e1 : (iblk3 V c 1 t : S2000x300.Idx → EReal) = rowsOf (rows3 t) (V c main_v41) := read3_1 t _
  have e2 : (iblk3 V c 2 t : S1x300.Idx → EReal) = V c main_v42 := read3_2 t _
  have e3 : (iblk3 V c 3 t : S1x300.Idx → EReal) = V c main_v43 := read3_3 t _
  have eo := read3_4 t (mixNorm 0x3E99999A#32 0x3F333333#32 0x43960000#32 0x3727C5AC#32 h0 hrt h0n hb1 hbs hbc hg hgb
        (V c main_arg6) (V c main_v41) (V c main_arg10) (V c main_arg11))
  have ep : k3_pay1 (F := Ideal) (rowsOf (rows3 t) (V c main_arg6)) (rowsOf (rows3 t) (V c main_v41)) (V c main_v42) (V c main_v43)
      = rowsOf (rows3 t) (mixNorm 0x3E99999A#32 0x3F333333#32 0x43960000#32 0x3727C5AC#32 h0 hrt h0n hb1 hbs hbc hg hgb
        (V c main_arg6) (V c main_v41) (V c main_arg10) (V c main_arg11)) :=
    mixNorm_rows (rows3 t) 0x3E99999A#32 0x3F333333#32 0x43960000#32 0x3727C5AC#32 shapeCasts_S2000x300_S2000x300 shapeCasts_S1x300_S1x300
      reduces_S2000x300_S2000 (.inl rfl) rfl shapeCasts_S2000_S2000x1 broadcasts_S2000x1_S2000x300 broadcasts_S1x300_S2000x300
      h0 hrt h0n hb1 hbs hbc hg hgb (V c main_arg6) (V c main_v41) (V c main_arg10) (V c main_arg11) (V c main_v42) (V c main_v43) hg2 hb2
  have ea := congr (congr (congr (congrArg (k3_pay1 (F := Ideal)) e0) e1) e2) e3
  funext j
  show k3_pay1 (F := Ideal) (iblk3 V c 0 t) (iblk3 V c 1 t) (iblk3 V c 2 t) (iblk3 V c 3 t) j = _
  exact (congrFun (ea.trans ep) j).trans (congrFun eo j).symm

/-- An index of the result array is in point t's block iff each coordinate is in the block's range. -/
theorem mem3 (t : Fin cfg3.N) (i : S30000x300.Idx) :
    i ∈ ((cfg3.win 4).blk t).view.set ↔ ∀ a : Fin 2, win3_4.index t a * S2000x300.size a ≤ (i a).val
      ∧ (i a).val < win3_4.index t a * S2000x300.size a + S2000x300.size a := by
  show i ∈ ((View.whole main_v44).slice (win3_4.rect t)).set ↔ _
  rw [View.set_slice_whole, Rect.mem_set_unit]
  exact Iff.rfl

/-- Every row r of the result array is in the block of point r / 2000: the blocks tile the array. -/
theorem cover3 (i : S30000x300.Idx) :
    ∃ t : Fin cfg3.N, (cfg3.win 4).flush t = true ∧ i ∈ ((cfg3.win 4).blk t).view.set := by
  have hi0 : (i 0).val < 30000 := (i 0).isLt
  have hi1 : (i 1).val < 300 := (i 1).isLt
  have hN : cfg3.N = 15 := N_3
  have hlt : (i 0).val / 2000 < cfg3.N := by omega
  refine ⟨⟨(i 0).val / 2000, hlt⟩, flush3_4 _, ?_⟩
  obtain ⟨-, -, -, -, -, -, -, -, e0, e1⟩ := idx3 ⟨(i 0).val / 2000, hlt⟩
  rw [mem3]
  intro a
  match a with
  | ⟨0, _⟩ =>
    show win3_4.index ⟨(i 0).val / 2000, hlt⟩ (0 : Fin 2) * 2000 ≤ (i 0).val
      ∧ (i 0).val < win3_4.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win3_4.index ⟨(i 0).val / 2000, hlt⟩ (1 : Fin 2) * 300 ≤ (i 1).val
      ∧ (i 1).val < win3_4.index ⟨(i 0).val / 2000, hlt⟩ (1 : Fin 2) * 300 + 300
    rw [e1]
    omega

/-- The array after the region: the mix, normalised row by row, on all 30000 rows. -/
theorem final3 (h0 : (⟨0, ![]⟩ : Shape).BroadcastsInDim (⟨2, ![30000, 300]⟩ : Shape) ![])
    (hrt : (⟨2, ![30000, 300]⟩ : Shape).ReducesTo [1] (⟨1, ![30000]⟩ : Shape)) (h0n : 0 < (⟨0, ![]⟩ : Shape).numel)
    (hb1 : (⟨1, ![30000]⟩ : Shape).BroadcastsInDim (⟨2, ![30000, 1]⟩ : Shape) ![0])
    (hbs : (⟨0, ![]⟩ : Shape).BroadcastsInDim (⟨2, ![30000, 1]⟩ : Shape) ![])
    (hbc : (⟨2, ![30000, 1]⟩ : Shape).BroadcastsInDim (⟨2, ![30000, 300]⟩ : Shape) ![0, 1])
    (hg : (⟨1, ![300]⟩ : Shape).BroadcastsInDim (⟨2, ![1, 300]⟩ : Shape) ![1])
    (hgb : (⟨2, ![1, 300]⟩ : Shape).BroadcastsInDim (⟨2, ![30000, 300]⟩ : Shape) ![0, 1])
    (c : Dev nD) (hg2 : V c main_v42 = broadcastInDim (⟨2, ![1, 300]⟩ : Shape) ![1] hg (V c main_arg10))
    (hb2 : V c main_v43 = broadcastInDim (⟨2, ![1, 300]⟩ : Shape) ![1] hg (V c main_arg11)) :
    (dat3 V c).arrAt 4 cfg3.N = (mixNorm 0x3E99999A#32 0x3F333333#32 0x43960000#32 0x3727C5AC#32 h0 hrt h0n hb1 hbs hbc hg hgb
        (V c main_arg6) (V c main_v41) (V c main_arg10) (V c main_arg11)) :=
  (dat3 V c).arrAt_eq_of_cover 4 _ (fun t _ => flushed3 V h0 hrt h0n hb1 hbs hbc hg hgb c hg2 hb2 t) cover3

end Cert.KernelIdeal.Blocks

end
-- ==== Proof.BlocksHead.lean ====
/-
  The classifier head on the document features, block by block, put together into a whole array.

  The region cuts the 15000 documents into fifteen blocks of 1000 rows. Point t reads block t of the two document
  sums, and the three weight tables and three bias rows whole; on its rows it adds the two sums and applies the three
  layers, the first two followed by a maximum with zero. Every operation acts on each row by itself, so the block's
  result is block t of the head computed on all rows; the fifteen blocks tile the 15000 × 2 output.
-/
import proofs.«177264_j67817533604035_1_alg».proof.Proof.Gen.KernelIdeal.Frame
import proofs.«177264_j67817533604035_1_alg».proof.Proof.LibDocNet

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.ShloMosaic.Pipeline (Dat)
open Cert.BlockRows Cert.DocNet

variable (V : (c : Dev nD) → (b : Ref sig .tc) → Buf (Elt Ideal) ((c : Thread nD τ).loc b))

/-- The zero offsets of a rank-two access. -/
theorem hz2 : (![0, 0] : Fin 2 → Nat) = fun _ => 0 := funext fun a => by fin_cases a <;> rfl

/-! ## Region 4 -/

/-- The printed index maps over the grid: a row-blocked window's block number is the point's, a whole window's is zero. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = t.val
    ∧ win4_8.index t (1 : Fin 2) = 0 :=
  (by decide +kernel : ∀ t : Fin grid4.N, _)

/-- Row p of point t's block is row 1000 · t + p of the array. -/
def rows4 (t : Fin cfg4.N) : Fin 1000 → Fin 15000 := fun p =>
  ⟨1000 * t.val + p.val, by
    have ht := t.isLt
    have hN : cfg4.N = 15 := N_4
    have hp := p.isLt
    omega⟩

/-- Window 0's block at point t, read off an array X, is the block's rows of X. -/
theorem read4_0 (t : Fin cfg4.N) (X : S15000x300.Idx → Elt Ideal .f32) :
    (((cfg4.win 0).blk t).view.read (Elt Ideal) X : S1000x300.Idx → EReal) = rowsOf (rows4 t) X := by
  obtain ⟨e0, e1, -, -, -, -, -, -, -, -, -, -, -, -, -, -, -, -⟩ := idx4 t
  funext j
  show X (((cfg4.win 0).blk t).view.emb j) = X (ix2 (rows4 t (j 0)) (j 1))
  refine congrArg X ?_
  funext a; apply Fin.ext
  match a with
  | ⟨0, _⟩ => show win4_0.index t (0 : Fin 2) * 1000 + 1 * (j 0).val = 1000 * t.val + (j 0).val; omega
  | ⟨1, _⟩ => show win4_0.index t (1 : Fin 2) * 300 + 1 * (j 1).val = (j 1).val; omega

/-- Window 1's block at point t, read off an array X, is the block's rows of X. -/
theorem read4_1 (t : Fin cfg4.N) (X : S15000x300.Idx → Elt Ideal .f32) :
    (((cfg4.win 1).blk t).view.read (Elt Ideal) X : S1000x300.Idx → EReal) = rowsOf (rows4 t) X := by
  obtain ⟨-, -, e0, e1, -, -, -, -, -, -, -, -, -, -, -, -, -, -⟩ := idx4 t
  funext j
  show X (((cfg4.win 1).blk t).view.emb j) = X (ix2 (rows4 t (j 0)) (j 1))
  refine congrArg X ?_
  funext a; apply Fin.ext
  match a with
  | ⟨0, _⟩ => show win4_1.index t (0 : Fin 2) * 1000 + 1 * (j 0).val = 1000 * t.val + (j 0).val; omega
  | ⟨1, _⟩ => show win4_1.index t (1 : Fin 2) * 300 + 1 * (j 1).val = (j 1).val; omega

/-- Window 2's block at any point is the whole of its array. -/
theorem read4_2 (t : Fin cfg4.N) (X : S300x300.Idx → Elt Ideal .f32) :
    (((cfg4.win 2).blk t).view.read (Elt Ideal) X : S300x300.Idx → EReal) = X := by
  obtain ⟨-, -, -, -, e0, e1, -, -, -, -, -, -, -, -, -, -, -, -⟩ := idx4 t
  funext j
  show X (((cfg4.win 2).blk t).view.emb j) = X j
  refine congrArg X ?_
  funext a; apply Fin.ext
  match a with
  | ⟨0, _⟩ => show win4_2.index t (0 : Fin 2) * 300 + 1 * (j 0).val = (j 0).val; omega
  | ⟨1, _⟩ => show win4_2.index t (1 : Fin 2) * 300 + 1 * (j 1).val = (j 1).val; omega

/-- Window 3's block at any point is the whole of its array. -/
theorem read4_3 (t : Fin cfg4.N) (X : S1x300.Idx → Elt Ideal .f32) :
    (((cfg4.win 3).blk t).view.read (Elt Ideal) X : S1x300.Idx → EReal) = X := by
  obtain ⟨-, -, -, -, -, -, e0, e1, -, -, -, -, -, -, -, -, -, -⟩ := idx4 t
  funext j
  show X (((cfg4.win 3).blk t).view.emb j) = X j
  refine congrArg X ?_
  funext a; apply Fin.ext
  match a with
  | ⟨0, _⟩ => show win4_3.index t (0 : Fin 2) * 1 + 1 * (j 0).val = (j 0).val; omega
  | ⟨1, _⟩ => show win4_3.index t (1 : Fin 2) * 300 + 1 * (j 1).val = (j 1).val; omega

/-- Window 4's block at any point is the whole of its array. -/
theorem read4_4 (t : Fin cfg4.N) (X : S300x150.Idx → Elt Ideal .f32) :
    (((cfg4.win 4).blk t).view.read (Elt Ideal) X : S300x150.Idx → EReal) = X := by
  obtain ⟨-, -, -, -, -, -, -, -, e0, e1, -, -, -, -, -, -, -, -⟩ := idx4 t
  funext j
  show X (((cfg4.win 4).blk t).view.emb j) = X j
  refine congrArg X ?_
  funext a; apply Fin.ext
  match a with
  | ⟨0, _⟩ => show win4_4.index t (0 : Fin 2) * 300 + 1 * (j 0).val = (j 0).val; omega
  | ⟨1, _⟩ => show win4_4.index t (1 : Fin 2) * 150 + 1 * (j 1).val = (j 1).val; omega

/-- Window 5's block at any point is the whole of its array. -/
theorem read4_5 (t : Fin cfg4.N) (X : S1x150.Idx → Elt Ideal .f32) :
    (((cfg4.win 5).blk t).view.read (Elt Ideal) X : S1x150.Idx → EReal) = X := by
  obtain ⟨-, -, -, -, -, -, -, -, -, -, e0, e1, -, -, -, -, -, -⟩ := idx4 t
  funext j
  show X (((cfg4.win 5).blk t).view.emb j) = X j
  refine congrArg X ?_
  funext a; apply Fin.ext
  match a with
  | ⟨0, _⟩ => show win4_5.index t (0 : Fin 2) * 1 + 1 * (j 0).val = (j 0).val; omega
  | ⟨1, _⟩ => show win4_5.index t (1 : Fin 2) * 150 + 1 * (j 1).val = (j 1).val; omega

/-- Window 6's block at any point is the whole of its array. -/
theorem read4_6 (t : Fin cfg4.N) (X : S150x2.Idx → Elt Ideal .f32) :
    (((cfg4.win 6).blk t).view.read (Elt Ideal) X : S150x2.Idx → EReal) = X := by
  obtain ⟨-, -, -, -, -, -, -, -, -, -, -, -, e0, e1, -, -, -, -⟩ := idx4 t
  funext j
  show X (((cfg4.win 6).blk t).view.emb j) = X j
  refine congrArg X ?_
  funext a; apply Fin.ext
  match a with
  | ⟨0, _⟩ => show win4_6.index t (0 : Fin 2) * 150 + 1 * (j 0).val = (j 0).val; omega
  | ⟨1, _⟩ => show win4_6.index t (1 : Fin 2) * 2 + 1 * (j 1).val = (j 1).val; omega

/-- Window 7's block at any point is the whole of its array. -/
theorem read4_7 (t : Fin cfg4.N) (X : S1x2.Idx → Elt Ideal .f32) :
    (((cfg4.win 7).blk t).view.read (Elt Ideal) X : S1x2.Idx → EReal) = X := by
  obtain ⟨-, -, -, -, -, -, -, -, -, -, -, -, -, -, e0, e1, -, -⟩ := idx4 t
  funext j
  show X (((cfg4.win 7).blk t).view.emb j) = X j
  refine congrArg X ?_
  funext a; apply Fin.ext
  match a with
  | ⟨0, _⟩ => show win4_7.index t (0 : Fin 2) * 1 + 1 * (j 0).val = (j 0).val; omega
  | ⟨1, _⟩ => show win4_7.index t (1 : Fin 2) * 2 + 1 * (j 1).val = (j 1).val; omega

/-- Window 8's block at point t, read off an array X, is the block's rows of X. -/
theorem read4_8 (t : Fin cfg4.N) (X : S15000x2.Idx → Elt Ideal .f32) :
    (((cfg4.win 8).blk t).view.read (Elt Ideal) X : S1000x2.Idx → EReal) = rowsOf (rows4 t) X := by
  obtain ⟨-, -, -, -, -, -, -, -, -, -, -, -, -, -, -, -, e0, e1⟩ := idx4 t
  funext j
  show X (((cfg4.win 8).blk t).view.emb j) = X (ix2 (rows4 t (j 0)) (j 1))
  refine congrArg X ?_
  funext a; apply Fin.ext
  match a with
  | ⟨0, _⟩ => show win4_8.index t (0 : Fin 2) * 1000 + 1 * (j 0).val = 1000 * t.val + (j 0).val; omega
  | ⟨1, _⟩ => show win4_8.index t (1 : Fin 2) * 2 + 1 * (j 1).val = (j 1).val; omega

/-- WHAT POINT t WRITES BACK is block t of the head of the whole arrays. -/
theorem flushed4 (h0a : (⟨0, ![]⟩ : Shape).BroadcastsInDim (⟨2, ![15000, 300]⟩ : Shape) ![])
    (h0b : (⟨0, ![]⟩ : Shape).BroadcastsInDim (⟨2, ![15000, 150]⟩ : Shape) ![])
    (h2a : (⟨2, ![1, 300]⟩ : Shape).BroadcastsInDim (⟨2, ![15000, 300]⟩ : Shape) ![0, 1])
    (h2b : (⟨2, ![1, 150]⟩ : Shape).BroadcastsInDim (⟨2, ![15000, 150]⟩ : Shape) ![0, 1])
    (h2c : (⟨2, ![1, 2]⟩ : Shape).BroadcastsInDim (⟨2, ![15000, 2]⟩ : Shape) ![0, 1])
    (c : Dev nD) (t : Fin cfg4.N) :
    (dat4 V c).flushed 8 t = ((cfg4.win 8).blk t).view.read (Elt Ideal) (head h0a h0b h2a h2b h2c (V c main_v57) (V c main_v70) (V c main_arg12) (V c main_v71) (V c main_arg14) (V c main_v72) (V c main_arg16) (V c main_v73)) := by
  show (cfg4.win 8).cut (grid4.coords t) ((dat4 V c).after 8 t) = _
  rw [after4_8]
  unfold out4_8
  rw [View.canon_unit_zero hz2]
  simp only [View.ld_unit_zero (S := S1000x300) hz2, View.ld_unit_zero (S := S300x300) hz2, View.ld_unit_zero (S := S1x300) hz2, View.ld_unit_zero (S := S300x150) hz2, View.ld_unit_zero (S := S1x150) hz2, View.ld_unit_zero (S := S150x2) hz2, View.ld_unit_zero (S := S1x2) hz2]
  have e0 : (iblk4 V c 0 t : S1000x300.Idx → EReal) = rowsOf (rows4 t) (V c main_v57) := read4_0 t _
  have e1 : (iblk4 V c 1 t : S1000x300.Idx → EReal) = rowsOf (rows4 t) (V c main_v70) := read4_1 t _
  have e2 : (iblk4 V c 2 t : S300x300.Idx → EReal) = (V c main_arg12) := read4_2 t _
  have e3 : (iblk4 V c 3 t : S1x300.Idx → EReal) = (V c main_v71) := read4_3 t _
  have e4 : (iblk4 V c 4 t : S300x150.Idx → EReal) = (V c main_arg14) := read4_4 t _
  have e5 : (iblk4 V c 5 t : S1x150.Idx → EReal) = (V c main_v72) := read4_5 t _
  have e6 : (iblk4 V c 6 t : S150x2.Idx → EReal) = (V c main_arg16) := read4_6 t _
  have e7 : (iblk4 V c 7 t : S1x2.Idx → EReal) = (V c main_v73) := read4_7 t _
  have eo := read4_8 t (head h0a h0b h2a h2b h2c (V c main_v57) (V c main_v70) (V c main_arg12) (V c main_v71) (V c main_arg14) (V c main_v72) (V c main_arg16) (V c main_v73))
  have ep : k4_pay1 (F := Ideal) (rowsOf (rows4 t) (V c main_v57)) (rowsOf (rows4 t) (V c main_v70)) (V c main_arg12) (V c main_v71) (V c main_arg14) (V c main_v72) (V c main_arg16) (V c main_v73)
      = rowsOf (rows4 t) (head h0a h0b h2a h2b h2c (V c main_v57) (V c main_v70) (V c main_arg12) (V c main_v71) (V c main_arg14) (V c main_v72) (V c main_arg16) (V c main_v73)) :=
    head_rows (rows4 t) bitsLt_bf16_f32 shapeCasts_S1000x300_S1000x300 shapeCasts_S1x300_S1x300 shapeCasts_S1x150_S1x150
      shapeCasts_S1x2_S1x2 broadcasts_S1x300_S1000x300 broadcasts_S1x150_S1000x150 broadcasts_S1x2_S1000x2
      h0a h0b h2a h2b h2c (V c main_v57) (V c main_v70) (V c main_arg12) (V c main_v71) (V c main_arg14) (V c main_v72) (V c main_arg16) (V c main_v73)
  have ea := congr (congr (congr (congr (congr (congr (congr (congrArg (k4_pay1 (F := Ideal)) e0) e1) e2) e3) e4) e5) e6) e7
  funext j
  show k4_pay1 (F := Ideal) (iblk4 V c 0 t) (iblk4 V c 1 t) (iblk4 V c 2 t) (iblk4 V c 3 t) (iblk4 V c 4 t) (iblk4 V c 5 t) (iblk4 V c 6 t) (iblk4 V c 7 t) j = _
  exact (congrFun (ea.trans ep) j).trans (congrFun eo j).symm

/-- An index of the result array is in point t's block iff each coordinate is in the block's range. -/
theorem mem4 (t : Fin cfg4.N) (i : S15000x2.Idx) :
    i ∈ ((cfg4.win 8).blk t).view.set ↔ ∀ a : Fin 2, win4_8.index t a * S1000x2.size a ≤ (i a).val
      ∧ (i a).val < win4_8.index t a * S1000x2.size a + S1000x2.size a := by
  show i ∈ ((View.whole main_v74).slice (win4_8.rect t)).set ↔ _
  rw [View.set_slice_whole, Rect.mem_set_unit]
  exact Iff.rfl

/-- Every row r of the result array is in the block of point r / 1000: the blocks tile the array. -/
theorem cover4 (i : S15000x2.Idx) :
    ∃ t : Fin cfg4.N, (cfg4.win 8).flush t = true ∧ i ∈ ((cfg4.win 8).blk t).view.set := by
  have hi0 : (i 0).val < 15000 := (i 0).isLt
  have hi1 : (i 1).val < 2 := (i 1).isLt
  have hN : cfg4.N = 15 := N_4
  have hlt : (i 0).val / 1000 < cfg4.N := by omega
  refine ⟨⟨(i 0).val / 1000, hlt⟩, flush4_8 _, ?_⟩
  obtain ⟨-, -, -, -, -, -, -, -, -, -, -, -, -, -, -, -, e0, e1⟩ := idx4 ⟨(i 0).val / 1000, hlt⟩
  rw [mem4]
  intro a
  match a with
  | ⟨0, _⟩ =>
    show win4_8.index ⟨(i 0).val / 1000, hlt⟩ (0 : Fin 2) * 1000 ≤ (i 0).val
      ∧ (i 0).val < win4_8.index ⟨(i 0).val / 1000, hlt⟩ (0 : Fin 2) * 1000 + 1000
    rw [e0]
    show (i 0).val / 1000 * 1000 ≤ (i 0).val ∧ (i 0).val < (i 0).val / 1000 * 1000 + 1000
    omega
  | ⟨1, _⟩ =>
    show win4_8.index ⟨(i 0).val / 1000, hlt⟩ (1 : Fin 2) * 2 ≤ (i 1).val
      ∧ (i 1).val < win4_8.index ⟨(i 0).val / 1000, hlt⟩ (1 : Fin 2) * 2 + 2
    rw [e1]
    omega

/-- The array after the region: the head on all 15000 rows. -/
theorem final4 (h0a : (⟨0, ![]⟩ : Shape).BroadcastsInDim (⟨2, ![15000, 300]⟩ : Shape) ![])
    (h0b : (⟨0, ![]⟩ : Shape).BroadcastsInDim (⟨2, ![15000, 150]⟩ : Shape) ![])
    (h2a : (⟨2, ![1, 300]⟩ : Shape).BroadcastsInDim (⟨2, ![15000, 300]⟩ : Shape) ![0, 1])
    (h2b : (⟨2, ![1, 150]⟩ : Shape).BroadcastsInDim (⟨2, ![15000, 150]⟩ : Shape) ![0, 1])
    (h2c : (⟨2, ![1, 2]⟩ : Shape).BroadcastsInDim (⟨2, ![15000, 2]⟩ : Shape) ![0, 1])
    (c : Dev nD) :
    (dat4 V c).arrAt 8 cfg4.N = (head h0a h0b h2a h2b h2c (V c main_v57) (V c main_v70) (V c main_arg12) (V c main_v71) (V c main_arg14) (V c main_v72) (V c main_arg16) (V c main_v73)) :=
  (dat4 V c).arrAt_eq_of_cover 8 _ (fun t _ => flushed4 V h0a h0b h2a h2b h2c c t) cover4

end Cert.KernelIdeal.Blocks

end
-- ==== Proof.ArgsKept.lean ====
/-
  The argument arrays at every boundary of the run.

  No host operation of the program writes an argument array, and no region does: a region either passes an argument
  by (it is none of the region's windows) or reads it through an input window, whose array the write-backs never
  touch. So at each boundary of the fold from the launch memory an argument's buffer still holds what the program was
  launched with. One short step per boundary and argument, each from the boundary before.
-/
import proofs.«177264_j67817533604035_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ) (ρ : Dev nD → PrngReg) (c : Dev nD)

/-- No operation of a stretch writes the buffer at hand: each operation's one result buffer is another. -/
macro "not_written" : tactic => `(tactic| (
  simp only [hostOps0, hostOps1, hostOps2, hostOps3, hostOps4, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Boundary 1: after stretch 0 of host operations -/

theorem W1_arg0 : W1 m ρ c (Proc.devRef .tc main_arg0) = m ((c : Thread nD τ).loc main_arg0) :=
  (StableHlo.after_of_forall_not_mem (b := Proc.devRef .tc main_arg0) _ _ (List.forall_iff_forall_mem.mp (by not_written))).trans (rfl : W0 m ρ c (Proc.devRef .tc main_arg0) = m ((c : Thread nD τ).loc main_arg0))
theorem W1_arg1 : W1 m ρ c (Proc.devRef .tc main_arg1) = m ((c : Thread nD τ).loc main_arg1) :=
  (StableHlo.after_of_forall_not_mem (b := Proc.devRef .tc main_arg1) _ _ (List.forall_iff_forall_mem.mp (by not_written))).trans (rfl : W0 m ρ c (Proc.devRef .tc main_arg1) = m ((c : Thread nD τ).loc main_arg1))
theorem W1_arg2 : W1 m ρ c (Proc.devRef .tc main_arg2) = m ((c : Thread nD τ).loc main_arg2) :=
  (StableHlo.after_of_forall_not_mem (b := Proc.devRef .tc main_arg2) _ _ (List.forall_iff_forall_mem.mp (by not_written))).trans (rfl : W0 m ρ c (Proc.devRef .tc main_arg2) = m ((c : Thread nD τ).loc main_arg2))
theorem W1_arg3 : W1 m ρ c (Proc.devRef .tc main_arg3) = m ((c : Thread nD τ).loc main_arg3) :=
  (StableHlo.after_of_forall_not_mem (b := Proc.devRef .tc main_arg3) _ _ (List.forall_iff_forall_mem.mp (by not_written))).trans (rfl : W0 m ρ c (Proc.devRef .tc main_arg3) = m ((c : Thread nD τ).loc main_arg3))
theorem W1_arg4 : W1 m ρ c (Proc.devRef .tc main_arg4) = m ((c : Thread nD τ).loc main_arg4) :=
  (StableHlo.after_of_forall_not_mem (b := Proc.devRef .tc main_arg4) _ _ (List.forall_iff_forall_mem.mp (by not_written))).trans (rfl : W0 m ρ c (Proc.devRef .tc main_arg4) = m ((c : Thread nD τ).loc main_arg4))
theorem W1_arg5 : W1 m ρ c (Proc.devRef .tc main_arg5) = m ((c : Thread nD τ).loc main_arg5) :=
  (StableHlo.after_of_forall_not_mem (b := Proc.devRef .tc main_arg5) _ _ (List.forall_iff_forall_mem.mp (by not_written))).trans (rfl : W0 m ρ c (Proc.devRef .tc main_arg5) = m ((c : Thread nD τ).loc main_arg5))
theorem W1_arg6 : W1 m ρ c (Proc.devRef .tc main_arg6) = m ((c : Thread nD τ).loc main_arg6) :=
  (StableHlo.after_of_forall_not_mem (b := Proc.devRef .tc main_arg6) _ _ (List.forall_iff_forall_mem.mp (by not_written))).trans (rfl : W0 m ρ c (Proc.devRef .tc main_arg6) = m ((c : Thread nD τ).loc main_arg6))
theorem W1_arg7 : W1 m ρ c (Proc.devRef .tc main_arg7) = m ((c : Thread nD τ).loc main_arg7) :=
  (StableHlo.after_of_forall_not_mem (b := Proc.devRef .tc main_arg7) _ _ (List.forall_iff_forall_mem.mp (by not_written))).trans (rfl : W0 m ρ c (Proc.devRef .tc main_arg7) = m ((c : Thread nD τ).loc main_arg7))
theorem W1_arg8 : W1 m ρ c (Proc.devRef .tc main_arg8) = m ((c : Thread nD τ).loc main_arg8) :=
  (StableHlo.after_of_forall_not_mem (b := Proc.devRef .tc main_arg8) _ _ (List.forall_iff_forall_mem.mp (by not_written))).trans (rfl : W0 m ρ c (Proc.devRef .tc main_arg8) = m ((c : Thread nD τ).loc main_arg8))
theorem W1_arg9 : W1 m ρ c (Proc.devRef .tc main_arg9) = m ((c : Thread nD τ).loc main_arg9) :=
  (StableHlo.after_of_forall_not_mem (b := Proc.devRef .tc main_arg9) _ _ (List.forall_iff_forall_mem.mp (by not_written))).trans (rfl : W0 m ρ c (Proc.devRef .tc main_arg9) = m ((c : Thread nD τ).loc main_arg9))
theorem W1_arg10 : W1 m ρ c (Proc.devRef .tc main_arg10) = m ((c : Thread nD τ).loc main_arg10) :=
  (StableHlo.after_of_forall_not_mem (b := Proc.devRef .tc main_arg10) _ _ (List.forall_iff_forall_mem.mp (by not_written))).trans (rfl : W0 m ρ c (Proc.devRef .tc main_arg10) = m ((c : Thread nD τ).loc main_arg10))
theorem W1_arg11 : W1 m ρ c (Proc.devRef .tc main_arg11) = m ((c : Thread nD τ).loc main_arg11) :=
  (StableHlo.after_of_forall_not_mem (b := Proc.devRef .tc main_arg11) _ _ (List.forall_iff_forall_mem.mp (by not_written))).trans (rfl : W0 m ρ c (Proc.devRef .tc main_arg11) = m ((c : Thread nD τ).loc main_arg11))
theorem W1_arg12 : W1 m ρ c (Proc.devRef .tc main_arg12) = m ((c : Thread nD τ).loc main_arg12) :=
  (StableHlo.after_of_forall_not_mem (b := Proc.devRef .tc main_arg12) _ _ (List.forall_iff_forall_mem.mp (by not_written))).trans (rfl : W0 m ρ c (Proc.devRef .tc main_arg12) = m ((c : Thread nD τ).loc main_arg12))
theorem W1_arg13 : W1 m ρ c (Proc.devRef .tc main_arg13) = m ((c : Thread nD τ).loc main_arg13) :=
  (StableHlo.after_of_forall_not_mem (b := Proc.devRef .tc main_arg13) _ _ (List.forall_iff_forall_mem.mp (by not_written))).trans (rfl : W0 m ρ c (Proc.devRef .tc main_arg13) = m ((c : Thread nD τ).loc main_arg13))
theorem W1_arg14 : W1 m ρ c (Proc.devRef .tc main_arg14) = m ((c : Thread nD τ).loc main_arg14) :=
  (StableHlo.after_of_forall_not_mem (b := Proc.devRef .tc main_arg14) _ _ (List.forall_iff_forall_mem.mp (by not_written))).trans (rfl : W0 m ρ c (Proc.devRef .tc main_arg14) = m ((c : Thread nD τ).loc main_arg14))
theorem W1_arg15 : W1 m ρ c (Proc.devRef .tc main_arg15) = m ((c : Thread nD τ).loc main_arg15) :=
  (StableHlo.after_of_forall_not_mem (b := Proc.devRef .tc main_arg15) _ _ (List.forall_iff_forall_mem.mp (by not_written))).trans (rfl : W0 m ρ c (Proc.devRef .tc main_arg15) = m ((c : Thread nD τ).loc main_arg15))
theorem W1_arg16 : W1 m ρ c (Proc.devRef .tc main_arg16) = m ((c : Thread nD τ).loc main_arg16) :=
  (StableHlo.after_of_forall_not_mem (b := Proc.devRef .tc main_arg16) _ _ (List.forall_iff_forall_mem.mp (by not_written))).trans (rfl : W0 m ρ c (Proc.devRef .tc main_arg16) = m ((c : Thread nD τ).loc main_arg16))
theorem W1_arg17 : W1 m ρ c (Proc.devRef .tc main_arg17) = m ((c : Thread nD τ).loc main_arg17) :=
  (StableHlo.after_of_forall_not_mem (b := Proc.devRef .tc main_arg17) _ _ (List.forall_iff_forall_mem.mp (by not_written))).trans (rfl : W0 m ρ c (Proc.devRef .tc main_arg17) = m ((c : Thread nD τ).loc main_arg17))

/-! ## Boundary 2: after region 0 -/

theorem W2_arg0 : W2 m ρ c (Proc.devRef .tc main_arg0) = m ((c : Thread nD τ).loc main_arg0) :=
  (W2_of_ne m ρ c main_arg0 (by decide)).trans (W1_arg0 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W2_arg16 : W2 m ρ c (Proc.devRef .tc main_arg16) = m ((c : Thread nD τ).loc main_arg16) :=
  (W2_of_ne m ρ c main_arg16 (by decide)).trans (W1_arg16 m ρ c)
theorem W2_arg17 : W2 m ρ c (Proc.devRef .tc main_arg17) = m ((c : Thread nD τ).loc main_arg17) :=
  (W2_of_ne m ρ c main_arg17 (by decide)).trans (W1_arg17 m ρ c)

/-! ## Boundary 3: after stretch 1 of host operations -/

theorem W3_arg0 : W3 m ρ c (Proc.devRef .tc main_arg0) = m ((c : Thread nD τ).loc main_arg0) :=
  (StableHlo.after_of_forall_not_mem (b := Proc.devRef .tc main_arg0) _ _ (List.forall_iff_forall_mem.mp (by not_written))).trans (W2_arg0 m ρ c)
theorem W3_arg1 : W3 m ρ c (Proc.devRef .tc main_arg1) = m ((c : Thread nD τ).loc main_arg1) :=
  (StableHlo.after_of_forall_not_mem (b := Proc.devRef .tc main_arg1) _ _ (List.forall_iff_forall_mem.mp (by not_written))).trans (W2_arg1 m ρ c)
theorem W3_arg2 : W3 m ρ c (Proc.devRef .tc main_arg2) = m ((c : Thread nD τ).loc main_arg2) :=
  (StableHlo.after_of_forall_not_mem (b := Proc.devRef .tc main_arg2) _ _ (List.forall_iff_forall_mem.mp (by not_written))).trans (W2_arg2 m ρ c)
theorem W3_arg3 : W3 m ρ c (Proc.devRef .tc main_arg3) = m ((c : Thread nD τ).loc main_arg3) :=
  (StableHlo.after_of_forall_not_mem (b := Proc.devRef .tc main_arg3) _ _ (List.forall_iff_forall_mem.mp (by not_written))).trans (W2_arg3 m ρ c)
theorem W3_arg4 : W3 m ρ c (Proc.devRef .tc main_arg4) = m ((c : Thread nD τ).loc main_arg4) :=
  (StableHlo.after_of_forall_not_mem (b := Proc.devRef .tc main_arg4) _ _ (List.forall_iff_forall_mem.mp (by not_written))).trans (W2_arg4 m ρ c)
theorem W3_arg5 : W3 m ρ c (Proc.devRef .tc main_arg5) = m ((c : Thread nD τ).loc main_arg5) :=
  (StableHlo.after_of_forall_not_mem (b := Proc.devRef .tc main_arg5) _ _ (List.forall_iff_forall_mem.mp (by not_written))).trans (W2_arg5 m ρ c)
theorem W3_arg6 : W3 m ρ c (Proc.devRef .tc main_arg6) = m ((c : Thread nD τ).loc main_arg6) :=
  (StableHlo.after_of_forall_not_mem (b := Proc.devRef .tc main_arg6) _ _ (List.forall_iff_forall_mem.mp (by not_written))).trans (W2_arg6 m ρ c)
theorem W3_arg8 : W3 m ρ c (Proc.devRef .tc main_arg8) = m ((c : Thread nD τ).loc main_arg8) :=
  (StableHlo.after_of_forall_not_mem (b := Proc.devRef .tc main_arg8) _ _ (List.forall_iff_forall_mem.mp (by not_written))).trans (W2_arg8 m ρ c)
theorem W3_arg9 : W3 m ρ c (Proc.devRef .tc main_arg9) = m ((c : Thread nD τ).loc main_arg9) :=
  (StableHlo.after_of_forall_not_mem (b := Proc.devRef .tc main_arg9) _ _ (List.forall_iff_forall_mem.mp (by not_written))).trans (W2_arg9 m ρ c)
theorem W3_arg10 : W3 m ρ c (Proc.devRef .tc main_arg10) = m ((c : Thread nD τ).loc main_arg10) :=
  (StableHlo.after_of_forall_not_mem (b := Proc.devRef .tc main_arg10) _ _ (List.forall_iff_forall_mem.mp (by not_written))).trans (W2_arg10 m ρ c)
theorem W3_arg11 : W3 m ρ c (Proc.devRef .tc main_arg11) = m ((c : Thread nD τ).loc main_arg11) :=
  (StableHlo.after_of_forall_not_mem (b := Proc.devRef .tc main_arg11) _ _ (List.forall_iff_forall_mem.mp (by not_written))).trans (W2_arg11 m ρ c)
theorem W3_arg12 : W3 m ρ c (Proc.devRef .tc main_arg12) = m ((c : Thread nD τ).loc main_arg12) :=
  (StableHlo.after_of_forall_not_mem (b := Proc.devRef .tc main_arg12) _ _ (List.forall_iff_forall_mem.mp (by not_written))).trans (W2_arg12 m ρ c)
theorem W3_arg13 : W3 m ρ c (Proc.devRef .tc main_arg13) = m ((c : Thread nD τ).loc main_arg13) :=
  (StableHlo.after_of_forall_not_mem (b := Proc.devRef .tc main_arg13) _ _ (List.forall_iff_forall_mem.mp (by not_written))).trans (W2_arg13 m ρ c)
theorem W3_arg14 : W3 m ρ c (Proc.devRef .tc main_arg14) = m ((c : Thread nD τ).loc main_arg14) :=
  (StableHlo.after_of_forall_not_mem (b := Proc.devRef .tc main_arg14) _ _ (List.forall_iff_forall_mem.mp (by not_written))).trans (W2_arg14 m ρ c)
theorem W3_arg15 : W3 m ρ c (Proc.devRef .tc main_arg15) = m ((c : Thread nD τ).loc main_arg15) :=
  (StableHlo.after_of_forall_not_mem (b := Proc.devRef .tc main_arg15) _ _ (List.forall_iff_forall_mem.mp (by not_written))).trans (W2_arg15 m ρ c)
theorem W3_arg16 : W3 m ρ c (Proc.devRef .tc main_arg16) = m ((c : Thread nD τ).loc main_arg16) :=
  (StableHlo.after_of_forall_not_mem (b := Proc.devRef .tc main_arg16) _ _ (List.forall_iff_forall_mem.mp (by not_written))).trans (W2_arg16 m ρ c)
theorem W3_arg17 : W3 m ρ c (Proc.devRef .tc main_arg17) = m ((c : Thread nD τ).loc main_arg17) :=
  (StableHlo.after_of_forall_not_mem (b := Proc.devRef .tc main_arg17) _ _ (List.forall_iff_forall_mem.mp (by not_written))).trans (W2_arg17 m ρ c)

/-! ## Boundary 4: after region 1 -/

theorem W4_arg0 : W4 m ρ c (Proc.devRef .tc main_arg0) = m ((c : Thread nD τ).loc main_arg0) :=
  (W4_of_ne m ρ c main_arg0 (by decide)).trans (W3_arg0 m ρ c)
theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)
theorem W4_arg16 : W4 m ρ c (Proc.devRef .tc main_arg16) = m ((c : Thread nD τ).loc main_arg16) :=
  (W4_of_ne m ρ c main_arg16 (by decide)).trans (W3_arg16 m ρ c)
theorem W4_arg17 : W4 m ρ c (Proc.devRef .tc main_arg17) = m ((c : Thread nD τ).loc main_arg17) :=
  (W4_of_ne m ρ c main_arg17 (by decide)).trans (W3_arg17 m ρ c)

/-! ## Boundary 5: after stretch 2 of host operations -/

theorem W5_arg3 : W5 m ρ c (Proc.devRef .tc main_arg3) = m ((c : Thread nD τ).loc main_arg3) :=
  (StableHlo.after_of_forall_not_mem (b := Proc.devRef .tc main_arg3) _ _ (List.forall_iff_forall_mem.mp (by not_written))).trans (W4_arg3 m ρ c)
theorem W5_arg4 : W5 m ρ c (Proc.devRef .tc main_arg4) = m ((c : Thread nD τ).loc main_arg4) :=
  (StableHlo.after_of_forall_not_mem (b := Proc.devRef .tc main_arg4) _ _ (List.forall_iff_forall_mem.mp (by not_written))).trans (W4_arg4 m ρ c)
theorem W5_arg5 : W5 m ρ c (Proc.devRef .tc main_arg5) = m ((c : Thread nD τ).loc main_arg5) :=
  (StableHlo.after_of_forall_not_mem (b := Proc.devRef .tc main_arg5) _ _ (List.forall_iff_forall_mem.mp (by not_written))).trans (W4_arg5 m ρ c)
theorem W5_arg6 : W5 m ρ c (Proc.devRef .tc main_arg6) = m ((c : Thread nD τ).loc main_arg6) :=
  (StableHlo.after_of_forall_not_mem (b := Proc.devRef .tc main_arg6) _ _ (List.forall_iff_forall_mem.mp (by not_written))).trans (W4_arg6 m ρ c)
theorem W5_arg9 : W5 m ρ c (Proc.devRef .tc main_arg9) = m ((c : Thread nD τ).loc main_arg9) :=
  (StableHlo.after_of_forall_not_mem (b := Proc.devRef .tc main_arg9) _ _ (List.forall_iff_forall_mem.mp (by not_written))).trans (W4_arg9 m ρ c)
theorem W5_arg10 : W5 m ρ c (Proc.devRef .tc main_arg10) = m ((c : Thread nD τ).loc main_arg10) :=
  (StableHlo.after_of_forall_not_mem (b := Proc.devRef .tc main_arg10) _ _ (List.forall_iff_forall_mem.mp (by not_written))).trans (W4_arg10 m ρ c)
theorem W5_arg11 : W5 m ρ c (Proc.devRef .tc main_arg11) = m ((c : Thread nD τ).loc main_arg11) :=
  (StableHlo.after_of_forall_not_mem (b := Proc.devRef .tc main_arg11) _ _ (List.forall_iff_forall_mem.mp (by not_written))).trans (W4_arg11 m ρ c)
theorem W5_arg12 : W5 m ρ c (Proc.devRef .tc main_arg12) = m ((c : Thread nD τ).loc main_arg12) :=
  (StableHlo.after_of_forall_not_mem (b := Proc.devRef .tc main_arg12) _ _ (List.forall_iff_forall_mem.mp (by not_written))).trans (W4_arg12 m ρ c)
theorem W5_arg13 : W5 m ρ c (Proc.devRef .tc main_arg13) = m ((c : Thread nD τ).loc main_arg13) :=
  (StableHlo.after_of_forall_not_mem (b := Proc.devRef .tc main_arg13) _ _ (List.forall_iff_forall_mem.mp (by not_written))).trans (W4_arg13 m ρ c)
theorem W5_arg14 : W5 m ρ c (Proc.devRef .tc main_arg14) = m ((c : Thread nD τ).loc main_arg14) :=
  (StableHlo.after_of_forall_not_mem (b := Proc.devRef .tc main_arg14) _ _ (List.forall_iff_forall_mem.mp (by not_written))).trans (W4_arg14 m ρ c)
theorem W5_arg15 : W5 m ρ c (Proc.devRef .tc main_arg15) = m ((c : Thread nD τ).loc main_arg15) :=
  (StableHlo.after_of_forall_not_mem (b := Proc.devRef .tc main_arg15) _ _ (List.forall_iff_forall_mem.mp (by not_written))).trans (W4_arg15 m ρ c)
theorem W5_arg16 : W5 m ρ c (Proc.devRef .tc main_arg16) = m ((c : Thread nD τ).loc main_arg16) :=
  (StableHlo.after_of_forall_not_mem (b := Proc.devRef .tc main_arg16) _ _ (List.forall_iff_forall_mem.mp (by not_written))).trans (W4_arg16 m ρ c)
theorem W5_arg17 : W5 m ρ c (Proc.devRef .tc main_arg17) = m ((c : Thread nD τ).loc main_arg17) :=
  (StableHlo.after_of_forall_not_mem (b := Proc.devRef .tc main_arg17) _ _ (List.forall_iff_forall_mem.mp (by not_written))).trans (W4_arg17 m ρ c)

/-! ## Boundary 6: after region 2 -/

theorem W6_arg3 : W6 m ρ c (Proc.devRef .tc main_arg3) = m ((c : Thread nD τ).loc main_arg3) :=
  (W6_of_ne m ρ c main_arg3 (by decide)).trans (W5_arg3 m ρ c)
theorem W6_arg4 : W6 m ρ c (Proc.devRef .tc main_arg4) = m ((c : Thread nD τ).loc main_arg4) :=
  (W6_of_ne m ρ c main_arg4 (by decide)).trans (W5_arg4 m ρ c)
theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)
theorem W6_arg10 : W6 m ρ c (Proc.devRef .tc main_arg10) = m ((c : Thread nD τ).loc main_arg10) :=
  (W6_of_ne m ρ c main_arg10 (by decide)).trans (W5_arg10 m ρ c)
theorem W6_arg11 : W6 m ρ c (Proc.devRef .tc main_arg11) = m ((c : Thread nD τ).loc main_arg11) :=
  (W6_of_ne m ρ c main_arg11 (by decide)).trans (W5_arg11 m ρ c)
theorem W6_arg12 : W6 m ρ c (Proc.devRef .tc main_arg12) = m ((c : Thread nD τ).loc main_arg12) :=
  (W6_of_ne m ρ c main_arg12 (by decide)).trans (W5_arg12 m ρ c)
theorem W6_arg13 : W6 m ρ c (Proc.devRef .tc main_arg13) = m ((c : Thread nD τ).loc main_arg13) :=
  (W6_of_ne m ρ c main_arg13 (by decide)).trans (W5_arg13 m ρ c)
theorem W6_arg14 : W6 m ρ c (Proc.devRef .tc main_arg14) = m ((c : Thread nD τ).loc main_arg14) :=
  (W6_of_ne m ρ c main_arg14 (by decide)).trans (W5_arg14 m ρ c)
theorem W6_arg15 : W6 m ρ c (Proc.devRef .tc main_arg15) = m ((c : Thread nD τ).loc main_arg15) :=
  (W6_of_ne m ρ c main_arg15 (by decide)).trans (W5_arg15 m ρ c)
theorem W6_arg16 : W6 m ρ c (Proc.devRef .tc main_arg16) = m ((c : Thread nD τ).loc main_arg16) :=
  (W6_of_ne m ρ c main_arg16 (by decide)).trans (W5_arg16 m ρ c)
theorem W6_arg17 : W6 m ρ c (Proc.devRef .tc main_arg17) = m ((c : Thread nD τ).loc main_arg17) :=
  (W6_of_ne m ρ c main_arg17 (by decide)).trans (W5_arg17 m ρ c)

/-! ## Boundary 7: after stretch 3 of host operations -/

theorem W7_arg3 : W7 m ρ c (Proc.devRef .tc main_arg3) = m ((c : Thread nD τ).loc main_arg3) :=
  (StableHlo.after_of_forall_not_mem (b := Proc.devRef .tc main_arg3) _ _ (List.forall_iff_forall_mem.mp (by not_written))).trans (W6_arg3 m ρ c)
theorem W7_arg4 : W7 m ρ c (Proc.devRef .tc main_arg4) = m ((c : Thread nD τ).loc main_arg4) :=
  (StableHlo.after_of_forall_not_mem (b := Proc.devRef .tc main_arg4) _ _ (List.forall_iff_forall_mem.mp (by not_written))).trans (W6_arg4 m ρ c)
theorem W7_arg5 : W7 m ρ c (Proc.devRef .tc main_arg5) = m ((c : Thread nD τ).loc main_arg5) :=
  (StableHlo.after_of_forall_not_mem (b := Proc.devRef .tc main_arg5) _ _ (List.forall_iff_forall_mem.mp (by not_written))).trans (W6_arg5 m ρ c)
theorem W7_arg6 : W7 m ρ c (Proc.devRef .tc main_arg6) = m ((c : Thread nD τ).loc main_arg6) :=
  (StableHlo.after_of_forall_not_mem (b := Proc.devRef .tc main_arg6) _ _ (List.forall_iff_forall_mem.mp (by not_written))).trans (W6_arg6 m ρ c)
theorem W7_arg10 : W7 m ρ c (Proc.devRef .tc main_arg10) = m ((c : Thread nD τ).loc main_arg10) :=
  (StableHlo.after_of_forall_not_mem (b := Proc.devRef .tc main_arg10) _ _ (List.forall_iff_forall_mem.mp (by not_written))).trans (W6_arg10 m ρ c)
theorem W7_arg11 : W7 m ρ c (Proc.devRef .tc main_arg11) = m ((c : Thread nD τ).loc main_arg11) :=
  (StableHlo.after_of_forall_not_mem (b := Proc.devRef .tc main_arg11) _ _ (List.forall_iff_forall_mem.mp (by not_written))).trans (W6_arg11 m ρ c)
theorem W7_arg12 : W7 m ρ c (Proc.devRef .tc main_arg12) = m ((c : Thread nD τ).loc main_arg12) :=
  (StableHlo.after_of_forall_not_mem (b := Proc.devRef .tc main_arg12) _ _ (List.forall_iff_forall_mem.mp (by not_written))).trans (W6_arg12 m ρ c)
theorem W7_arg13 : W7 m ρ c (Proc.devRef .tc main_arg13) = m ((c : Thread nD τ).loc main_arg13) :=
  (StableHlo.after_of_forall_not_mem (b := Proc.devRef .tc main_arg13) _ _ (List.forall_iff_forall_mem.mp (by not_written))).trans (W6_arg13 m ρ c)
theorem W7_arg14 : W7 m ρ c (Proc.devRef .tc main_arg14) = m ((c : Thread nD τ).loc main_arg14) :=
  (StableHlo.after_of_forall_not_mem (b := Proc.devRef .tc main_arg14) _ _ (List.forall_iff_forall_mem.mp (by not_written))).trans (W6_arg14 m ρ c)
theorem W7_arg15 : W7 m ρ c (Proc.devRef .tc main_arg15) = m ((c : Thread nD τ).loc main_arg15) :=
  (StableHlo.after_of_forall_not_mem (b := Proc.devRef .tc main_arg15) _ _ (List.forall_iff_forall_mem.mp (by not_written))).trans (W6_arg15 m ρ c)
theorem W7_arg16 : W7 m ρ c (Proc.devRef .tc main_arg16) = m ((c : Thread nD τ).loc main_arg16) :=
  (StableHlo.after_of_forall_not_mem (b := Proc.devRef .tc main_arg16) _ _ (List.forall_iff_forall_mem.mp (by not_written))).trans (W6_arg16 m ρ c)
theorem W7_arg17 : W7 m ρ c (Proc.devRef .tc main_arg17) = m ((c : Thread nD τ).loc main_arg17) :=
  (StableHlo.after_of_forall_not_mem (b := Proc.devRef .tc main_arg17) _ _ (List.forall_iff_forall_mem.mp (by not_written))).trans (W6_arg17 m ρ c)

/-! ## Boundary 8: after region 3 -/

theorem W8_arg3 : W8 m ρ c (Proc.devRef .tc main_arg3) = m ((c : Thread nD τ).loc main_arg3) :=
  (W8_of_ne m ρ c main_arg3 (by decide)).trans (W7_arg3 m ρ c)
theorem W8_arg4 : W8 m ρ c (Proc.devRef .tc main_arg4) = m ((c : Thread nD τ).loc main_arg4) :=
  (W8_of_ne m ρ c main_arg4 (by decide)).trans (W7_arg4 m ρ c)
theorem W8_arg5 : W8 m ρ c (Proc.devRef .tc main_arg5) = m ((c : Thread nD τ).loc main_arg5) :=
  (W8_of_ne m ρ c main_arg5 (by decide)).trans (W7_arg5 m ρ c)
theorem W8_arg6 : W8 m ρ c (Proc.devRef .tc main_arg6) = m ((c : Thread nD τ).loc main_arg6) :=
  ((W8_arr m ρ c 0).trans (((dat3 (V7 m ρ) c).arrAt_in 0 rfl _).trans (A_eq3 (V7 m ρ) c 0))).trans (W7_arg6 m ρ c)
theorem W8_arg12 : W8 m ρ c (Proc.devRef .tc main_arg12) = m ((c : Thread nD τ).loc main_arg12) :=
  (W8_of_ne m ρ c main_arg12 (by decide)).trans (W7_arg12 m ρ c)
theorem W8_arg13 : W8 m ρ c (Proc.devRef .tc main_arg13) = m ((c : Thread nD τ).loc main_arg13) :=
  (W8_of_ne m ρ c main_arg13 (by decide)).trans (W7_arg13 m ρ c)
theorem W8_arg14 : W8 m ρ c (Proc.devRef .tc main_arg14) = m ((c : Thread nD τ).loc main_arg14) :=
  (W8_of_ne m ρ c main_arg14 (by decide)).trans (W7_arg14 m ρ c)
theorem W8_arg15 : W8 m ρ c (Proc.devRef .tc main_arg15) = m ((c : Thread nD τ).loc main_arg15) :=
  (W8_of_ne m ρ c main_arg15 (by decide)).trans (W7_arg15 m ρ c)
theorem W8_arg16 : W8 m ρ c (Proc.devRef .tc main_arg16) = m ((c : Thread nD τ).loc main_arg16) :=
  (W8_of_ne m ρ c main_arg16 (by decide)).trans (W7_arg16 m ρ c)
theorem W8_arg17 : W8 m ρ c (Proc.devRef .tc main_arg17) = m ((c : Thread nD τ).loc main_arg17) :=
  (W8_of_ne m ρ c main_arg17 (by decide)).trans (W7_arg17 m ρ c)

/-! ## Boundary 9: after stretch 4 of host operations -/

theorem W9_arg12 : W9 m ρ c (Proc.devRef .tc main_arg12) = m ((c : Thread nD τ).loc main_arg12) :=
  (StableHlo.after_of_forall_not_mem (b := Proc.devRef .tc main_arg12) _ _ (List.forall_iff_forall_mem.mp (by not_written))).trans (W8_arg12 m ρ c)
theorem W9_arg14 : W9 m ρ c (Proc.devRef .tc main_arg14) = m ((c : Thread nD τ).loc main_arg14) :=
  (StableHlo.after_of_forall_not_mem (b := Proc.devRef .tc main_arg14) _ _ (List.forall_iff_forall_mem.mp (by not_written))).trans (W8_arg14 m ρ c)
theorem W9_arg16 : W9 m ρ c (Proc.devRef .tc main_arg16) = m ((c : Thread nD τ).loc main_arg16) :=
  (StableHlo.after_of_forall_not_mem (b := Proc.devRef .tc main_arg16) _ _ (List.forall_iff_forall_mem.mp (by not_written))).trans (W8_arg16 m ρ c)

end Cert.KernelIdeal.Kept

end
-- ==== Proof.Stretches.lean ====
/-
  The host operations between the regions, read as functions.

  A sparse matrix is given by three lists: for entry e a row number, a column number and a value. Its product with a
  dense table H is formed by the host in two steps: gather row cols(e) of H for every entry e (a negative column
  number first has the table's height added), scale it by vals(e), and add the scaled rows into a zero table at row
  rows(e). wordSums is that product for the 600000 entries of the word graph (30000 × 30000) and docSums for the
  750000 entries of the document-by-word matrix (15000 × 30000). The other host operations only lay a vector out as a
  one-row matrix.

  Each lemma reads one result buffer of a stretch of host operations off an arbitrary valuation X of the buffers at
  the stretch's entry.
-/
import proofs.«177264_j67817533604035_1_alg».proof.Proof.Gen.KernelIdeal.Launch
import Idealize.ShloMosaic.Lib.StableHlo.Run
import Idealize.ShloMosaic.PureOps.Ideal

set_option maxRecDepth 16384

noncomputable section

namespace Cert.KernelIdeal.Stretches

open Cert.KernelIdeal Cert.KernelIdeal.Gen
open Idealize.ShloMosaic Idealize.ShloMosaic.TcCoe Idealize.ShloMosaic.StableHlo

/-- The word graph's matrix (entries rows, cols, vals) times the table H: for each word the weighted sum of its
    neighbours' rows. -/
def wordSums (rows cols : (⟨S600000, .i32⟩ : BufTy).Contents (Elt Ideal)) (vals : (⟨S600000, .f32⟩ : BufTy).Contents (Elt Ideal))
    (H : (⟨S30000x300, .f32⟩ : BufTy).Contents (Elt Ideal)) : (⟨S30000x300, .f32⟩ : BufTy).Contents (Elt Ideal) :=
  Host.scatterAdd scatter_S30000x300_S600000x1_S600000x300_1_0_0_1
    (broadcastInDim S30000x300 ![] bcast_S_S30000x300 (constant (F := Ideal) S_ .f32 0x00000000#32))
    (broadcastInDim S600000x1 ![0] bcast_S600000_S600000x1_0 rows)
    (mulf (broadcastInDim S600000x300 ![0, 1] bcast_S600000x1_S600000x300_0_1
        (broadcastInDim S600000x1 ![0] bcast_S600000_S600000x1_0 vals))
      (Host.gather gather_S30000x300_S600000x1_S600000x300_1_0_n_n_0_1_1300 H
        (broadcastInDim S600000x1 ![0] bcast_S600000_S600000x1_0
          (select (cmpi .slt cols (broadcastInDim S600000 ![] bcast_S_S600000 (constantI S_ 32 0#32)))
            (addi cols (broadcastInDim S600000 ![] bcast_S_S600000 (constantI S_ 32 30000#32))) cols))))

/-- The document-by-word matrix (entries rows, cols, vals) times the table H: for each document the weighted sum of
    its words' rows. -/
def docSums (rows cols : (⟨S750000, .i32⟩ : BufTy).Contents (Elt Ideal)) (vals : (⟨S750000, .f32⟩ : BufTy).Contents (Elt Ideal))
    (H : (⟨S30000x300, .f32⟩ : BufTy).Contents (Elt Ideal)) : (⟨S15000x300, .f32⟩ : BufTy).Contents (Elt Ideal) :=
  Host.scatterAdd scatter_S15000x300_S750000x1_S750000x300_1_0_0_1
    (broadcastInDim S15000x300 ![] bcast_S_S15000x300 (constant (F := Ideal) S_ .f32 0x00000000#32))
    (broadcastInDim S750000x1 ![0] bcast_S750000_S750000x1_0 rows)
    (mulf (broadcastInDim S750000x300 ![0, 1] bcast_S750000x1_S750000x300_0_1
        (broadcastInDim S750000x1 ![0] bcast_S750000_S750000x1_0 vals))
      (Host.gather gather_S30000x300_S750000x1_S750000x300_1_0_n_n_0_1_1300 H
        (broadcastInDim S750000x1 ![0] bcast_S750000_S750000x1_0
          (select (cmpi .slt cols (broadcastInDim S750000 ![] bcast_S_S750000 (constantI S_ 32 0#32)))
            (addi cols (broadcastInDim S750000 ![] bcast_S_S750000 (constantI S_ 32 30000#32))) cols))))

variable (X : Valuation τ sig (Elt Ideal))

/-! ## Before each graph layer: the neighbourhood sums of the current features -/

set_option maxHeartbeats 4000000 in
theorem sums0 : StableHlo.after hostOps0 X (Proc.devRef .tc main_v12)
    = wordSums (X (Proc.devRef .tc main_arg0)) (X (Proc.devRef .tc main_arg1)) (X (Proc.devRef .tc main_arg2)) (X (Proc.devRef .tc main_arg6)) := by
  after_results_simp <;> rfl

set_option maxHeartbeats 4000000 in
theorem sums1 : StableHlo.after hostOps1 X (Proc.devRef .tc main_v26)
    = wordSums (X (Proc.devRef .tc main_arg0)) (X (Proc.devRef .tc main_arg1)) (X (Proc.devRef .tc main_arg2)) (X (Proc.devRef .tc main_v13)) := by
  after_results_simp <;> rfl

set_option maxHeartbeats 4000000 in
theorem sums2 : StableHlo.after hostOps2 X (Proc.devRef .tc main_v40)
    = wordSums (X (Proc.devRef .tc main_arg0)) (X (Proc.devRef .tc main_arg1)) (X (Proc.devRef .tc main_arg2)) (X (Proc.devRef .tc main_v27)) := by
  after_results_simp <;> rfl

/-! ## Before the normalisation: the gain and the bias laid out as rows; the third layer's output passed by -/

theorem gainRow : StableHlo.after hostOps3 X (Proc.devRef .tc main_v42)
    = shapeCast S1x300 (X (Proc.devRef .tc main_arg10)) shapeCasts_S300_S1x300 := by
  after_results_simp <;> rfl

theorem biasRow : StableHlo.after hostOps3 X (Proc.devRef .tc main_v43)
    = shapeCast S1x300 (X (Proc.devRef .tc main_arg11)) shapeCasts_S300_S1x300 := by
  after_results_simp <;> rfl

theorem layer3Kept : StableHlo.after hostOps3 X (Proc.devRef .tc main_v41) = (X (Proc.devRef .tc main_v41)) := by
  after_results_simp <;> rfl

/-! ## Before the head: the two document sums and the three bias rows -/

set_option maxHeartbeats 8000000 in
theorem docs1 : StableHlo.after hostOps4 X (Proc.devRef .tc main_v57)
    = docSums (X (Proc.devRef .tc main_arg3)) (X (Proc.devRef .tc main_arg4)) (X (Proc.devRef .tc main_arg5)) (X (Proc.devRef .tc main_v44)) := by
  after_results_simp <;> rfl

set_option maxHeartbeats 8000000 in
theorem docs2 : StableHlo.after hostOps4 X (Proc.devRef .tc main_v70)
    = docSums (X (Proc.devRef .tc main_arg3)) (X (Proc.devRef .tc main_arg4)) (X (Proc.devRef .tc main_arg5)) (X (Proc.devRef .tc main_arg6)) := by
  after_results_simp <;> rfl

set_option maxHeartbeats 8000000 in
theorem headRow1 : StableHlo.after hostOps4 X (Proc.devRef .tc main_v71)
    = shapeCast S1x300 (X (Proc.devRef .tc main_arg13)) shapeCasts_S300_S1x300 := by
  after_results_simp <;> rfl

set_option maxHeartbeats 8000000 in
theorem headRow2 : StableHlo.after hostOps4 X (Proc.devRef .tc main_v72)
    = shapeCast S1x150 (X (Proc.devRef .tc main_arg15)) shapeCasts_S150_S1x150 := by
  after_results_simp <;> rfl

set_option maxHeartbeats 8000000 in
theorem headRow3 : StableHlo.after hostOps4 X (Proc.devRef .tc main_v73)
    = shapeCast S1x2 (X (Proc.devRef .tc main_arg17)) shapeCasts_S2_S1x2 := by
  after_results_simp <;> rfl

end Cert.KernelIdeal.Stretches

end
-- ==== Proof.Fold.lean ====
/-
  The idealized kernel's result as one function of its arguments.

  Walking the run's boundaries backwards from the result: the result is the head's output array, whose inputs are the
  two document sums and the head's tables; the first document sum is taken over the normalised word features, which
  are the mix of the embedding table and the third graph layer's output; each graph layer's input is the
  neighbourhood sums of the layer before; and the first layer's input is the neighbourhood sums of the embedding
  table. At every step a region's output array is the whole-array function of the arrays the region found, and every
  argument array still holds its launch contents.
-/
import proofs.«177264_j67817533604035_1_alg».proof.Proof.BlocksLayers
import proofs.«177264_j67817533604035_1_alg».proof.Proof.BlocksNorm
import proofs.«177264_j67817533604035_1_alg».proof.Proof.BlocksHead
import proofs.«177264_j67817533604035_1_alg».proof.Proof.ArgsKept
import proofs.«177264_j67817533604035_1_alg».proof.Proof.Stretches

set_option maxRecDepth 16384

noncomputable section

namespace Cert.KernelIdeal.Fold

open Cert.KernelIdeal Cert.KernelIdeal.Gen Cert.KernelIdeal.Blocks Cert.KernelIdeal.Kept Cert.KernelIdeal.Stretches
open Idealize.ShloMosaic Idealize.ShloMosaic.TcCoe
open Cert.BlockRows Cert.DocNet

/-! ## The network -/

/-- The features after the three graph layers: three times, neighbourhood sums then max(· · W, 0). -/
def feat3 (h0 : (⟨0, ![]⟩ : Shape).BroadcastsInDim (⟨2, ![30000, 300]⟩ : Shape) ![])
    (a0 a1 : (⟨S600000, .i32⟩ : BufTy).Contents (Elt Ideal)) (a2 : (⟨S600000, .f32⟩ : BufTy).Contents (Elt Ideal)) (a6 : (⟨S30000x300, .f32⟩ : BufTy).Contents (Elt Ideal))
    (a7 a8 a9 : (⟨S300x300, .f32⟩ : BufTy).Contents (Elt Ideal)) : (⟨S30000x300, .f32⟩ : BufTy).Contents (Elt Ideal) :=
  layer h0 (wordSums a0 a1 a2 (layer h0 (wordSums a0 a1 a2 (layer h0 (wordSums a0 a1 a2 a6) a7)) a8)) a9

/-- The whole network: graph layers, mix and normalisation, document sums, head; the head's biases laid out as rows by
    a reshape. -/
def net (h0 : (⟨0, ![]⟩ : Shape).BroadcastsInDim (⟨2, ![30000, 300]⟩ : Shape) ![])
    (hrt : (⟨2, ![30000, 300]⟩ : Shape).ReducesTo [1] (⟨1, ![30000]⟩ : Shape)) (h0n : 0 < (⟨0, ![]⟩ : Shape).numel)
    (hb1 : (⟨1, ![30000]⟩ : Shape).BroadcastsInDim (⟨2, ![30000, 1]⟩ : Shape) ![0])
    (hbs : (⟨0, ![]⟩ : Shape).BroadcastsInDim (⟨2, ![30000, 1]⟩ : Shape) ![])
    (hbc : (⟨2, ![30000, 1]⟩ : Shape).BroadcastsInDim (⟨2, ![30000, 300]⟩ : Shape) ![0, 1])
    (hg : (⟨1, ![300]⟩ : Shape).BroadcastsInDim (⟨2, ![1, 300]⟩ : Shape) ![1])
    (hgb : (⟨2, ![1, 300]⟩ : Shape).BroadcastsInDim (⟨2, ![30000, 300]⟩ : Shape) ![0, 1])
    (h0a : (⟨0, ![]⟩ : Shape).BroadcastsInDim (⟨2, ![15000, 300]⟩ : Shape) ![])
    (h0b : (⟨0, ![]⟩ : Shape).BroadcastsInDim (⟨2, ![15000, 150]⟩ : Shape) ![])
    (h2a : (⟨2, ![1, 300]⟩ : Shape).BroadcastsInDim (⟨2, ![15000, 300]⟩ : Shape) ![0, 1])
    (h2b : (⟨2, ![1, 150]⟩ : Shape).BroadcastsInDim (⟨2, ![15000, 150]⟩ : Shape) ![0, 1])
    (h2c : (⟨2, ![1, 2]⟩ : Shape).BroadcastsInDim (⟨2, ![15000, 2]⟩ : Shape) ![0, 1])
    (hg150 : (⟨1, ![150]⟩ : Shape).BroadcastsInDim (⟨2, ![1, 150]⟩ : Shape) ![1])
    (hgc : (⟨1, ![2]⟩ : Shape).BroadcastsInDim (⟨2, ![1, 2]⟩ : Shape) ![1])
    (a0 a1 : (⟨S600000, .i32⟩ : BufTy).Contents (Elt Ideal)) (a2 : (⟨S600000, .f32⟩ : BufTy).Contents (Elt Ideal))
    (a3 a4 : (⟨S750000, .i32⟩ : BufTy).Contents (Elt Ideal)) (a5 : (⟨S750000, .f32⟩ : BufTy).Contents (Elt Ideal))
    (a6 : (⟨S30000x300, .f32⟩ : BufTy).Contents (Elt Ideal)) (a7 a8 a9 : (⟨S300x300, .f32⟩ : BufTy).Contents (Elt Ideal))
    (a10 a11 : (⟨S300, .f32⟩ : BufTy).Contents (Elt Ideal)) (a12 : (⟨S300x300, .f32⟩ : BufTy).Contents (Elt Ideal)) (a13 : (⟨S300, .f32⟩ : BufTy).Contents (Elt Ideal))
    (a14 : (⟨S300x150, .f32⟩ : BufTy).Contents (Elt Ideal)) (a15 : (⟨S150, .f32⟩ : BufTy).Contents (Elt Ideal)) (a16 : (⟨S150x2, .f32⟩ : BufTy).Contents (Elt Ideal)) (a17 : (⟨S2, .f32⟩ : BufTy).Contents (Elt Ideal)) : (⟨S15000x2, .f32⟩ : BufTy).Contents (Elt Ideal) :=
  head h0a h0b h2a h2b h2c
    (docSums a3 a4 a5 (mixNorm 0x3E99999A#32 0x3F333333#32 0x43960000#32 0x3727C5AC#32 h0 hrt h0n hb1 hbs hbc hg hgb a6 (feat3 h0 a0 a1 a2 a6 a7 a8 a9) a10 a11))
    (docSums a3 a4 a5 a6)
    a12 (shapeCast S1x300 a13 shapeCasts_S300_S1x300) a14 (shapeCast S1x150 a15 shapeCasts_S150_S1x150)
    a16 (shapeCast S1x2 a17 shapeCasts_S2_S1x2)

/-- The same network with the head's biases laid out as rows by a broadcast along the one axis, as the reference does. -/
def netB (h0 : (⟨0, ![]⟩ : Shape).BroadcastsInDim (⟨2, ![30000, 300]⟩ : Shape) ![])
    (hrt : (⟨2, ![30000, 300]⟩ : Shape).ReducesTo [1] (⟨1, ![30000]⟩ : Shape)) (h0n : 0 < (⟨0, ![]⟩ : Shape).numel)
    (hb1 : (⟨1, ![30000]⟩ : Shape).BroadcastsInDim (⟨2, ![30000, 1]⟩ : Shape) ![0])
    (hbs : (⟨0, ![]⟩ : Shape).BroadcastsInDim (⟨2, ![30000, 1]⟩ : Shape) ![])
    (hbc : (⟨2, ![30000, 1]⟩ : Shape).BroadcastsInDim (⟨2, ![30000, 300]⟩ : Shape) ![0, 1])
    (hg : (⟨1, ![300]⟩ : Shape).BroadcastsInDim (⟨2, ![1, 300]⟩ : Shape) ![1])
    (hgb : (⟨2, ![1, 300]⟩ : Shape).BroadcastsInDim (⟨2, ![30000, 300]⟩ : Shape) ![0, 1])
    (h0a : (⟨0, ![]⟩ : Shape).BroadcastsInDim (⟨2, ![15000, 300]⟩ : Shape) ![])
    (h0b : (⟨0, ![]⟩ : Shape).BroadcastsInDim (⟨2, ![15000, 150]⟩ : Shape) ![])
    (h2a : (⟨2, ![1, 300]⟩ : Shape).BroadcastsInDim (⟨2, ![15000, 300]⟩ : Shape) ![0, 1])
    (h2b : (⟨2, ![1, 150]⟩ : Shape).BroadcastsInDim (⟨2, ![15000, 150]⟩ : Shape) ![0, 1])
    (h2c : (⟨2, ![1, 2]⟩ : Shape).BroadcastsInDim (⟨2, ![15000, 2]⟩ : Shape) ![0, 1])
    (hg150 : (⟨1, ![150]⟩ : Shape).BroadcastsInDim (⟨2, ![1, 150]⟩ : Shape) ![1])
    (hgc : (⟨1, ![2]⟩ : Shape).BroadcastsInDim (⟨2, ![1, 2]⟩ : Shape) ![1])
    (a0 a1 : (⟨S600000, .i32⟩ : BufTy).Contents (Elt Ideal)) (a2 : (⟨S600000, .f32⟩ : BufTy).Contents (Elt Ideal))
    (a3 a4 : (⟨S750000, .i32⟩ : BufTy).Contents (Elt Ideal)) (a5 : (⟨S750000, .f32⟩ : BufTy).Contents (Elt Ideal))
    (a6 : (⟨S30000x300, .f32⟩ : BufTy).Contents (Elt Ideal)) (a7 a8 a9 : (⟨S300x300, .f32⟩ : BufTy).Contents (Elt Ideal))
    (a10 a11 : (⟨S300, .f32⟩ : BufTy).Contents (Elt Ideal)) (a12 : (⟨S300x300, .f32⟩ : BufTy).Contents (Elt Ideal)) (a13 : (⟨S300, .f32⟩ : BufTy).Contents (Elt Ideal))
    (a14 : (⟨S300x150, .f32⟩ : BufTy).Contents (Elt Ideal)) (a15 : (⟨S150, .f32⟩ : BufTy).Contents (Elt Ideal)) (a16 : (⟨S150x2, .f32⟩ : BufTy).Contents (Elt Ideal)) (a17 : (⟨S2, .f32⟩ : BufTy).Contents (Elt Ideal)) : (⟨S15000x2, .f32⟩ : BufTy).Contents (Elt Ideal) :=
  head h0a h0b h2a h2b h2c
    (docSums a3 a4 a5 (mixNorm 0x3E99999A#32 0x3F333333#32 0x43960000#32 0x3727C5AC#32 h0 hrt h0n hb1 hbs hbc hg hgb a6 (feat3 h0 a0 a1 a2 a6 a7 a8 a9) a10 a11))
    (docSums a3 a4 a5 a6)
    a12 (broadcastInDim (⟨2, ![1, 300]⟩ : Shape) ![1] hg a13) a14 (broadcastInDim (⟨2, ![1, 150]⟩ : Shape) ![1] hg150 a15)
    a16 (broadcastInDim (⟨2, ![1, 2]⟩ : Shape) ![1] hgc a17)

/-- A vector reshaped to a row is the vector broadcast to a row: the two spellings of the network agree. -/
theorem net_eq_netB (h0 : (⟨0, ![]⟩ : Shape).BroadcastsInDim (⟨2, ![30000, 300]⟩ : Shape) ![])
    (hrt : (⟨2, ![30000, 300]⟩ : Shape).ReducesTo [1] (⟨1, ![30000]⟩ : Shape)) (h0n : 0 < (⟨0, ![]⟩ : Shape).numel)
    (hb1 : (⟨1, ![30000]⟩ : Shape).BroadcastsInDim (⟨2, ![30000, 1]⟩ : Shape) ![0])
    (hbs : (⟨0, ![]⟩ : Shape).BroadcastsInDim (⟨2, ![30000, 1]⟩ : Shape) ![])
    (hbc : (⟨2, ![30000, 1]⟩ : Shape).BroadcastsInDim (⟨2, ![30000, 300]⟩ : Shape) ![0, 1])
    (hg : (⟨1, ![300]⟩ : Shape).BroadcastsInDim (⟨2, ![1, 300]⟩ : Shape) ![1])
    (hgb : (⟨2, ![1, 300]⟩ : Shape).BroadcastsInDim (⟨2, ![30000, 300]⟩ : Shape) ![0, 1])
    (h0a : (⟨0, ![]⟩ : Shape).BroadcastsInDim (⟨2, ![15000, 300]⟩ : Shape) ![])
    (h0b : (⟨0, ![]⟩ : Shape).BroadcastsInDim (⟨2, ![15000, 150]⟩ : Shape) ![])
    (h2a : (⟨2, ![1, 300]⟩ : Shape).BroadcastsInDim (⟨2, ![15000, 300]⟩ : Shape) ![0, 1])
    (h2b : (⟨2, ![1, 150]⟩ : Shape).BroadcastsInDim (⟨2, ![15000, 150]⟩ : Shape) ![0, 1])
    (h2c : (⟨2, ![1, 2]⟩ : Shape).BroadcastsInDim (⟨2, ![15000, 2]⟩ : Shape) ![0, 1])
    (hg150 : (⟨1, ![150]⟩ : Shape).BroadcastsInDim (⟨2, ![1, 150]⟩ : Shape) ![1])
    (hgc : (⟨1, ![2]⟩ : Shape).BroadcastsInDim (⟨2, ![1, 2]⟩ : Shape) ![1])
    (a0 a1 : (⟨S600000, .i32⟩ : BufTy).Contents (Elt Ideal)) (a2 : (⟨S600000, .f32⟩ : BufTy).Contents (Elt Ideal))
    (a3 a4 : (⟨S750000, .i32⟩ : BufTy).Contents (Elt Ideal)) (a5 : (⟨S750000, .f32⟩ : BufTy).Contents (Elt Ideal))
    (a6 : (⟨S30000x300, .f32⟩ : BufTy).Contents (Elt Ideal)) (a7 a8 a9 : (⟨S300x300, .f32⟩ : BufTy).Contents (Elt Ideal))
    (a10 a11 : (⟨S300, .f32⟩ : BufTy).Contents (Elt Ideal)) (a12 : (⟨S300x300, .f32⟩ : BufTy).Contents (Elt Ideal)) (a13 : (⟨S300, .f32⟩ : BufTy).Contents (Elt Ideal))
    (a14 : (⟨S300x150, .f32⟩ : BufTy).Contents (Elt Ideal)) (a15 : (⟨S150, .f32⟩ : BufTy).Contents (Elt Ideal)) (a16 : (⟨S150x2, .f32⟩ : BufTy).Contents (Elt Ideal)) (a17 : (⟨S2, .f32⟩ : BufTy).Contents (Elt Ideal)) :
    net h0 hrt h0n hb1 hbs hbc hg hgb h0a h0b h2a h2b h2c hg150 hgc a0 a1 a2 a3 a4 a5 a6 a7 a8 a9 a10 a11 a12 a13 a14 a15 a16 a17
      = netB h0 hrt h0n hb1 hbs hbc hg hgb h0a h0b h2a h2b h2c hg150 hgc a0 a1 a2 a3 a4 a5 a6 a7 a8 a9 a10 a11 a12 a13 a14 a15 a16 a17 := by
  unfold net netB
  rw [reshape_row a13 shapeCasts_S300_S1x300 hg, reshape_row a15 shapeCasts_S150_S1x150 hg150,
    reshape_row a17 shapeCasts_S2_S1x2 hgc]

/-! ## The fold, boundary by boundary -/

section
variable (h0 : (⟨0, ![]⟩ : Shape).BroadcastsInDim (⟨2, ![30000, 300]⟩ : Shape) ![])
    (hrt : (⟨2, ![30000, 300]⟩ : Shape).ReducesTo [1] (⟨1, ![30000]⟩ : Shape)) (h0n : 0 < (⟨0, ![]⟩ : Shape).numel)
    (hb1 : (⟨1, ![30000]⟩ : Shape).BroadcastsInDim (⟨2, ![30000, 1]⟩ : Shape) ![0])
    (hbs : (⟨0, ![]⟩ : Shape).BroadcastsInDim (⟨2, ![30000, 1]⟩ : Shape) ![])
    (hbc : (⟨2, ![30000, 1]⟩ : Shape).BroadcastsInDim (⟨2, ![30000, 300]⟩ : Shape) ![0, 1])
    (hg : (⟨1, ![300]⟩ : Shape).BroadcastsInDim (⟨2, ![1, 300]⟩ : Shape) ![1])
    (hgb : (⟨2, ![1, 300]⟩ : Shape).BroadcastsInDim (⟨2, ![30000, 300]⟩ : Shape) ![0, 1])
    (h0a : (⟨0, ![]⟩ : Shape).BroadcastsInDim (⟨2, ![15000, 300]⟩ : Shape) ![])
    (h0b : (⟨0, ![]⟩ : Shape).BroadcastsInDim (⟨2, ![15000, 150]⟩ : Shape) ![])
    (h2a : (⟨2, ![1, 300]⟩ : Shape).BroadcastsInDim (⟨2, ![15000, 300]⟩ : Shape) ![0, 1])
    (h2b : (⟨2, ![1, 150]⟩ : Shape).BroadcastsInDim (⟨2, ![15000, 150]⟩ : Shape) ![0, 1])
    (h2c : (⟨2, ![1, 2]⟩ : Shape).BroadcastsInDim (⟨2, ![15000, 2]⟩ : Shape) ![0, 1])
    (hg150 : (⟨1, ![150]⟩ : Shape).BroadcastsInDim (⟨2, ![1, 150]⟩ : Shape) ![1])
    (hgc : (⟨1, ![2]⟩ : Shape).BroadcastsInDim (⟨2, ![1, 2]⟩ : Shape) ![1])
variable (m : (ℓ : Loc nD τ sig) → Buf (Elt Ideal) ℓ) (ρ : Dev nD → PrngReg) (c : Dev nD)

/-- Region 0 finds the neighbourhood sums of the embedding table. -/
theorem sums1_eq : V1 m ρ c main_v12 = wordSums (m ((c : Thread nD τ).loc main_arg0)) (m ((c : Thread nD τ).loc main_arg1)) (m ((c : Thread nD τ).loc main_arg2)) (m ((c : Thread nD τ).loc main_arg6)) :=
  sums0 (W0 m ρ c)

/-- Region 0 leaves the first layer's features. -/
theorem feat1_eq : W2 m ρ c (Proc.devRef .tc main_v13)
    = layer h0 (wordSums (m ((c : Thread nD τ).loc main_arg0)) (m ((c : Thread nD τ).loc main_arg1)) (m ((c : Thread nD τ).loc main_arg2)) (m ((c : Thread nD τ).loc main_arg6))) (m ((c : Thread nD τ).loc main_arg7)) :=
  (W2_arr m ρ c 2).trans ((final0 (V1 m ρ) h0 c).trans (congrArg₂ (layer h0) (sums1_eq m ρ c) (W1_arg7 m ρ c)))

/-- Region 1 finds their neighbourhood sums. -/
theorem sums2_eq : V3 m ρ c main_v26
    = wordSums (m ((c : Thread nD τ).loc main_arg0)) (m ((c : Thread nD τ).loc main_arg1)) (m ((c : Thread nD τ).loc main_arg2)) (layer h0 (wordSums (m ((c : Thread nD τ).loc main_arg0)) (m ((c : Thread nD τ).loc main_arg1)) (m ((c : Thread nD τ).loc main_arg2)) (m ((c : Thread nD τ).loc main_arg6))) (m ((c : Thread nD τ).loc main_arg7))) :=
  (sums1 (W2 m ρ c)).trans (congr (congr (congr (congrArg wordSums (W2_arg0 m ρ c)) (W2_arg1 m ρ c)) (W2_arg2 m ρ c))
    (feat1_eq h0 m ρ c))

/-- Region 1 leaves the second layer's features. -/
theorem feat2_eq : W4 m ρ c (Proc.devRef .tc main_v27)
    = layer h0 (wordSums (m ((c : Thread nD τ).loc main_arg0)) (m ((c : Thread nD τ).loc main_arg1)) (m ((c : Thread nD τ).loc main_arg2)) (layer h0 (wordSums (m ((c : Thread nD τ).loc main_arg0)) (m ((c : Thread nD τ).loc main_arg1)) (m ((c : Thread nD τ).loc main_arg2)) (m ((c : Thread nD τ).loc main_arg6))) (m ((c : Thread nD τ).loc main_arg7)))) (m ((c : Thread nD τ).loc main_arg8)) :=
  (W4_arr m ρ c 2).trans ((final1 (V3 m ρ) h0 c).trans (congrArg₂ (layer h0) (sums2_eq h0 m ρ c) (W3_arg8 m ρ c)))

/-- Region 2 finds their neighbourhood sums. -/
theorem sums3_eq : V5 m ρ c main_v40
    = wordSums (m ((c : Thread nD τ).loc main_arg0)) (m ((c : Thread nD τ).loc main_arg1)) (m ((c : Thread nD τ).loc main_arg2))
        (layer h0 (wordSums (m ((c : Thread nD τ).loc main_arg0)) (m ((c : Thread nD τ).loc main_arg1)) (m ((c : Thread nD τ).loc main_arg2)) (layer h0 (wordSums (m ((c : Thread nD τ).loc main_arg0)) (m ((c : Thread nD τ).loc main_arg1)) (m ((c : Thread nD τ).loc main_arg2)) (m ((c : Thread nD τ).loc main_arg6))) (m ((c : Thread nD τ).loc main_arg7)))) (m ((c : Thread nD τ).loc main_arg8))) :=
  (sums2 (W4 m ρ c)).trans (congr (congr (congr (congrArg wordSums (W4_arg0 m ρ c)) (W4_arg1 m ρ c)) (W4_arg2 m ρ c))
    (feat2_eq h0 m ρ c))

/-- Region 2 leaves the third layer's features. -/
theorem feat3_eq : W6 m ρ c (Proc.devRef .tc main_v41)
    = feat3 h0 (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) :=
  (W6_arr m ρ c 2).trans ((final2 (V5 m ρ) h0 c).trans (congrArg₂ (layer h0) (sums3_eq h0 m ρ c) (W5_arg9 m ρ c)))

/-- The normalisation region finds them unchanged, -/
theorem feat3_at7 : V7 m ρ c main_v41 = feat3 h0 (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) :=
  (layer3Kept (W6 m ρ c)).trans (feat3_eq h0 m ρ c)

/-- and finds the gain laid out as a row: the row of the gain vector, -/
theorem gain_eq : V7 m ρ c main_v42 = broadcastInDim (⟨2, ![1, 300]⟩ : Shape) ![1] hg (V7 m ρ c main_arg10) :=
  (gainRow (W6 m ρ c)).trans ((reshape_row (W6 m ρ c (Proc.devRef .tc main_arg10)) shapeCasts_S300_S1x300 hg).trans
    (congrArg (broadcastInDim (⟨2, ![1, 300]⟩ : Shape) ![1] hg) ((W6_arg10 m ρ c).trans (W7_arg10 m ρ c).symm)))

/-- and the bias likewise. -/
theorem bias_eq : V7 m ρ c main_v43 = broadcastInDim (⟨2, ![1, 300]⟩ : Shape) ![1] hg (V7 m ρ c main_arg11) :=
  (biasRow (W6 m ρ c)).trans ((reshape_row (W6 m ρ c (Proc.devRef .tc main_arg11)) shapeCasts_S300_S1x300 hg).trans
    (congrArg (broadcastInDim (⟨2, ![1, 300]⟩ : Shape) ![1] hg) ((W6_arg11 m ρ c).trans (W7_arg11 m ρ c).symm)))

/-- The normalisation region leaves the word features. -/
theorem wordFeat_eq : W8 m ρ c (Proc.devRef .tc main_v44)
    = mixNorm 0x3E99999A#32 0x3F333333#32 0x43960000#32 0x3727C5AC#32 h0 hrt h0n hb1 hbs hbc hg hgb (m ((c : Thread nD τ).loc main_arg6)) (feat3 h0 (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) :=
  (W8_arr m ρ c 4).trans ((final3 (V7 m ρ) h0 hrt h0n hb1 hbs hbc hg hgb c (gain_eq hg m ρ c) (bias_eq hg m ρ c)).trans
    (congr (congr (congr (congrArg (mixNorm 0x3E99999A#32 0x3F333333#32 0x43960000#32 0x3727C5AC#32 h0 hrt h0n hb1 hbs hbc hg hgb) (W7_arg6 m ρ c)) (feat3_at7 h0 m ρ c)) (W7_arg10 m ρ c)) (W7_arg11 m ρ c)))

/-- The head's region finds the document sums of the word features, -/
theorem docs1_eq : V9 m ρ c main_v57
    = docSums (m ((c : Thread nD τ).loc main_arg3)) (m ((c : Thread nD τ).loc main_arg4)) (m ((c : Thread nD τ).loc main_arg5))
        (mixNorm 0x3E99999A#32 0x3F333333#32 0x43960000#32 0x3727C5AC#32 h0 hrt h0n hb1 hbs hbc hg hgb (m ((c : Thread nD τ).loc main_arg6)) (feat3 h0 (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (docs1 (W8 m ρ c)).trans (congr (congr (congr (congrArg docSums (W8_arg3 m ρ c)) (W8_arg4 m ρ c)) (W8_arg5 m ρ c))
    (wordFeat_eq h0 hrt h0n hb1 hbs hbc hg hgb m ρ c))

/-- the document sums of the embedding table, -/
theorem docs2_eq : V9 m ρ c main_v70 = docSums (m ((c : Thread nD τ).loc main_arg3)) (m ((c : Thread nD τ).loc main_arg4)) (m ((c : Thread nD τ).loc main_arg5)) (m ((c : Thread nD τ).loc main_arg6)) :=
  (docs2 (W8 m ρ c)).trans (congr (congr (congr (congrArg docSums (W8_arg3 m ρ c)) (W8_arg4 m ρ c)) (W8_arg5 m ρ c))
    (W8_arg6 m ρ c))

/-- and the three biases laid out as rows. -/
theorem row1_eq : V9 m ρ c main_v71 = shapeCast S1x300 (m ((c : Thread nD τ).loc main_arg13)) shapeCasts_S300_S1x300 :=
  (headRow1 (W8 m ρ c)).trans (congrArg (fun v => shapeCast S1x300 v shapeCasts_S300_S1x300) (W8_arg13 m ρ c))
theorem row2_eq : V9 m ρ c main_v72 = shapeCast S1x150 (m ((c : Thread nD τ).loc main_arg15)) shapeCasts_S150_S1x150 :=
  (headRow2 (W8 m ρ c)).trans (congrArg (fun v => shapeCast S1x150 v shapeCasts_S150_S1x150) (W8_arg15 m ρ c))
theorem row3_eq : V9 m ρ c main_v73 = shapeCast S1x2 (m ((c : Thread nD τ).loc main_arg17)) shapeCasts_S2_S1x2 :=
  (headRow3 (W8 m ρ c)).trans (congrArg (fun v => shapeCast S1x2 v shapeCasts_S2_S1x2) (W8_arg17 m ρ c))

/-- THE RESULT: the last boundary's contents at the result buffer are the network of the launch contents of the
    arguments. -/
theorem result_eq : W10 m ρ c (Proc.devRef .tc main_v74)
    = netB h0 hrt h0n hb1 hbs hbc hg hgb h0a h0b h2a h2b h2c hg150 hgc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  ((W10_arr m ρ c 8).trans ((final4 (V9 m ρ) h0a h0b h2a h2b h2c c).trans
    (congr (congr (congr (congr (congr (congr (congr (congrArg (head h0a h0b h2a h2b h2c) (docs1_eq h0 hrt h0n hb1 hbs hbc hg hgb m ρ c)) (docs2_eq m ρ c))
      (W9_arg12 m ρ c)) (row1_eq m ρ c)) (W9_arg14 m ρ c)) (row2_eq m ρ c)) (W9_arg16 m ρ c)) (row3_eq m ρ c)))).trans
    (net_eq_netB h0 hrt h0n hb1 hbs hbc hg hgb h0a h0b h2a h2b h2c hg150 hgc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))

end

end Cert.KernelIdeal.Fold

end
-- ==== Proof.RefValue.lean ====
/-
  The reference's result is the same network.

  The reference is a straight line of host operations. Its generated run gives the result as the operations' composed
  term of the arguments; that term is, operation for operation, the network the kernel's result was shown to be: the
  same sparse products, max(· · W, 0) three times, the same mix and row normalisation (the centred rows formed twice
  there, once for the variance and once for the product, are one term), the document sums and the head. The two
  programs name their shape records separately; the records are equal field by field.
-/
import proofs.«177264_j67817533604035_1_alg».proof.Proof.Gen.ReferenceIdeal.Run
import proofs.«177264_j67817533604035_1_alg».proof.Proof.Fold

set_option maxRecDepth 16384

noncomputable section

namespace Cert.ReferenceIdeal.RefValue

open Idealize.ShloMosaic Idealize.ShloMosaic.TcCoe Idealize.SL.Sem

set_option maxHeartbeats 4000000 in
/-- The reference run's result term is the network of the arguments' launch contents. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v114 (F := Ideal) m c
      = Cert.KernelIdeal.Fold.netB
      Cert.ReferenceIdeal.Gen.bcast_S_S30000x300
      Cert.ReferenceIdeal.Gen.reducesTo_S30000x300_S30000_d1
      Cert.ReferenceIdeal.Gen.h_S_
      Cert.ReferenceIdeal.Gen.bcast_S30000_S30000x1_0
      Cert.ReferenceIdeal.Gen.bcast_S_S30000x1
      Cert.ReferenceIdeal.Gen.bcast_S30000x1_S30000x300_0_1
      Cert.ReferenceIdeal.Gen.bcast_S300_S1x300_1
      Cert.ReferenceIdeal.Gen.bcast_S1x300_S30000x300_0_1
      Cert.ReferenceIdeal.Gen.bcast_S_S15000x300
      Cert.ReferenceIdeal.Gen.bcast_S_S15000x150
      Cert.ReferenceIdeal.Gen.bcast_S1x300_S15000x300_0_1
      Cert.ReferenceIdeal.Gen.bcast_S1x150_S15000x150_0_1
      Cert.ReferenceIdeal.Gen.bcast_S1x2_S15000x2_0_1
      Cert.ReferenceIdeal.Gen.bcast_S150_S1x150_1
      Cert.ReferenceIdeal.Gen.bcast_S2_S1x2_1
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15))
      (m ((c.tc : Thread Cert.ReferenceIdeal.nD Cert.ReferenceIdeal.τ).loc Cert.ReferenceIdeal.main_arg16))
      (m ((c.tc : Thread Cert.ReferenceIdeal.nD Cert.ReferenceIdeal.τ).loc Cert.ReferenceIdeal.main_arg17)) := by
  unfold Cert.ReferenceIdeal.Value.res_main_v114
  rfl

end Cert.ReferenceIdeal.RefValue

end
-- ==== Proof.lean ====
/-
  A document classifier over a word graph: the kernel against its reference, on the extended reals.

  Both programs compute, from a word graph A (600000 weighted edges over 30000 words), a document-by-word matrix X
  (750000 weighted entries, 15000 documents), an embedding table E and the layers' tables:

      H1 = max((A E) W1, 0),  H2 = max((A H1) W2, 0),  H3 = max((A H2) W3, 0),
      Hw = rows of (0.3 E + 0.7 H3) each normalised (mean, variance over the 300 columns, offset 1e-5) times g plus b,
      D  = X Hw + X E,
      out = (max(max(D M1 + c1, 0) M2 + c2, 0)) M3 + c3        (15000 × 2),

  the constants 0.3, 0.7, 300 and 1e-5 being the same 32-bit float words in both programs. The sparse products A ·, X ·
  are host operations in both (gather, scale, scatter-add). The kernel runs the five dense stages as pipelined regions
  over blocks of 3000, 3000, 3000, 2000 and 1000 rows, with the matrix unit fed operands narrowed to a shorter float
  format; the reference runs them as host operations on whole arrays.

  On the extended reals the narrowing is the identity and the matrix unit's product is the host's product, so each
  region's block is the corresponding rows of the whole-array stage (every stage acts on a row by itself), the blocks
  tile the output, and the kernel's result is the same composed function of the arguments as the reference's, operation
  for operation. No law of arithmetic is used beyond that, so the precondition (finite inputs) is never opened.

  The frames of the two kernel programs are the generated ones; the reference's frame is its generated run with the
  result dropped; the idealization rewrote no operation, so that claim is trivial.
-/
import proofs.«177264_j67817533604035_1_alg».proof.Defs
import proofs.«177264_j67817533604035_1_alg».proof.Proof.Gen.Kernel
import proofs.«177264_j67817533604035_1_alg».proof.Proof.Gen.Kernel.Skeleton
import proofs.«177264_j67817533604035_1_alg».proof.Proof.Gen.Kernel.Launch
import proofs.«177264_j67817533604035_1_alg».proof.Proof.Gen.Kernel.Points
import proofs.«177264_j67817533604035_1_alg».proof.Proof.Gen.Kernel.Frame
import proofs.«177264_j67817533604035_1_alg».proof.Proof.Gen.KernelIdeal
import proofs.«177264_j67817533604035_1_alg».proof.Proof.Gen.KernelIdeal.Skeleton
import proofs.«177264_j67817533604035_1_alg».proof.Proof.Gen.KernelIdeal.Launch
import proofs.«177264_j67817533604035_1_alg».proof.Proof.Gen.KernelIdeal.Points
import proofs.«177264_j67817533604035_1_alg».proof.Proof.Gen.KernelIdeal.Frame
import proofs.«177264_j67817533604035_1_alg».proof.Proof.Gen.ReferenceIdeal
import proofs.«177264_j67817533604035_1_alg».proof.Proof.Gen.Pre_finite_inputs
import proofs.«177264_j67817533604035_1_alg».proof.Proof.Gen.ReferenceIdeal.Run
import proofs.«177264_j67817533604035_1_alg».proof.Proof.KernelRun
import proofs.«177264_j67817533604035_1_alg».proof.Proof.Fold
import proofs.«177264_j67817533604035_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 4000000 in
/-- Both programs end with the network of the arguments at their result: the kernel by the fold through its ten
    segments, the reference by its run's composed term; the arguments agree, so the results are one array. -/
theorem algebraic : Cert.algebraic_KernelIdeal_ReferenceIdeal := by
  intro m ρ m' ρ' _ hagree
  refine ⟨fun c => Cert.KernelIdeal.Fold.netB
      Cert.ReferenceIdeal.Gen.bcast_S_S30000x300
      Cert.ReferenceIdeal.Gen.reducesTo_S30000x300_S30000_d1
      Cert.ReferenceIdeal.Gen.h_S_
      Cert.ReferenceIdeal.Gen.bcast_S30000_S30000x1_0
      Cert.ReferenceIdeal.Gen.bcast_S_S30000x1
      Cert.ReferenceIdeal.Gen.bcast_S30000x1_S30000x300_0_1
      Cert.ReferenceIdeal.Gen.bcast_S300_S1x300_1
      Cert.ReferenceIdeal.Gen.bcast_S1x300_S30000x300_0_1
      Cert.ReferenceIdeal.Gen.bcast_S_S15000x300
      Cert.ReferenceIdeal.Gen.bcast_S_S15000x150
      Cert.ReferenceIdeal.Gen.bcast_S1x300_S15000x300_0_1
      Cert.ReferenceIdeal.Gen.bcast_S1x150_S15000x150_0_1
      Cert.ReferenceIdeal.Gen.bcast_S1x2_S15000x2_0_1
      Cert.ReferenceIdeal.Gen.bcast_S150_S1x150_1
      Cert.ReferenceIdeal.Gen.bcast_S2_S1x2_1
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · refine (θ_run Cert.KernelIdeal.defs _ _).mono (fun r h c => ?_) (Cert.KernelIdeal.RunAll.run_all (F := Ideal) m ρ)
    exact ⟨(h c _ (Cert.KernelIdeal.Gen.mem_uc Cert.KernelIdeal.main_v74 (by decide))).trans
        (Cert.KernelIdeal.Fold.result_eq
          Cert.ReferenceIdeal.Gen.bcast_S_S30000x300
      Cert.ReferenceIdeal.Gen.reducesTo_S30000x300_S30000_d1
      Cert.ReferenceIdeal.Gen.h_S_
      Cert.ReferenceIdeal.Gen.bcast_S30000_S30000x1_0
      Cert.ReferenceIdeal.Gen.bcast_S_S30000x1
      Cert.ReferenceIdeal.Gen.bcast_S30000x1_S30000x300_0_1
      Cert.ReferenceIdeal.Gen.bcast_S300_S1x300_1
      Cert.ReferenceIdeal.Gen.bcast_S1x300_S30000x300_0_1
      Cert.ReferenceIdeal.Gen.bcast_S_S15000x300
      Cert.ReferenceIdeal.Gen.bcast_S_S15000x150
      Cert.ReferenceIdeal.Gen.bcast_S1x300_S15000x300_0_1
      Cert.ReferenceIdeal.Gen.bcast_S1x150_S15000x150_0_1
      Cert.ReferenceIdeal.Gen.bcast_S1x2_S15000x2_0_1
      Cert.ReferenceIdeal.Gen.bcast_S150_S1x150_1
      Cert.ReferenceIdeal.Gen.bcast_S2_S1x2_1 m ρ c),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c),
      (h c _ (Cert.KernelIdeal.Gen.mem_uc Cert.KernelIdeal.main_arg13 (by decide))).trans (Cert.KernelIdeal.Gen.W10_main_arg13 m ρ c),
      (h c _ (Cert.KernelIdeal.Gen.mem_uc Cert.KernelIdeal.main_arg14 (by decide))).trans (Cert.KernelIdeal.Gen.W10_main_arg14 m ρ c),
      (h c _ (Cert.KernelIdeal.Gen.mem_uc Cert.KernelIdeal.main_arg15 (by decide))).trans (Cert.KernelIdeal.Gen.W10_main_arg15 m ρ c),
      (h c _ (Cert.KernelIdeal.Gen.mem_uc Cert.KernelIdeal.main_arg16 (by decide))).trans (Cert.KernelIdeal.Gen.W10_main_arg16 m ρ c),
      (h c _ (Cert.KernelIdeal.Gen.mem_uc Cert.KernelIdeal.main_arg17 (by decide))).trans (Cert.KernelIdeal.Gen.W10_main_arg17 m ρ c)⟩
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17⟩ := hagree c
    rw [Cert.ReferenceIdeal.RefValue.result_eq m' c, e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
